-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S_ : Shape := ⟨0, ![]⟩

class Facts : Prop where
  bcast_S_S8192x80 : S_.BroadcastsInDim S8192x80 (![] : Fin 0 → Fin S8192x80.rank)
  reducesTo_S8192x80_S_d0_1 : S8192x80.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x1 : S_.BroadcastsInDim S8192x1 (![] : Fin 0 → Fin S8192x1.rank)
  reducesTo_S8192x1_S_d0_1 : S8192x1.ReducesTo [0, 1] S_
  bcast_S_S512x113 : S_.BroadcastsInDim S512x113 (![] : Fin 0 → Fin S512x113.rank)
  reducesTo_S512x113_S_d0_1 : S512x113.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S1536x544 : S_.BroadcastsInDim S1536x544 (![] : Fin 0 → Fin S1536x544.rank)
  reducesTo_S1536x544_S_d0_1 : S1536x544.ReducesTo [0, 1] S_
  bcast_S_S512x544 : S_.BroadcastsInDim S512x544 (![] : Fin 0 → Fin S512x544.rank)
  reducesTo_S512x544_S_d0_1 : S512x544.ReducesTo [0, 1] S_
  bcast_S_S512x512 : S_.BroadcastsInDim S512x512 (![] : Fin 0 → Fin S512x512.rank)
  reducesTo_S512x512_S_d0_1 : S512x512.ReducesTo [0, 1] S_

variable [Facts]

def fn_part6 {F : FTy → Type} [FloatOps F] (main_arg21 : FVec F S512 .f32) (main_arg22 : FVec F S512x512 .f32) (main_arg23 : FVec F S512 .f32) (main_v98 : IVec S_ 1) (main_v101 : IVec S512x544 1) (main_c_39 : IVec S_ 1) : IVec S_ 1 :=
  let main_v102 : IVec S_ 1 := (fun x v => Host.reduce IntOp.andi x v reducesTo_S512x544_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  main_v118

def fn_part5 {F : FTy → Type} [FloatOps F] (main_arg18 : FVec F S512x544 .f32) (main_arg19 : FVec F S512 .f32) (main_arg20 : FVec F S512x544 .f32) (main_arg21 : FVec F S512 .f32) (main_arg22 : FVec F S512x512 .f32) (main_arg23 : FVec F S512 .f32) (main_v83 : IVec S_ 1) (main_v84 : FVec F S1536 .f32) (main_cst_32 : FVec F S_ .f32) : IVec S_ 1 :=
  let main_v85 : FVec F S1536 .f32 := broadcastInDim S1536 ![] bcast_S_S1536 main_cst_32
  let main_v86 : IVec S1536 1 := cmpf .olt main_v84 main_v85
  let main_c_33 : IVec S_ 1 := constantI S_ 1 1#1
  let main_v87 : IVec S_ 1 := (fun x v => Host.reduce IntOp.andi x v reducesTo_S1536_S_d0 h_S_) main_v86 main_c_33
  let main_v88 : IVec S_ 1 := andi main_v83 main_v87
  let main_v89 : FVec F S512x544 .f32 := Host.absf main_arg18
  let main_cst_34 : FVec F S_ .f32 := constant S_ .f32 0x7F800000#32
  let main_v90 : FVec F S512x544 .f32 := broadcastInDim S512x544 ![] bcast_S_S512x544 main_cst_34
  let main_v91 : IVec S512x544 1 := cmpf .olt main_v89 main_v90
  let main_c_35 : IVec S_ 1 := constantI S_ 1 1#1
  let main_v92 : IVec S_ 1 := (fun x v => Host.reduce IntOp.andi x v reducesTo_S512x544_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x544 .f32 := Host.absf main_arg20
  let main_cst_38 : FVec F S_ .f32 := constant S_ .f32 0x7F800000#32
  let main_v100 : FVec F S512x544 .f32 := broadcastInDim S512x544 ![] bcast_S_S512x544 main_cst_38
  let main_v101 : IVec S512x544 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v63 : IVec S_ 1) (main_v67 : IVec S_ 1) : IVec S_ 1 :=
  let main_v68 : IVec S_ 1 := andi main_v63 main_v67
  let main_v69 : FVec F S1536x544 .f32 := Host.absf main_arg14
  let main_cst_26 : FVec F S_ .f32 := constant S_ .f32 0x7F800000#32
  let main_v70 : FVec F S1536x544 .f32 := broadcastInDim S1536x544 ![] bcast_S_S1536x544 main_cst_26
  let main_v71 : IVec S1536x544 1 := cmpf .olt main_v69 main_v70
  let main_c_27 : IVec S_ 1 := constantI S_ 1 1#1
  let main_v72 : IVec S_ 1 := (fun x v => Host.reduce IntOp.andi x v reducesTo_S1536x544_S_d0_1 h_S_) main_v71 main_c_27
  let main_v73 : IVec S_ 1 := andi main_v68 main_v72
  let main_v74 : FVec F S1536x512 .f32 := Host.absf main_arg15
  let main_cst_28 : FVec F S_ .f32 := constant S_ .f32 0x7F800000#32
  let main_v75 : FVec F S1536x512 .f32 := broadcastInDim S1536x512 ![] bcast_S_S1536x512 main_cst_28
  let main_v76 : IVec S1536x512 1 := cmpf .olt main_v74 main_v75
  let main_c_29 : IVec S_ 1 := constantI S_ 1 1#1
  let main_v77 : IVec S_ 1 := (fun x v => Host.reduce IntOp.andi x v reducesTo_S1536x512_S_d0_1 h_S_) main_v76 main_c_29
  let main_v78 : IVec S_ 1 := andi main_v73 main_v77
  let main_v79 : FVec F S1536 .f32 := Host.absf main_arg16
  let main_cst_30 : FVec F S_ .f32 := constant S_ .f32 0x7F800000#32
  let main_v80 : FVec F S1536 .f32 := broadcastInDim S1536 ![] bcast_S_S1536 main_cst_30
  let main_v81 : IVec S1536 1 := cmpf .olt main_v79 main_v80
  let main_c_31 : IVec S_ 1 := constantI S_ 1 1#1
  let main_v82 : IVec S_ 1 := (fun x v => Host.reduce IntOp.andi x v reducesTo_S1536_S_d0 h_S_) main_v81 main_c_31
  let main_v83 : IVec S_ 1 := andi main_v78 main_v82
  let main_v84 : FVec F S1536 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v48 : IVec S_ 1) (main_v49 : FVec F S1536x512 .f32) (main_v50 : FVec F S1536x512 .f32) : IVec S_ 1 :=
  let main_v51 : IVec S1536x512 1 := cmpf .olt main_v49 main_v50
  let main_c_19 : IVec S_ 1 := constantI S_ 1 1#1
  let main_v52 : IVec S_ 1 := (fun x v => Host.reduce IntOp.andi x v reducesTo_S1536x512_S_d0_1 h_S_) main_v51 main_c_19
  let main_v53 : IVec S_ 1 := andi main_v48 main_v52
  let main_v54 : FVec F S1536x512 .f32 := Host.absf main_arg11
  let main_cst_20 : FVec F S_ .f32 := constant S_ .f32 0x7F800000#32
  let main_v55 : FVec F S1536x512 .f32 := broadcastInDim S1536x512 ![] bcast_S_S1536x512 main_cst_20
  let main_v56 : IVec S1536x512 1 := cmpf .olt main_v54 main_v55
  let main_c_21 : IVec S_ 1 := constantI S_ 1 1#1
  let main_v57 : IVec S_ 1 := (fun x v => Host.reduce IntOp.andi x v reducesTo_S1536x512_S_d0_1 h_S_) main_v56 main_c_21
  let main_v58 : IVec S_ 1 := andi main_v53 main_v57
  let main_v59 : FVec F S1536 .f32 := Host.absf main_arg12
  let main_cst_22 : FVec F S_ .f32 := constant S_ .f32 0x7F800000#32
  let main_v60 : FVec F S1536 .f32 := broadcastInDim S1536 ![] bcast_S_S1536 main_cst_22
  let main_v61 : IVec S1536 1 := cmpf .olt main_v59 main_v60
  let main_c_23 : IVec S_ 1 := constantI S_ 1 1#1
  let main_v62 : IVec S_ 1 := (fun x v => Host.reduce IntOp.andi x v reducesTo_S1536_S_d0 h_S_) main_v61 main_c_23
  let main_v63 : IVec S_ 1 := andi main_v58 main_v62
  let main_v64 : FVec F S1536 .f32 := Host.absf main_arg13
  let main_cst_24 : FVec F S_ .f32 := constant S_ .f32 0x7F800000#32
  let main_v65 : FVec F S1536 .f32 := broadcastInDim S1536 ![] bcast_S_S1536 main_cst_24
  let main_v66 : IVec S1536 1 := cmpf .olt main_v64 main_v65
  let main_c_25 : IVec S_ 1 := constantI S_ 1 1#1
  let main_v67 : IVec S_ 1 := (fun x v => Host.reduce IntOp.andi x v reducesTo_S1536_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v33 : IVec S_ 1) : IVec S_ 1 :=
  let main_v34 : FVec F S8192x1 .f32 := Host.absf main_arg7
  let main_cst_12 : FVec F S_ .f32 := constant S_ .f32 0x7F800000#32
  let main_v35 : FVec F S8192x1 .f32 := broadcastInDim S8192x1 ![] bcast_S_S8192x1 main_cst_12
  let main_v36 : IVec S8192x1 1 := cmpf .olt main_v34 main_v35
  let main_c_13 : IVec S_ 1 := constantI S_ 1 1#1
  let main_v37 : IVec S_ 1 := (fun x v => Host.reduce IntOp.andi x v reducesTo_S8192x1_S_d0_1 h_S_) main_v36 main_c_13
  let main_v38 : IVec S_ 1 := andi main_v33 main_v37
  let main_v39 : FVec F S512x113 .f32 := Host.absf main_arg8
  let main_cst_14 : FVec F S_ .f32 := constant S_ .f32 0x7F800000#32
  let main_v40 : FVec F S512x113 .f32 := broadcastInDim S512x113 ![] bcast_S_S512x113 main_cst_14
  let main_v41 : IVec S512x113 1 := cmpf .olt main_v39 main_v40
  let main_c_15 : IVec S_ 1 := constantI S_ 1 1#1
  let main_v42 : IVec S_ 1 := (fun x v => Host.reduce IntOp.andi x v reducesTo_S512x113_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1536x512 .f32 := Host.absf main_arg10
  let main_cst_18 : FVec F S_ .f32 := constant S_ .f32 0x7F800000#32
  let main_v50 : FVec F S1536x512 .f32 := broadcastInDim S1536x512 ![] bcast_S_S1536x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S8192x32 .f32) (main_arg5 : FVec F S8192x512 .f32) (main_arg6 : FVec F S8192x512 .f32) (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg4
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8192x80 .f32) (main_arg1 : FVec F S8192x32 .f32) (main_arg2 : FVec F S8192x32 .f32) (main_arg3 : FVec F S8192x32 .f32) (main_arg4 : FVec F S8192x32 .f32) (main_arg5 : FVec F S8192x512 .f32) (main_arg6 : FVec F S8192x512 .f32) (main_arg7 : FVec F S8192x1 .f32) (main_arg8 : FVec F S512x113 .f32) (main_arg9 : FVec F S512 .f32) (main_arg10 : FVec F S1536x512 .f32) (main_arg11 : FVec F S1536x512 .f32) (main_arg12 : FVec F S1536 .f32) (main_arg13 : FVec F S1536 .f32) (main_arg14 : FVec F S1536x544 .f32) (main_arg15 : FVec F S1536x512 .f32) (main_arg16 : FVec F S1536 .f32) (main_arg17 : FVec F S1536 .f32) (main_arg18 : FVec F S512x544 .f32) (main_arg19 : FVec F S512 .f32) (main_arg20 : FVec F S512x544 .f32) (main_arg21 : FVec F S512 .f32) (main_arg22 : FVec F S512x512 .f32) (main_arg23 : FVec F S512 .f32) : IVec S_ 1 :=
  let main_v0 : FVec F S8192x80 .f32 := Host.absf main_arg0
  let main_cst : FVec F S_ .f32 := constant S_ .f32 0x7F800000#32
  let main_v1 : FVec F S8192x80 .f32 := broadcastInDim S8192x80 ![] bcast_S_S8192x80 main_cst
  let main_v2 : IVec S8192x80 1 := cmpf .olt main_v0 main_v1
  let main_c : IVec S_ 1 := constantI S_ 1 1#1
  let main_v3 : IVec S_ 1 := (fun x v => Host.reduce IntOp.andi x v reducesTo_S8192x80_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S8192x113 : Shape := ⟨2, ![8192, 113]⟩
abbrev S_ : Shape := ⟨0, ![]⟩
abbrev S8192x128 : Shape := ⟨2, ![8192, 128]⟩
abbrev S512x128 : Shape := ⟨2, ![512, 128]⟩
abbrev S128x512 : Shape := ⟨2, ![128, 512]⟩
abbrev S512x1536 : Shape := ⟨2, ![512, 1536]⟩
abbrev S544x1536 : Shape := ⟨2, ![544, 1536]⟩
abbrev S32x1536 : Shape := ⟨2, ![32, 1536]⟩
abbrev S544x512 : Shape := ⟨2, ![544, 512]⟩
abbrev S32x512 : Shape := ⟨2, ![32, 512]⟩
abbrev S512x32 : Shape := ⟨2, ![512, 32]⟩
abbrev S1x512 : Shape := ⟨2, ![1, 512]⟩
abbrev S1x1536 : Shape := ⟨2, ![1, 1536]⟩

abbrev nBuf : Space → Nat
  | .hbm => 56
  | .vmem => 37
  | .smem => 0
  | _ => 0

abbrev bufTy : (tb : Table) → Fin (tcTables nBuf tb) → BufTy
  | .hbm, ⟨0, _⟩ => ⟨S8192x80, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x32, .f32⟩
  | .hbm, ⟨5, _⟩ => ⟨S8192x512, .f32⟩
  | .hbm, ⟨6, _⟩ => ⟨S8192x512, .f32⟩
  | .hbm, ⟨7, _⟩ => ⟨S8192x1, .f32⟩
  | .hbm, ⟨8, _⟩ => ⟨S512x113, .f32⟩
  | .hbm, ⟨9, _⟩ => ⟨S512, .f32⟩
  | .hbm, ⟨10, _⟩ => ⟨S1536x512, .f32⟩
  | .hbm, ⟨11, _⟩ => ⟨S1536x512, .f32⟩
  | .hbm, ⟨12, _⟩ => ⟨S1536, .f32⟩
  | .hbm, ⟨13, _⟩ => ⟨S1536, .f32⟩
  | .hbm, ⟨14, _⟩ => ⟨S1536x544, .f32⟩
  | .hbm, ⟨15, _⟩ => ⟨S1536x512, .f32⟩
  | .hbm, ⟨16, _⟩ => ⟨S1536, .f32⟩
  | .hbm, ⟨17, _⟩ => ⟨S1536, .f32⟩
  | .hbm, ⟨18, _⟩ => ⟨S512x544, .f32⟩
  | .hbm, ⟨19, _⟩ => ⟨S512, .f32⟩
  | .hbm, ⟨20, _⟩ => ⟨S512x544, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S8192x113, .f32⟩
  | .hbm, ⟨25, _⟩ => ⟨S_, .i32⟩
  | .hbm, ⟨26, _⟩ => ⟨S_, .f32⟩
  | .hbm, ⟨27, _⟩ => ⟨S8192x128, .f32⟩
  | .hbm, ⟨28, _⟩ => ⟨S_, .i32⟩
  | .hbm, ⟨29, _⟩ => ⟨S_, .f32⟩
  | .hbm, ⟨30, _⟩ => ⟨S512x128, .f32⟩
  | .hbm, ⟨31, _⟩ => ⟨S128x512, .f32⟩
  | .hbm, ⟨32, _⟩ => ⟨S128x512, .bf16⟩
  | .hbm, ⟨33, _⟩ => ⟨S512x1536, .f32⟩
  | .hbm, ⟨34, _⟩ => ⟨S512x1536, .bf16⟩
  | .hbm, ⟨35, _⟩ => ⟨S512x1536, .f32⟩
  | .hbm, ⟨36, _⟩ => ⟨S512x1536, .bf16⟩
  | .hbm, ⟨37, _⟩ => ⟨S544x1536, .f32⟩
  | .hbm, ⟨38, _⟩ => ⟨S544x1536, .bf16⟩
  | .hbm, ⟨39, _⟩ => ⟨S512x1536, .bf16⟩
  | .hbm, ⟨40, _⟩ => ⟨S32x1536, .bf16⟩
  | .hbm, ⟨41, _⟩ => ⟨S512x1536, .f32⟩
  | .hbm, ⟨42, _⟩ => ⟨S512x1536, .bf16⟩
  | .hbm, ⟨43, _⟩ => ⟨S544x512, .f32⟩
  | .hbm, ⟨44, _⟩ => ⟨S544x512, .bf16⟩
  | .hbm, ⟨45, _⟩ => ⟨S512x512, .bf16⟩
  | .hbm, ⟨46, _⟩ => ⟨S32x512, .bf16⟩
  | .hbm, ⟨47, _⟩ => ⟨S544x512, .f32⟩
  | .hbm, ⟨48, _⟩ => ⟨S544x512, .bf16⟩
  | .hbm, ⟨49, _⟩ => ⟨S512x512, .bf16⟩
  | .hbm, ⟨50, _⟩ => ⟨S32x512, .bf16⟩
  | .hbm, ⟨51, _⟩ => ⟨S512x512, .f32⟩
  | .hbm, ⟨52, _⟩ => ⟨S512x512, .bf16⟩
  | .hbm, ⟨53, _⟩ => ⟨S8192x512, .f32⟩
  | .hbm, ⟨54, _⟩ => ⟨S8192x512, .f32⟩
  | .hbm, ⟨55, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S128x512, .bf16⟩
  | .local _ .vmem, ⟨13, _⟩ => ⟨S512, .f32⟩
  | .local _ .vmem, ⟨14, _⟩ => ⟨S512x1536, .bf16⟩
  | .local _ .vmem, ⟨15, _⟩ => ⟨S512x1536, .bf16⟩
  | .local _ .vmem, ⟨16, _⟩ => ⟨S1536, .f32⟩
  | .local _ .vmem, ⟨17, _⟩ => ⟨S1536, .f32⟩
  | .local _ .vmem, ⟨18, _⟩ => ⟨S512x1536, .bf16⟩
  | .local _ .vmem, ⟨19, _⟩ => ⟨S32x1536, .bf16⟩
  | .local _ .vmem, ⟨20, _⟩ => ⟨S512x1536, .bf16⟩
  | .local _ .vmem, ⟨21, _⟩ => ⟨S1536, .f32⟩
  | .local _ .vmem, ⟨22, _⟩ => ⟨S1536, .f32⟩
  | .local _ .vmem, ⟨23, _⟩ => ⟨S512x512, .bf16⟩
  | .local _ .vmem, ⟨24, _⟩ => ⟨S32x512, .bf16⟩
  | .local _ .vmem, ⟨25, _⟩ => ⟨S512, .f32⟩
  | .local _ .vmem, ⟨26, _⟩ => ⟨S512x512, .bf16⟩
  | .local _ .vmem, ⟨27, _⟩ => ⟨S32x512, .bf16⟩
  | .local _ .vmem, ⟨28, _⟩ => ⟨S512, .f32⟩
  | .local _ .vmem, ⟨29, _⟩ => ⟨S512x512, .bf16⟩
  | .local _ .vmem, ⟨30, _⟩ => ⟨S512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | _, _ => ⟨S8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_call0_v0 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v25_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1536 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  concatenates_S8192x1_S8192x80_S8192x32_S8192x113_d1 : Shape.Concatenates [S8192x1, S8192x80, S8192x32] S8192x113 1
  pads_S8192x113_S8192x128_000_0150 : S8192x113.Pads (![0, 0] : Fin 2 → Nat) ![0, 15] ![0, 0] S8192x128
  h_S_ : 0 < S_.numel
  pads_S512x113_S512x128_000_0150 : S512x113.Pads (![0, 0] : Fin 2 → Nat) ![0, 15] ![0, 0] S512x128
  transposes_S512x128_S128x512_1_0 : S512x128.Transposes [1, 0] S128x512
  bitsLt_bf16_f32 : FTy.bits .bf16 < FTy.bits .f32
  transposes_S1536x512_S512x1536_1_0 : S1536x512.Transposes [1, 0] S512x1536
  transposes_S1536x544_S544x1536_1_0 : S1536x544.Transposes [1, 0] S544x1536
  slices_S544x1536_S512x1536_0_0 : S544x1536.Slices ![0, 0] S512x1536
  slices_S544x1536_S32x1536_512_0 : S544x1536.Slices ![512, 0] S32x1536
  transposes_S512x544_S544x512_1_0 : S512x544.Transposes [1, 0] S544x512
  slices_S544x512_S512x512_0_0 : S544x512.Slices ![0, 0] S512x512
  slices_S544x512_S32x512_512_0 : S544x512.Slices ![512, 0] S32x512
  transposes_S512x512_S512x512_1_0 : S512x512.Transposes [1, 0] S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S512x32_S512x32_0_0 : ∀ a, (![0, 0] : Fin 2 → Nat) a + S512x32.size a ≤ S512x32.size a
  h_S512x32 : 0 < S512x32.numel
  inb_S32x1536_S32x1536_0_0 : ∀ a, (![0, 0] : Fin 2 → Nat) a + S32x1536.size a ≤ S32x1536.size a
  h_S32x1536 : 0 < S32x1536.numel
  shapeCasts_S32x1536_S32x1536 : S32x1536.ShapeCasts S32x1536
  shapeCasts_S512x512_S512x512 : S512x512.ShapeCasts S512x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  dot_S512x128_S128x512_S512x512_1_0_0_1_n_n_wf : DotDims.WF S512x128 S128x512 S512x512 [1] [0] [0] [1] [] []
  dot_S512x512_S512x1536_S512x1536_1_0_0_1_n_n_wf : DotDims.WF S512x512 S512x1536 S512x1536 [1] [0] [0] [1] [] []
  dot_S512x32_S32x1536_S512x1536_1_0_0_1_n_n_wf : DotDims.WF S512x32 S32x1536 S512x1536 [1] [0] [0] [1] [] []
  dot_S512x512_S512x512_S512x512_1_0_0_1_n_n_wf : DotDims.WF S512x512 S512x512 S512x512 [1] [0] [0] [1] [] []
  dot_S512x32_S32x512_S512x512_1_0_0_1_n_n_wf : DotDims.WF S512x32 S32x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S8192x32.size a
  hwx0_2 : ∀ i : grid0.Coords, EltTy.bits .f32 = 32 ∨ (Rect.block (s := S8192x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S8192x32.size a
  hwx0_3 : ∀ i : grid0.Coords, EltTy.bits .f32 = 32 ∨ (Rect.block (s := S8192x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x512.size a
  hwx0_4 : ∀ i : grid0.Coords, EltTy.bits .f32 = 32 ∨ (Rect.block (s := S8192x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .bf16 = 32 ∨ (Rect.block (s := S128x512) S128x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1536.size a ≤ S512x1536.size a
  hwx0_8 : ∀ i : grid0.Coords, EltTy.bits .bf16 = 32 ∨ (Rect.block (s := S512x1536) S512x1536.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1536.size a ≤ S512x1536.size a
  hwx0_9 : ∀ i : grid0.Coords, EltTy.bits .bf16 = 32 ∨ (Rect.block (s := S512x1536) S512x1536.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1536.size a ≤ S1536.size a
  hwx0_10 : ∀ i : grid0.Coords, EltTy.bits .f32 = 32 ∨ (Rect.block (s := S1536) S1536.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1536.size a ≤ S1536.size a
  hwx0_11 : ∀ i : grid0.Coords, EltTy.bits .f32 = 32 ∨ (Rect.block (s := S1536) S1536.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1536.size a ≤ S512x1536.size a
  hwx0_12 : ∀ i : grid0.Coords, EltTy.bits .bf16 = 32 ∨ (Rect.block (s := S512x1536) S512x1536.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x1536.size a ≤ S32x1536.size a
  hwx0_13 : ∀ i : grid0.Coords, EltTy.bits .bf16 = 32 ∨ (Rect.block (s := S32x1536) S32x1536.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1536.size a ≤ S512x1536.size a
  hwx0_14 : ∀ i : grid0.Coords, EltTy.bits .bf16 = 32 ∨ (Rect.block (s := S512x1536) S512x1536.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1536.size a ≤ S1536.size a
  hwx0_15 : ∀ i : grid0.Coords, EltTy.bits .f32 = 32 ∨ (Rect.block (s := S1536) S1536.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1536.size a ≤ S1536.size a
  hwx0_16 : ∀ i : grid0.Coords, EltTy.bits .f32 = 32 ∨ (Rect.block (s := S1536) S1536.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S32x512.size a ≤ S32x512.size a
  hwx0_18 : ∀ i : grid0.Coords, EltTy.bits .bf16 = 32 ∨ (Rect.block (s := S32x512) S32x512.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S512x512.size a
  hwx0_20 : ∀ i : grid0.Coords, EltTy.bits .bf16 = 32 ∨ (Rect.block (s := S512x512) S512x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S32x512.size a ≤ S32x512.size a
  hwx0_21 : ∀ i : grid0.Coords, EltTy.bits .bf16 = 32 ∨ (Rect.block (s := S32x512) S32x512.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512.size a ≤ S512.size a
  hwx0_22 : ∀ i : grid0.Coords, EltTy.bits .f32 = 32 ∨ (Rect.block (s := S512) S512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x512.size a ≤ S512x512.size a
  hwx0_23 : ∀ i : grid0.Coords, EltTy.bits .bf16 = 32 ∨ (Rect.block (s := S512x512) S512x512.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512.size a ≤ S512.size a
  hwx0_24 : ∀ i : grid0.Coords, EltTy.bits .f32 = 32 ∨ (Rect.block (s := S512) S512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S512x512.size a ≤ S8192x512.size a
  hwx0_25 : ∀ i : grid0.Coords, EltTy.bits .f32 = 32 ∨ (Rect.block (s := S8192x512) S512x512.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S512x512.size a ≤ S8192x512.size a
  hwx0_26 : ∀ i : grid0.Coords, EltTy.bits .f32 = 32 ∨ (Rect.block (s := S8192x512) S512x512.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S512x512.size a ≤ S8192x512.size a
  hwx0_27 : ∀ i : grid0.Coords, EltTy.bits .f32 = 32 ∨ (Rect.block (s := S8192x512) S512x512.size (cc0_transform_27 i) (hinb0_27 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x32_S32x1536_S512x1536_1_0_0_1_n_n : DotDims S512x32 S32x1536 S512x1536 where
  lhsContracting := [1]
  rhsContracting := [0]
  lhsNonContracting := [0]
  rhsNonContracting := [1]
  lhsBatch := []
  rhsBatch := []
  wf := dot_S512x32_S32x1536_S512x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf

abbrev win0_0 : Pipeline.Window sig grid0 :=
  Pipeline.Window.ofSpec (Memref.whole main_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S512x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S1536.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S512x1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S32x1536.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S512x1536.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S1536.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S1536.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S32x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v21) S512x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v22) S32x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg21) S512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v24) S512x512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg23) S512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v25_0) S512x512.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v25_1) S512x512.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v25_2) S512x512.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S8192x80 : Shape := ⟨2, ![8192, 80]⟩
abbrev S8192x32 : Shape := ⟨2, ![8192, 32]⟩
abbrev S8192x512 : Shape := ⟨2, ![8192, 512]⟩
abbrev S8192x1 : Shape := ⟨2, ![8192, 1]⟩
abbrev S512x113 : Shape := ⟨2, ![512, 113]⟩
abbrev S512 : Shape := ⟨1, ![512]⟩
abbrev S1536x512 : Shape := ⟨2, ![1536, 512]⟩
abbrev S1536 : Shape := ⟨1, ![1536]⟩
abbrev S1536x544 : Shape := ⟨2, ![1536, 544]⟩
abbrev S512x544 : Shape := ⟨2, ![512, 544]⟩
abbrev S512x512 : Shape := ⟨2, ![512, 512]⟩
abbrev S8192x113 : Shape := ⟨2, ![8192, 113]⟩
abbrev S113x512 : Shape := ⟨2, ![113, 512]⟩
abbrev S1x512 : Shape := ⟨2, ![1, 512]⟩
abbrev S512x1536 : Shape := ⟨2, ![512, 1536]⟩
abbrev S8192x1536 : Shape := ⟨2, ![8192, 1536]⟩
abbrev S1x1536 : Shape := ⟨2, ![1, 1536]⟩
abbrev S_ : Shape := ⟨0, ![]⟩
abbrev S8192x544 : Shape := ⟨2, ![8192, 544]⟩
abbrev S544x1536 : Shape := ⟨2, ![544, 1536]⟩
abbrev S544x512 : Shape := ⟨2, ![544, 512]⟩

abbrev nBuf : Space → Nat
  | .hbm => 142
  | .vmem => 0
  | .smem => 0
  | _ => 0

abbrev hbmTy0_0 (i : Nat) : BufTy := match i % 128 with
  | 0 => ⟨S8192x80, .f32⟩
  | 1 => ⟨S8192x32, .f32⟩
  | 2 => ⟨S8192x32, .f32⟩
  | 3 => ⟨S8192x32, .f32⟩
  | 4 => ⟨S8192x32, .f32⟩
  | 5 => ⟨S8192x512, .f32⟩
  | 6 => ⟨S8192x512, .f32⟩
  | 7 => ⟨S8192x1, .f32⟩
  | 8 => ⟨S512x113, .f32⟩
  | 9 => ⟨S512, .f32⟩
  | 10 => ⟨S1536x512, .f32⟩
  | 11 => ⟨S1536x512, .f32⟩
  | 12 => ⟨S1536, .f32⟩
  | 13 => ⟨S1536, .f32⟩
  | 14 => ⟨S1536x544, .f32⟩
  | 15 => ⟨S1536x512, .f32⟩
  | 16 => ⟨S1536, .f32⟩
  | 17 => ⟨S1536, .f32⟩
  | 18 => ⟨S512x544, .f32⟩
  | 19 => ⟨S512, .f32⟩
  | 20 => ⟨S512x544, .f32⟩
  | 21 => ⟨S512, .f32⟩
  | 22 => ⟨S512x512, .f32⟩
  | 23 => ⟨S512, .f32⟩
  | 24 => ⟨S8192x113, .f32⟩
  | 25 => ⟨S113x512, .f32⟩
  | 26 => ⟨S8192x512, .f32⟩
  | 27 => ⟨S1x512, .f32⟩
  | 28 => ⟨S8192x512, .f32⟩
  | 29 => ⟨S8192x512, .f32⟩
  | 30 => ⟨S512x1536, .f32⟩
  | 31 => ⟨S8192x1536, .f32⟩
  | 32 => ⟨S1x1536, .f32⟩
  | 33 => ⟨S8192x1536, .f32⟩
  | 34 => ⟨S8192x1536, .f32⟩
  | 35 => ⟨S512x1536, .f32⟩
  | 36 => ⟨S8192x1536, .f32⟩
  | 37 => ⟨S1x1536, .f32⟩
  | 38 => ⟨S8192x1536, .f32⟩
  | 39 => ⟨S8192x1536, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S8192x544, .f32⟩
  | 75 => ⟨S544x1536, .f32⟩
  | 76 => ⟨S8192x1536, .f32⟩
  | 77 => ⟨S1x1536, .f32⟩
  | 78 => ⟨S8192x1536, .f32⟩
  | 79 => ⟨S8192x1536, .f32⟩
  | 80 => ⟨S512x1536, .f32⟩
  | 81 => ⟨S8192x1536, .f32⟩
  | 82 => ⟨S1x1536, .f32⟩
  | 83 => ⟨S8192x1536, .f32⟩
  | 84 => ⟨S8192x1536, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S_, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x544, .f32⟩
  | 120 => ⟨S544x512, .f32⟩
  | 121 => ⟨S8192x512, .f32⟩
  | 122 => ⟨S1x512, .f32⟩
  | 123 => ⟨S8192x512, .f32⟩
  | 124 => ⟨S8192x512, .f32⟩
  | 125 => ⟨S_, .f32⟩
  | 126 => ⟨S8192x512, .f32⟩
  | 127 => ⟨S8192x512, .f32⟩
  | _ => ⟨S8192x80, .f32⟩

abbrev hbmTy0_1 (i : Nat) : BufTy := match i % 128 with
  | 0 => ⟨S8192x544, .f32⟩
  | 1 => ⟨S544x512, .f32⟩
  | 2 => ⟨S8192x512, .f32⟩
  | 3 => ⟨S1x512, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S512x512, .f32⟩
  | 10 => ⟨S8192x512, .f32⟩
  | 11 => ⟨S1x512, .f32⟩
  | 12 => ⟨S8192x512, .f32⟩
  | 13 => ⟨S8192x512, .f32⟩
  | _ => ⟨S8192x80, .f32⟩

abbrev hbmTy (i : Nat) : BufTy := match i / 128 with
  | 0 => hbmTy0_0 i
  | 1 => hbmTy0_1 i
  | _ => ⟨S8192x80, .f32⟩

abbrev bufTy : (tb : Table) → Fin (tcTables nBuf tb) → BufTy
  | .hbm, ⟨i, _⟩ => hbmTy i
  | _, _ => ⟨S8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_6 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_8 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call0_cst : Ref sig .tc := ⟨.hbm, 125, rfl⟩
abbrev main_call0_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call1_cst : Ref sig .tc := ⟨.hbm, 134, rfl⟩
abbrev main_call1_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]

class Facts₀ : Prop where
  concatenates_S8192x1_S8192x80_S8192x32_S8192x113_d1 : Shape.Concatenates [S8192x1, S8192x80, S8192x32] S8192x113 1
  transposes_S512x113_S113x512_1_0 : S512x113.Transposes [1, 0] S113x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S1536x512_S512x1536_1_0 : S1536x512.Transposes [1, 0] S512x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S_S8192x512 : S_.BroadcastsInDim S8192x512 (![] : Fin 0 → Fin S8192x512.rank)
  concatenates_S8192x512_S8192x32_S8192x544_d1 : Shape.Concatenates [S8192x512, S8192x32] S8192x544 1
  transposes_S1536x544_S544x1536_1_0 : S1536x544.Transposes [1, 0] S544x1536
  transposes_S512x544_S544x512_1_0 : S512x544.Transposes [1, 0] S544x512
  transposes_S512x512_S512x512_1_0 : S512x512.Transposes [1, 0] S512x512
  dot_S8192x113_S113x512_S8192x512_1_0_0_1_n_n_wf : DotDims.WF S8192x113 S113x512 S8192x512 [1] [0] [0] [1] [] []
  dot_S8192x512_S512x1536_S8192x1536_1_0_0_1_n_n_wf : DotDims.WF S8192x512 S512x1536 S8192x1536 [1] [0] [0] [1] [] []
  dot_S8192x544_S544x1536_S8192x1536_1_0_0_1_n_n_wf : DotDims.WF S8192x544 S544x1536 S8192x1536 [1] [0] [0] [1] [] []
  dot_S8192x544_S544x512_S8192x512_1_0_0_1_n_n_wf : DotDims.WF S8192x544 S544x512 S8192x512 [1] [0] [0] [1] [] []
  dot_S8192x512_S512x512_S8192x512_1_0_0_1_n_n_wf : DotDims.WF S8192x512 S512x512 S8192x512 [1] [0] [0] [1] [] []

variable [Facts₀]

def dot_S8192x113_S113x512_S8192x512_1_0_0_1_n_n : DotDims S8192x113 S113x512 S8192x512 where
  lhsContracting := [1]
  rhsContracting := [0]
  lhsNonContracting := [0]
  rhsNonContracting := [1]
  lhsBatch := []
  rhsBatch := []
  wf := dot_S8192x113_S113x512_S8192x512_1_0_0_1_n_n_wf
def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x544_S544x1536_S8192x1536_1_0_0_1_n_n : DotDims S8192x544 S544x1536 S8192x1536 where
  lhsContracting := [1]
  rhsContracting := [0]
  lhsNonContracting := [0]
  rhsNonContracting := [1]
  lhsBatch := []
  rhsBatch := []
  wf := dot_S8192x544_S544x1536_S8192x1536_1_0_0_1_n_n_wf
def dot_S8192x544_S544x512_S8192x512_1_0_0_1_n_n : DotDims S8192x544 S544x512 S8192x512 where
  lhsContracting := [1]
  rhsContracting := [0]
  lhsNonContracting := [0]
  rhsNonContracting := [1]
  lhsBatch := []
  rhsBatch := []
  wf := dot_S8192x544_S544x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KernelIdealFrame.lean ====
/-
  The frame of the idealized kernel program, at any float instance.

  @main is five stretches of host operations (the three per-row inputs concatenated and padded to 128 columns; the
  input layer's weight padded, transposed and narrowed; the weights of the two recurrent cells and the three dense
  layers transposed, narrowed, and split where a layer reads two inputs) and then one region over a grid of sixteen
  points. Each point sees a block of 512 rows of the six row-indexed inputs and the whole of the nineteen weight
  and bias arrays, and leaves three blocks of 512 rows: the logits and the two new hidden states.

  No host operation writes an argument array, so the region finds each argument as launched (`V_main_argK`).
  The body loads each of its twenty-five input buffers whole, once, and stores each of its three output buffers
  whole, once: what it leaves in an output buffer is therefore a closed function of the twenty-five input blocks
  at the point (`out0_25`, `out0_26`, `out0_27`), written through the payload names of the body's skeleton.
  With that function as the proof data of the pipeline (`dats`) the library's launch theorem gives the run
  (`run_main`), and its post read at the argument arrays is the frame (`frame`).
-/
import proofs.«135078_j14224931684623_2_alg».proof.Proof.Gen.KernelIdeal.Launch
import proofs.«135078_j14224931684623_2_alg».proof.Proof.Gen.KernelIdeal.Skeleton
import proofs.«135078_j14224931684623_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- deciding a fact over the twenty-eight windows, and membership in a rectangle of 512 rows, recurse once per
-- window and once per coordinate
set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory folded through the five stretches
    of host operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates: each only computes its result buffer from its operands. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches and then the region: the shape the launch theorem asks of it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- Closes "none of the twenty-nine host operations writes this reference": each operation writes its one result
    buffer, and the reference differs from every one of them. -/
local macro "host_keeps" : tactic => `(tactic| (
  simp only [hostOps0, hostOps0_1, hostOps0_2, hostOps0_3, hostOps0_4, List.flatten_cons, List.flatten_nil,
    List.append_nil, List.cons_append, List.nil_append, List.Forall, StableHlo.nullary_writes, StableHlo.unary_writes,
    StableHlo.binary_writes, StableHlo.nary_writes, Finset.mem_singleton]
  repeat' apply And.intro
  all_goals exact StableHlo.devRef_ne_of_ne (by decide)))

/-- The host operations write only their own results, never an argument: the region finds each argument array as
    launched. -/
theorem V_main_arg0 (c : Dev nD) : V m c main_arg0 = m ((c : Thread nD τ).loc main_arg0) :=
  StableHlo.after_of_forall_not_mem (b := Proc.devRef .tc main_arg0) _ _ (List.forall_iff_forall_mem.mp (by host_keeps))
theorem V_main_arg1 (c : Dev nD) : V m c main_arg1 = m ((c : Thread nD τ).loc main_arg1) :=
  StableHlo.after_of_forall_not_mem (b := Proc.devRef .tc main_arg1) _ _ (List.forall_iff_forall_mem.mp (by host_keeps))
theorem V_main_arg2 (c : Dev nD) : V m c main_arg2 = m ((c : Thread nD τ).loc main_arg2) :=
  StableHlo.after_of_forall_not_mem (b := Proc.devRef .tc main_arg2) _ _ (List.forall_iff_forall_mem.mp (by host_keeps))
theorem V_main_arg3 (c : Dev nD) : V m c main_arg3 = m ((c : Thread nD τ).loc main_arg3) :=
  StableHlo.after_of_forall_not_mem (b := Proc.devRef .tc main_arg3) _ _ (List.forall_iff_forall_mem.mp (by host_keeps))
theorem V_main_arg4 (c : Dev nD) : V m c main_arg4 = m ((c : Thread nD τ).loc main_arg4) :=
  StableHlo.after_of_forall_not_mem (b := Proc.devRef .tc main_arg4) _ _ (List.forall_iff_forall_mem.mp (by host_keeps))
theorem V_main_arg5 (c : Dev nD) : V m c main_arg5 = m ((c : Thread nD τ).loc main_arg5) :=
  StableHlo.after_of_forall_not_mem (b := Proc.devRef .tc main_arg5) _ _ (List.forall_iff_forall_mem.mp (by host_keeps))
theorem V_main_arg6 (c : Dev nD) : V m c main_arg6 = m ((c : Thread nD τ).loc main_arg6) :=
  StableHlo.after_of_forall_not_mem (b := Proc.devRef .tc main_arg6) _ _ (List.forall_iff_forall_mem.mp (by host_keeps))
theorem V_main_arg7 (c : Dev nD) : V m c main_arg7 = m ((c : Thread nD τ).loc main_arg7) :=
  StableHlo.after_of_forall_not_mem (b := Proc.devRef .tc main_arg7) _ _ (List.forall_iff_forall_mem.mp (by host_keeps))
theorem V_main_arg8 (c : Dev nD) : V m c main_arg8 = m ((c : Thread nD τ).loc main_arg8) :=
  StableHlo.after_of_forall_not_mem (b := Proc.devRef .tc main_arg8) _ _ (List.forall_iff_forall_mem.mp (by host_keeps))
theorem V_main_arg9 (c : Dev nD) : V m c main_arg9 = m ((c : Thread nD τ).loc main_arg9) :=
  StableHlo.after_of_forall_not_mem (b := Proc.devRef .tc main_arg9) _ _ (List.forall_iff_forall_mem.mp (by host_keeps))
theorem V_main_arg10 (c : Dev nD) : V m c main_arg10 = m ((c : Thread nD τ).loc main_arg10) :=
  StableHlo.after_of_forall_not_mem (b := Proc.devRef .tc main_arg10) _ _ (List.forall_iff_forall_mem.mp (by host_keeps))
theorem V_main_arg11 (c : Dev nD) : V m c main_arg11 = m ((c : Thread nD τ).loc main_arg11) :=
  StableHlo.after_of_forall_not_mem (b := Proc.devRef .tc main_arg11) _ _ (List.forall_iff_forall_mem.mp (by host_keeps))
theorem V_main_arg12 (c : Dev nD) : V m c main_arg12 = m ((c : Thread nD τ).loc main_arg12) :=
  StableHlo.after_of_forall_not_mem (b := Proc.devRef .tc main_arg12) _ _ (List.forall_iff_forall_mem.mp (by host_keeps))
theorem V_main_arg13 (c : Dev nD) : V m c main_arg13 = m ((c : Thread nD τ).loc main_arg13) :=
  StableHlo.after_of_forall_not_mem (b := Proc.devRef .tc main_arg13) _ _ (List.forall_iff_forall_mem.mp (by host_keeps))
theorem V_main_arg14 (c : Dev nD) : V m c main_arg14 = m ((c : Thread nD τ).loc main_arg14) :=
  StableHlo.after_of_forall_not_mem (b := Proc.devRef .tc main_arg14) _ _ (List.forall_iff_forall_mem.mp (by host_keeps))
theorem V_main_arg15 (c : Dev nD) : V m c main_arg15 = m ((c : Thread nD τ).loc main_arg15) :=
  StableHlo.after_of_forall_not_mem (b := Proc.devRef .tc main_arg15) _ _ (List.forall_iff_forall_mem.mp (by host_keeps))
theorem V_main_arg16 (c : Dev nD) : V m c main_arg16 = m ((c : Thread nD τ).loc main_arg16) :=
  StableHlo.after_of_forall_not_mem (b := Proc.devRef .tc main_arg16) _ _ (List.forall_iff_forall_mem.mp (by host_keeps))
theorem V_main_arg17 (c : Dev nD) : V m c main_arg17 = m ((c : Thread nD τ).loc main_arg17) :=
  StableHlo.after_of_forall_not_mem (b := Proc.devRef .tc main_arg17) _ _ (List.forall_iff_forall_mem.mp (by host_keeps))
theorem V_main_arg18 (c : Dev nD) : V m c main_arg18 = m ((c : Thread nD τ).loc main_arg18) :=
  StableHlo.after_of_forall_not_mem (b := Proc.devRef .tc main_arg18) _ _ (List.forall_iff_forall_mem.mp (by host_keeps))
theorem V_main_arg19 (c : Dev nD) : V m c main_arg19 = m ((c : Thread nD τ).loc main_arg19) :=
  StableHlo.after_of_forall_not_mem (b := Proc.devRef .tc main_arg19) _ _ (List.forall_iff_forall_mem.mp (by host_keeps))
theorem V_main_arg20 (c : Dev nD) : V m c main_arg20 = m ((c : Thread nD τ).loc main_arg20) :=
  StableHlo.after_of_forall_not_mem (b := Proc.devRef .tc main_arg20) _ _ (List.forall_iff_forall_mem.mp (by host_keeps))
theorem V_main_arg21 (c : Dev nD) : V m c main_arg21 = m ((c : Thread nD τ).loc main_arg21) :=
  StableHlo.after_of_forall_not_mem (b := Proc.devRef .tc main_arg21) _ _ (List.forall_iff_forall_mem.mp (by host_keeps))
theorem V_main_arg22 (c : Dev nD) : V m c main_arg22 = m ((c : Thread nD τ).loc main_arg22) :=
  StableHlo.after_of_forall_not_mem (b := Proc.devRef .tc main_arg22) _ _ (List.forall_iff_forall_mem.mp (by host_keeps))
theorem V_main_arg23 (c : Dev nD) : V m c main_arg23 = m ((c : Thread nD τ).loc main_arg23) :=
  StableHlo.after_of_forall_not_mem (b := Proc.devRef .tc main_arg23) _ _ (List.forall_iff_forall_mem.mp (by host_keeps))

/-! ## The windows' blocks -/

/-- Window `w`'s block at point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline fetched
    it there or not (an unfetched window's block index has not moved): for any proof data whose array is the
    region-entry contents and whose body leaves the block where it found it. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the pipeline -/

-- twenty-four conjuncts, each read through the twenty-eight windows' table
set_option maxHeartbeats 4000000 in
/-- For any proof data whose arrays are the region-entry contents, a final state with every windowed array at what
    the library computes from the data, and every other unscoped buffer as the region found it, has every argument
    array as launched: an argument a window stages is an input array, never written back; an argument no window
    stages is among the other buffers; and the region found both as launched. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 10).trans (((dats 0 c).arrAt_in 10 rfl _).trans ((hA c 10).trans (V_main_arg12 m c))),
      ((h c).1 11).trans (((dats 0 c).arrAt_in 11 rfl _).trans ((hA c 11).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 15).trans (((dats 0 c).arrAt_in 15 rfl _).trans ((hA c 15).trans (V_main_arg16 m c))),
      ((h c).1 16).trans (((dats 0 c).arrAt_in 16 rfl _).trans ((hA c 16).trans (V_main_arg17 m c))),
      ((h c).2 main_arg18 (Pipeline.mem_restRefs_of main_arg18 (by decide) (by decide))).trans (V_main_arg18 m c),
      ((h c).1 19).trans (((dats 0 c).arrAt_in 19 rfl _).trans ((hA c 19).trans (V_main_arg19 m c))),
      ((h c).2 main_arg20 (Pipeline.mem_restRefs_of main_arg20 (by decide) (by decide))).trans (V_main_arg20 m c),
      ((h c).1 22).trans (((dats 0 c).arrAt_in 22 rfl _).trans ((hA c 22).trans (V_main_arg21 m c))),
      ((h c).2 main_arg22 (Pipeline.mem_restRefs_of main_arg22 (by decide) (by decide))).trans (V_main_arg22 m c),
      ((h c).1 24).trans (((dats 0 c).arrAt_in 24 rfl _).trans ((hA c 24).trans (V_main_arg23 m c)))⟩

/-- So a run of the pipeline to that post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_args m dats hA r h c) h

/-! ## The body's accesses -/

/-- The whole of each staging buffer's shape as a rectangle: every load and every store of the body goes through
    one of these. -/
abbrev qS512x128 : Rect S512x128 := Rect.unit (s := S512x128) ![0, 0] S512x128.size inb_S512x128_S512x128_0_0
abbrev qS512x32 : Rect S512x32 := Rect.unit (s := S512x32) ![0, 0] S512x32.size inb_S512x32_S512x32_0_0
abbrev qS512x512 : Rect S512x512 := Rect.unit (s := S512x512) ![0, 0] S512x512.size inb_S512x512_S512x512_0_0
abbrev qS128x512 : Rect S128x512 := Rect.unit (s := S128x512) ![0, 0] S128x512.size inb_S128x512_S128x512_0_0
abbrev qS512 : Rect S512 := Rect.unit (s := S512) ![0] S512.size inb_S512_S512_0
abbrev qS512x1536 : Rect S512x1536 := Rect.unit (s := S512x1536) ![0, 0] S512x1536.size inb_S512x1536_S512x1536_0_0
abbrev qS1536 : Rect S1536 := Rect.unit (s := S1536) ![0] S1536.size inb_S1536_S1536_0
abbrev qS32x1536 : Rect S32x1536 := Rect.unit (s := S32x1536) ![0, 0] S32x1536.size inb_S32x1536_S32x1536_0_0
abbrev qS32x512 : Rect S32x512 := Rect.unit (s := S32x512) ![0, 0] S32x512.size inb_S32x512_S32x512_0_0

/-! ## What the body computes

The body is three runs of loads, each handing a few values on to the next, and then the three stores. The values
handed on, as functions of the input blocks (`xW` is window `W`'s block; a load through the whole rectangle reads
it): -/

/-- The input features projected into the hidden width, bias added. -/
def inProj (x0 : Vec F S512x128 .f32) (x6 : Vec F S128x512 .bf16) (x7 : Vec F S512 .f32) : FVec F S512x512 .f32 :=
  k0_pay2 (View.ld x0 qS512x128) (View.ld x6 qS128x512) (View.ld x7 qS512)
/-- The first cell's update gate, -/
def gate1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay5 (View.ld x0 qS512x128) (View.ld x6 qS128x512) (View.ld x7 qS512) (View.ld x4 qS512x512) (View.ld x8 qS512x1536) (View.ld x9 qS512x1536) (View.ld x10 qS1536) (View.ld x11 qS1536)
/-- its candidate state, -/
def cand1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay6 (View.ld x0 qS512x128) (View.ld x6 qS128x512) (View.ld x7 qS512) (View.ld x4 qS512x512) (View.ld x8 qS512x1536) (View.ld x9 qS512x1536) (View.ld x10 qS1536) (View.ld x11 qS1536)
/-- and one minus the gate. -/
def keep1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay7 (View.ld x0 qS512x128) (View.ld x6 qS128x512) (View.ld x7 qS512) (View.ld x4 qS512x512) (View.ld x8 qS512x1536) (View.ld x9 qS512x1536) (View.ld x10 qS1536) (View.ld x11 qS1536)
/-- The first cell's new hidden state: the candidate and the old state mixed by the gate. -/
def hid1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay8 (View.ld x4 qS512x512) (gate1 x0 x4 x6 x7 x8 x9 x10 x11) (cand1 x0 x4 x6 x7 x8 x9 x10 x11) (keep1 x0 x4 x6 x7 x8 x9 x10 x11)
/-- The projected input plus that state: what the second cell reads. -/
def res1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay9 (inProj x0 x6 x7) (View.ld x4 qS512x512) (gate1 x0 x4 x6 x7 x8 x9 x10 x11) (cand1 x0 x4 x6 x7 x8 x9 x10 x11) (keep1 x0 x4 x6 x7 x8 x9 x10 x11)
/-- The second cell's candidate weighted by one minus its gate, -/
def new2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay13 (inProj x0 x6 x7) (View.ld x4 qS512x512) (gate1 x0 x4 x6 x7 x8 x9 x10 x11) (cand1 x0 x4 x6 x7 x8 x9 x10 x11) (keep1 x0 x4 x6 x7 x8 x9 x10 x11) (View.ld x1 qS512x32) (View.ld x12 qS512x1536) (View.ld x13 qS32x1536) (View.ld x15 qS1536) (View.ld x5 qS512x512) (View.ld x14 qS512x1536) (View.ld x16 qS1536)
/-- and its old state weighted by the gate. -/
def old2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay14 (inProj x0 x6 x7) (View.ld x4 qS512x512) (gate1 x0 x4 x6 x7 x8 x9 x10 x11) (cand1 x0 x4 x6 x7 x8 x9 x10 x11) (keep1 x0 x4 x6 x7 x8 x9 x10 x11) (View.ld x1 qS512x32) (View.ld x12 qS512x1536) (View.ld x13 qS32x1536) (View.ld x15 qS1536) (View.ld x5 qS512x512) (View.ld x14 qS512x1536) (View.ld x16 qS1536)
/-- The second cell's new hidden state: their sum. -/
def hid2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay15 (new2 x0 x1 x4 x5 x6 x7 x8 x9 x10 x11 x12 x13 x14 x15 x16) (old2 x0 x1 x4 x5 x6 x7 x8 x9 x10 x11 x12 x13 x14 x15 x16)
/-- The two rectified output layers over the residual sum, narrowed for the last product. -/
def feat (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) : FVec F S512x512 .bf16 :=
  k0_pay16 (res1 x0 x4 x6 x7 x8 x9 x10 x11) (new2 x0 x1 x4 x5 x6 x7 x8 x9 x10 x11 x12 x13 x14 x15 x16) (old2 x0 x1 x4 x5 x6 x7 x8 x9 x10 x11 x12 x13 x14 x15 x16) (View.ld x2 qS512x32) (View.ld x17 qS512x512) (View.ld x18 qS32x512) (View.ld x19 qS512) (View.ld x3 qS512x32) (View.ld x20 qS512x512) (View.ld x21 qS32x512) (View.ld x22 qS512)

/-! ## What the body leaves in each output window's buffer

Each output buffer takes one store through its whole rectangle; what it then holds is that store's payload. -/

/-- The logits: the features times the last weight matrix, bias added. -/
def out0_25 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, k0_pay1 (feat x0 x1 x2 x3 x4 x5 x6 x7 x8 x9 x10 x11 x12 x13 x14 x15 x16 x17 x18 x19 x20 x21 x22) (k0_pay17 (View.ld x23 qS512x512)) (constant S512x512 .f32 0x00000000#32) (View.ld x24 qS512)⟩]
/-- The first cell's new hidden state. -/
def out0_26 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, hid1 x0 x4 x6 x7 x8 x9 x10 x11⟩]
/-- The second cell's new hidden state. -/
def out0_27 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, hid2 x0 x1 x4 x5 x6 x7 x8 x9 x10 x11 x12 x13 x14 x15 x16⟩]

/-- The offsets of the whole rectangles are zero. -/
theorem zero2 : (![0, 0] : Fin 2 → Nat) = fun _ => 0 := funext fun a => by fin_cases a <;> rfl
theorem zero1 : (![0] : Fin 1 → Nat) = fun _ => 0 := funext fun a => by fin_cases a <;> rfl

/-- The one store covers the buffer: every index lies in the whole rectangle. -/
theorem cover0 (p0 : Vec F S512x512 .f32) (y : S512x512.Idx) :
    ∃ pc ∈ ([⟨qS512x512, p0⟩] : List (View.Piece (Elt F) S512x512 .f32)), y ∈ pc.1.set :=
  ⟨_, List.mem_singleton_self _, View.mem_set_unit_zero zero2 inb_S512x512_S512x512_0_0 y⟩

/-! ## The body's triple -/

set_option maxHeartbeats 4000000 in
/-- The body, called on whole staging buffers — each input's at contents reading `xW`, each output's at anything —
    runs to its continuation with the inputs' as they were and each output's reading `out0_W` of the inputs': the
    symbolic run goes through the three runs of loads and the three stores, and each output buffer's one store
    covers it. -/
theorem sound_kernel (c : Dev nD) (E : Set ℕ) (i : grid0.Coords) (arg1 : Memref sig .tc .vmem S512x128 .f32) (harg1 : arg1.IsWhole) (arg2 : Memref sig .tc .vmem S512x32 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S128x512 .bf16) (harg7 : arg7.IsWhole) (arg8 : Memref sig .tc .vmem S512 .f32) (harg8 : arg8.IsWhole) (arg9 : Memref sig .tc .vmem S512x1536 .bf16) (harg9 : arg9.IsWhole) (arg10 : Memref sig .tc .vmem S512x1536 .bf16) (harg10 : arg10.IsWhole) (arg11 : Memref sig .tc .vmem S1536 .f32) (harg11 : arg11.IsWhole) (arg12 : Memref sig .tc .vmem S1536 .f32) (harg12 : arg12.IsWhole) (arg13 : Memref sig .tc .vmem S512x1536 .bf16) (harg13 : arg13.IsWhole) (arg14 : Memref sig .tc .vmem S32x1536 .bf16) (harg14 : arg14.IsWhole) (arg15 : Memref sig .tc .vmem S512x1536 .bf16) (harg15 : arg15.IsWhole) (arg16 : Memref sig .tc .vmem S1536 .f32) (harg16 : arg16.IsWhole) (arg17 : Memref sig .tc .vmem S1536 .f32) (harg17 : arg17.IsWhole) (arg18 : Memref sig .tc .vmem S512x512 .bf16) (harg18 : arg18.IsWhole) (arg19 : Memref sig .tc .vmem S32x512 .bf16) (harg19 : arg19.IsWhole) (arg20 : Memref sig .tc .vmem S512 .f32) (harg20 : arg20.IsWhole) (arg21 : Memref sig .tc .vmem S512x512 .bf16) (harg21 : arg21.IsWhole) (arg22 : Memref sig .tc .vmem S32x512 .bf16) (harg22 : arg22.IsWhole) (arg23 : Memref sig .tc .vmem S512 .f32) (harg23 : arg23.IsWhole) (arg24 : Memref sig .tc .vmem S512x512 .bf16) (harg24 : arg24.IsWhole) (arg25 : Memref sig .tc .vmem S512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole)
    (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 x0 x1 x2 x3 x4 x5 x6 x7 x8 x9 x10 x11 x12 x13 x14 x15 x16 x17 x18 x19 x20 x21 x22 x23 x24) ∗ owns (c : Thread nD τ) arg27 fullShare (out0_26 x0 x1 x2 x3 x4 x5 x6 x7 x8 x9 x10 x11 x12 x13 x14 x15 x16 x17 x18 x19 x20 x21 x22 x23 x24) ∗ owns (c : Thread nD τ) arg28 fullShare (out0_27 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0__wavernn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__wavernn_kernel_eq_skeleton]; unfold cc0__wavernn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    unfold out0_25 feat res1 new2 old2 inProj gate1 cand1 keep1
    exact View.read_writes_eq_canon _ _ _ (cover0 _)
  isplitl [H26]
  · iexists _; isplitr
    swap; · iexact H26
    ipureintro
    unfold out0_26 hid1 gate1 cand1 keep1
    exact View.read_writes_eq_canon _ _ _ (cover0 _)
  iexists _; isplitr
  swap; · iexact H27
  ipureintro
  unfold out0_27 hid2 new2 old2 inProj gate1 cand1 keep1
  exact View.read_writes_eq_canon _ _ _ (cover0 _)

/-! ## The pipeline's proof data -/

/-- The proof data of the pipeline on core `c`: the arrays as the region finds them; after the body at point `t`
    each input's buffer still at its block and each output's at `out0_W` of the twenty-five input blocks there; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 28, h⟩ => absurd h (Nat.not_lt.2 (Nat.le_add_left _ _))
  Φ _ := Pipeline.ΦA spec0 c
  q _ := fullShare
  owed _ := 0

/-- The data's arrays are the region-entry contents (the definition projected; the fold over the host operations
    is never opened). -/
theorem A_eq (c : Dev nD) (w : Fin cfg0.W) : (dats m 0 c).A w = V m c (Pipeline.arrRef spec0 w) := by
  dsimp only [dats]

/-- What the body leaves, window by window (the data's case split reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t`: the invariant, the core's dues, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns: the same, each buffer at what the data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 1000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of @main on the TensorCores terminates, and every
    final state has every windowed array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: every weakly fair execution terminates without a fault and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.KernelIdeal.Frm

end
-- ==== Proof.StepSpec.lean ====
/-
  One decoding step of a two-cell recurrent network, stated row by row on the extended reals.

  A batch row carries a sample x (one number), a mel frame (80), four auxiliary vectors a1 … a4 (32 each) and two hidden
  states h1, h2 (512 each). With every weight matrix W stored as [outputs, inputs] and "row · Wᵀ over the input columns
  o … o+K-1" written  x ⋅[o] W  (entry n is Σ_k x k * W (n, o + k)):

    xI   = x ⋅[0] Iw + mel ⋅[1] Iw + a1 ⋅[81] Iw + Ib                      (the input layer over the joined row [x, mel, a1])
    h1'  = cell (xI ⋅[0] W1i + b1i) (h1 ⋅[0] W1h + b1h) h1                 (first recurrent cell)
    x1   = xI + h1'
    h2'  = cell (x1 ⋅[0] W2i + a2 ⋅[512] W2i + b2i) (h2 ⋅[0] W2h + b2h) h2  (second cell over the joined row [x1, a2])
    x2   = x1 + h2'
    y1   = max (x2 ⋅[0] F1 + a3 ⋅[512] F1 + c1) 0
    y2   = max (y1 ⋅[0] F2 + a4 ⋅[512] F2 + c2) 0
    out  = y2 ⋅[0] F3 + c3

  where, with gi, gh the two pre-activations (1536 = three blocks r, z, n of 512) and σ the logistic function,

    cell gi gh h = (1 - z) * ñ + z * h,   r = σ (gi_r + gh_r),  z = σ (gi_z + gh_z),  ñ = tanh (gi_n + r * gh_n).

  The step returns (out, h1', h2'). Each sum over a joined row is written piece by piece, so that a program that joins the
  pieces first and a program that multiplies them separately both reduce to these terms by regrouping a finite sum.
  The constants 1 and 0 are kept as the float words both programs write.
-/
import Idealize.ShloMosaic.PureOps.Ideal
import Idealize.ShloMosaic.Lib.ValueIdx
import Mathlib

noncomputable section

namespace Cert.Net

open Idealize.ShloMosaic Idealize.ShloMosaic.ValueIdx

/-- A row of n extended reals. -/
abbrev Row (n : ℕ) := Fin n → EReal
/-- An a × b array of extended reals, indexed as the programs index it. -/
abbrev Mat (a b : ℕ) := (⟨2, ![a, b]⟩ : Shape).Idx → EReal
/-- A vector of a extended reals, indexed as the programs index it. -/
abbrev Vec1 (a : ℕ) := (⟨1, ![a]⟩ : Shape).Idx → EReal

/-- The extended real the word of 1.0 denotes, kept as its word. -/
abbrev oneW : EReal := Ideal.ofBits .f32 0x3F800000#32
/-- The extended real the word of +0.0 denotes, kept as its word. -/
abbrev zeroW : EReal := Ideal.ofBits .f32 0x00000000#32

/-- Row a of an array. -/
def rowOf {A B : ℕ} (X : Mat A B) (a : Fin A) : Row B := fun k => X (ix2 a k)

/-- Column q of block j (of three blocks of 512) of a 1536-wide row. -/
def third (j : Fin 3) (q : Fin 512) : Fin 1536 := ⟨512 * j.val + q.val, by have := j.isLt; have := q.isLt; omega⟩

/-- x ⋅[o] W : entry n is Σ_k x k * W (n, o + k). -/
def dotT {K N C : ℕ} (W : Mat N C) (o : ℕ) (ho : o + K ≤ C) (x : Row K) : Row N := fun n =>
  ∑ k : Fin K, x k * W (ix2 n (⟨o + k.val, by have := k.isLt; omega⟩ : Fin C))

/-- The recurrent cell's combination of the two pre-activations and the previous state. -/
def cell (gi gh : Row 1536) (h : Row 512) : Row 512 := fun q =>
  (oneW - Ideal.logistic (gi (third 1 q) + gh (third 1 q)))
      * Ideal.tanh (gi (third 2 q) + Ideal.logistic (gi (third 0 q) + gh (third 0 q)) * gh (third 2 q))
    + Ideal.logistic (gi (third 1 q) + gh (third 1 q)) * h q

/-- The maximum with zero, entry by entry. -/
def ramp {n : ℕ} (x : Row n) : Row n := fun q => max (x q) zeroW

/-- The network's parameters, each weight as [outputs, inputs]. -/
structure Params where
  Iw : Mat 512 113
  Ib : Vec1 512
  W1i : Mat 1536 512
  W1h : Mat 1536 512
  b1i : Vec1 1536
  b1h : Vec1 1536
  W2i : Mat 1536 544
  W2h : Mat 1536 512
  b2i : Vec1 1536
  b2h : Vec1 1536
  F1 : Mat 512 544
  c1 : Vec1 512
  F2 : Mat 512 544
  c2 : Vec1 512
  F3 : Mat 512 512
  c3 : Vec1 512

variable (P : Params)

/-- The input layer over the joined row [x, mel, a1]. -/
def inLayer (x : Row 1) (mel : Row 80) (a1 : Row 32) : Row 512 := fun n =>
  ((dotT P.Iw 0 (by norm_num) x n + dotT P.Iw 1 (by norm_num) mel n) + dotT P.Iw 81 (by norm_num) a1 n) + P.Ib (ix1 n)

/-- The first cell's new state. -/
def hid1 (xI h1 : Row 512) : Row 512 :=
  cell (fun n => dotT P.W1i 0 (by norm_num) xI n + P.b1i (ix1 n)) (fun n => dotT P.W1h 0 (by norm_num) h1 n + P.b1h (ix1 n)) h1

/-- The second cell's new state, over the joined row [x1, a2]. -/
def hid2 (x1 : Row 512) (a2 : Row 32) (h2 : Row 512) : Row 512 :=
  cell (fun n => (dotT P.W2i 0 (by norm_num) x1 n + dotT P.W2i 512 (by norm_num) a2 n) + P.b2i (ix1 n))
    (fun n => dotT P.W2h 0 (by norm_num) h2 n + P.b2h (ix1 n)) h2

/-- A dense layer over the joined row [x, a] followed by the maximum with zero. -/
def dense (W : Mat 512 544) (c : Vec1 512) (x : Row 512) (a : Row 32) : Row 512 :=
  ramp fun n => (dotT W 0 (by norm_num) x n + dotT W 512 (by norm_num) a n) + c (ix1 n)

/-- The output layer. -/
def outLayer (y : Row 512) : Row 512 := fun n => dotT P.F3 0 (by norm_num) y n + P.c3 (ix1 n)

/-- The sum of two rows. -/
def radd {n : ℕ} (x y : Row n) : Row n := fun q => x q + y q

/-- The step on one batch row: (out, h1', h2'). -/
def step (x : Row 1) (mel : Row 80) (a1 a2 a3 a4 : Row 32) (h1 h2 : Row 512) : Row 512 × Row 512 × Row 512 :=
  let xI := inLayer P x mel a1
  let h1n := hid1 P xI h1
  let x1 := radd xI h1n
  let h2n := hid2 P x1 a2 h2
  let x2 := radd x1 h2n
  (outLayer P (dense P.F2 P.c2 (dense P.F1 P.c1 x2 a3) a4), h1n, h2n)

/-- An array given row by row. -/
def byRows {A B : ℕ} (f : Fin A → Row B) : Mat A B := fun i => f (show Fin A from i 0) (show Fin B from i 1)

theorem byRows_apply {A B : ℕ} (f : Fin A → Row B) (a : Fin A) (b : Fin B) : byRows f (ix2 a b) = f a b := rfl

/-- The three result arrays of the step applied to every row of a batch of B rows. -/
def stepRows {B : ℕ} (X : Mat B 1) (Mel : Mat B 80) (A1 A2 A3 A4 : Mat B 32) (H1 H2 : Mat B 512) (r : Fin B) :
    Row 512 × Row 512 × Row 512 :=
  step P (rowOf X r) (rowOf Mel r) (rowOf A1 r) (rowOf A2 r) (rowOf A3 r) (rowOf A4 r) (rowOf H1 r) (rowOf H2 r)

end Cert.Net

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.TileRows.lean ====
/-
  A tile of a batch, row by row.

  With a weight stored as [inputs, outputs], row x times W has entry n equal to Σ_k x k * W (k, n). A tile's product into
  a zero accumulator plus a bias row spread over the tile's rows is, on every row of the tile, that row times W plus the
  bias; two such products added before the bias are the two row products added. A block of 512 columns cut out of a
  1536-wide tile reads the tile at the block's columns, and the maximum with the zero word spread over the tile is the
  entrywise maximum. Narrowing an operand to a shorter float format does nothing on the extended reals.
-/
import proofs.«135078_j14224931684623_2_alg».proof.Proof.StepSpec
import proofs.«135078_j14224931684623_2_alg».proof.Proof.LibGraphLayer
import Idealize.ShloMosaic.PureOps.Ideal.Laws
import Idealize.ShloMosaic.Lib.ValueIdx
import Idealize.ShloMosaic.Lib.ValueLayout
import Idealize.ShloMosaic.Lib.Pipeline.Value

noncomputable section

namespace Cert.Tile

open Idealize.ShloMosaic Idealize.ShloMosaic.ValueIdx Cert.Net

variable {M K K' N : ℕ}

/-- Row x times W, W stored as [inputs, outputs]. -/
def dotK (W : Mat K N) (x : Row K) : Row N := fun n => ∑ k : Fin K, x k * W (ix2 k n)

/-- Row x times W plus the bias. -/
def klin (W : Mat K N) (b : Vec1 N) (x : Row K) : Row N := fun n => dotK W x n + b (ix1 n)

/-- Two rows times their weights, added, plus the bias. -/
def klin2 (W : Mat K N) (W' : Mat K' N) (b : Vec1 N) (x : Row K) (a : Row K') : Row N :=
  fun n => (dotK W x n + dotK W' a n) + b (ix1 n)

theorem rowOf_byRows (f : Fin M → Row K) (p : Fin M) : rowOf (byRows f) p = f p := rfl

/-- A bias vector made a row and spread over the tile's rows reads, at (p, q), the vector's entry q. -/
theorem bias_row_apply (b : Vec1 N) (h1 : (⟨1, ![N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b h1) hb (ix2 p q) = b (ix1 q) := by
  rw [broadcastTo_1b_ab_apply _ hb, shapeCast_a_1a_apply b h1]

/-- The product of a tile with a weight into a zero accumulator, at (p, q): row p times the weight, entry q. -/
theorem matmul_rows_apply (D : DotDims ⟨2, ![M, K]⟩ ⟨2, ![K, N]⟩ ⟨2, ![M, N]⟩) (hD : D = DotDims.plain M K N)
    {φ₁ φ₂ : FTy} (Y : FVec Ideal ⟨2, ![M, K]⟩ φ₁) (W : FVec Ideal ⟨2, ![K, N]⟩ φ₂) (p : Fin M) (q : Fin N) :
    matmul D none Y W (constant (F := Ideal) ⟨2, ![M, N]⟩ .f32 0x00000000#32) (ix2 p q) = dotK W (rowOf Y p) q := by
  subst hD
  rw [Cert.GraphLayer.matmul_plain_zero_apply]
  rfl

/-- A layer on a tile: the product into zero plus the bias row is, row by row, the row times the weight plus the bias. -/
theorem tile_layer (D : DotDims ⟨2, ![M, K]⟩ ⟨2, ![K, N]⟩ ⟨2, ![M, N]⟩) (hD : D = DotDims.plain M K N)
    (hbits : FTy.bits .bf16 < FTy.bits .f32) (hs : (⟨2, ![K, N]⟩ : Shape).ShapeCasts ⟨2, ![K, N]⟩)
    (h1 : (⟨1, ![N]⟩ : Shape).ShapeCasts ⟨2, ![1, N]⟩) (hb : (⟨2, ![1, N]⟩ : Shape).Broadcasts ⟨2, ![M, N]⟩)
    (Y : FVec Ideal ⟨2, ![M, K]⟩ .f32) (W : FVec Ideal ⟨2, ![K, N]⟩ .bf16) (b : FVec Ideal ⟨1, ![N]⟩ .f32) :
    addf (matmul D none (truncf .bf16 Y hbits) (shapeCast ⟨2, ![K, N]⟩ W hs) (constant (F := Ideal) ⟨2, ![M, N]⟩ .f32 0x00000000#32))
        (broadcastTo ⟨2, ![M, N]⟩ (shapeCast ⟨2, ![1, N]⟩ b h1) hb)
      = byRows fun p => klin W b (rowOf Y p) := by
  funext i
  obtain ⟨p, q, rfl⟩ : ∃ (p : Fin M) (q : Fin N), i = ix2 p q := ⟨i 0, i 1, eq_ix2 i⟩
  rw [byRows_apply, addf_apply, matmul_rows_apply D hD, bias_row_apply b h1 hb, shapeCast_self W hs]
  rfl

/-- A layer over two tiles: the two products into zero, added, plus the bias row. -/
theorem tile_layer2 (D : DotDims ⟨2, ![M, K]⟩ ⟨2, ![K, N]⟩ ⟨2, ![M, N]⟩) (hD : D = DotDims.plain M K N)
    (D' : DotDims ⟨2, ![M, K']⟩ ⟨2, ![K', N]⟩ ⟨2, ![M, N]⟩) (hD' : D' = DotDims.plain M K' N)
    (hbits : FTy.bits .bf16 < FTy.bits .f32) (hs : (⟨2, ![K, N]⟩ : Shape).ShapeCasts ⟨2, ![K, N]⟩)
    (hs' : (⟨2, ![K', N]⟩ : Shape).ShapeCasts ⟨2, ![K', N]⟩)
    (h1 : (⟨1, ![N]⟩ : Shape).ShapeCasts ⟨2, ![1, N]⟩) (hb : (⟨2, ![1, N]⟩ : Shape).Broadcasts ⟨2, ![M, N]⟩)
    (Y : FVec Ideal ⟨2, ![M, K]⟩ .f32) (A : FVec Ideal ⟨2, ![M, K']⟩ .f32)
    (W : FVec Ideal ⟨2, ![K, N]⟩ .bf16) (W' : FVec Ideal ⟨2, ![K', N]⟩ .bf16) (b : FVec Ideal ⟨1, ![N]⟩ .f32) :
    addf (addf (matmul D none (truncf .bf16 Y hbits) (shapeCast ⟨2, ![K, N]⟩ W hs) (constant (F := Ideal) ⟨2, ![M, N]⟩ .f32 0x00000000#32))
          (matmul D' none (truncf .bf16 A hbits) (shapeCast ⟨2, ![K', N]⟩ W' hs') (constant (F := Ideal) ⟨2, ![M, N]⟩ .f32 0x00000000#32)))
        (broadcastTo ⟨2, ![M, N]⟩ (shapeCast ⟨2, ![1, N]⟩ b h1) hb)
      = byRows fun p => klin2 W W' b (rowOf Y p) (rowOf A p) := by
  funext i
  obtain ⟨p, q, rfl⟩ : ∃ (p : Fin M) (q : Fin N), i = ix2 p q := ⟨i 0, i 1, eq_ix2 i⟩
  rw [byRows_apply, addf_apply, addf_apply, matmul_rows_apply D hD, matmul_rows_apply D' hD', bias_row_apply b h1 hb,
    shapeCast_self W hs, shapeCast_self W' hs']
  rfl

/-- The first block of 512 columns cut out of a 1536-wide tile reads the tile at columns 0 … 511. -/
theorem slice0_apply (X : (⟨2, ![M, 1536]⟩ : Shape).Idx → EReal)
    (h : (⟨2, ![M, 1536]⟩ : Shape).Slices ![0, 0] ⟨2, ![M, 512]⟩) (p : Fin M) (q : Fin 512) :
    extractStridedSlice ⟨2, ![M, 512]⟩ ![0, 0] X h (ix2 p q) = X (ix2 p (third 0 q)) :=
  extractStridedSlice_apply _ X h (ix2 p q) (ix2 p (third 0 q)) fun a => by
    match a with
    | ⟨0, _⟩ => show p.val = 0 + p.val; omega
    | ⟨1, _⟩ => show 512 * 0 + q.val = 0 + q.val; omega

/-- The second block reads the tile at columns 512 … 1023. -/
theorem slice1_apply (X : (⟨2, ![M, 1536]⟩ : Shape).Idx → EReal)
    (h : (⟨2, ![M, 1536]⟩ : Shape).Slices ![0, 512] ⟨2, ![M, 512]⟩) (p : Fin M) (q : Fin 512) :
    extractStridedSlice ⟨2, ![M, 512]⟩ ![0, 512] X h (ix2 p q) = X (ix2 p (third 1 q)) :=
  extractStridedSlice_apply _ X h (ix2 p q) (ix2 p (third 1 q)) fun a => by
    match a with
    | ⟨0, _⟩ => show p.val = 0 + p.val; omega
    | ⟨1, _⟩ => show 512 * 1 + q.val = 512 + q.val; omega

/-- The third block reads the tile at columns 1024 … 1535. -/
theorem slice2_apply (X : (⟨2, ![M, 1536]⟩ : Shape).Idx → EReal)
    (h : (⟨2, ![M, 1536]⟩ : Shape).Slices ![0, 1024] ⟨2, ![M, 512]⟩) (p : Fin M) (q : Fin 512) :
    extractStridedSlice ⟨2, ![M, 512]⟩ ![0, 1024] X h (ix2 p q) = X (ix2 p (third 2 q)) :=
  extractStridedSlice_apply _ X h (ix2 p q) (ix2 p (third 2 q)) fun a => by
    match a with
    | ⟨0, _⟩ => show p.val = 0 + p.val; omega
    | ⟨1, _⟩ => show 512 * 2 + q.val = 1024 + q.val; omega

end Cert.Tile

end
-- ==== Proof.StepLayouts.lean ====
/-
  The same step with every weight stored the other way round.

  A program may keep each weight as [inputs, outputs], keep the joined input row [x, mel, a1] padded with zeros to 128
  entries against a weight padded with zero rows, and keep the weights that meet a joined row [y, a] as two pieces, one per
  part of the row. Entry by entry these are the step's own sums: a weight read the other way round gives the same products,
  and the padded first layer is assumed to have been regrouped already (the hypothesis on its sum), so the two steps agree.
-/
import proofs.«135078_j14224931684623_2_alg».proof.Proof.StepSpec
import proofs.«135078_j14224931684623_2_alg».proof.Proof.TileRows

noncomputable section

namespace Cert.Tile

open Idealize.ShloMosaic Idealize.ShloMosaic.ValueIdx Cert.Net

/-- The parameters as a program that multiplies rows by [inputs, outputs] weights keeps them. -/
structure KParams where
  IwT : Mat 128 512
  Ib : Vec1 512
  W1i : Mat 512 1536
  W1h : Mat 512 1536
  b1i : Vec1 1536
  b1h : Vec1 1536
  W2m : Mat 512 1536
  W2a : Mat 32 1536
  W2h : Mat 512 1536
  b2i : Vec1 1536
  b2h : Vec1 1536
  F1m : Mat 512 512
  F1a : Mat 32 512
  c1 : Vec1 512
  F2m : Mat 512 512
  F2a : Mat 32 512
  c2 : Vec1 512
  F3 : Mat 512 512
  c3 : Vec1 512

variable (Q : KParams)

/-- The first cell's new state. -/
def khid1 (xI h1 : Row 512) : Row 512 := cell (klin Q.W1i Q.b1i xI) (klin Q.W1h Q.b1h h1) h1

/-- The second cell's new state. -/
def khid2 (x1 : Row 512) (a2 : Row 32) (h2 : Row 512) : Row 512 :=
  cell (klin2 Q.W2m Q.W2a Q.b2i x1 a2) (klin Q.W2h Q.b2h h2) h2

/-- A dense layer over two rows followed by the maximum with zero. -/
def kdense (W : Mat 512 512) (W' : Mat 32 512) (c : Vec1 512) (x : Row 512) (a : Row 32) : Row 512 :=
  ramp (klin2 W W' c x a)

/-- The sum of the input layer's row and the first new state. -/
def kres1 (x0 : Row 128) (h1 : Row 512) : Row 512 := radd (klin Q.IwT Q.Ib x0) (khid1 Q (klin Q.IwT Q.Ib x0) h1)

/-- The step on one batch row, the joined first row already padded: (out, h1', h2'). -/
def kstep (x0 : Row 128) (a2 a3 a4 : Row 32) (h1 h2 : Row 512) : Row 512 × Row 512 × Row 512 :=
  let h1n := khid1 Q (klin Q.IwT Q.Ib x0) h1
  let x1 := kres1 Q x0 h1
  let h2n := khid2 Q x1 a2 h2
  let x2 := radd x1 h2n
  (klin Q.F3 Q.c3 (kdense Q.F2m Q.F2a Q.c2 (kdense Q.F1m Q.F1a Q.c1 x2 a3) a4), h1n, h2n)

/-- A weight read the other way round gives the same row product. -/
theorem dotK_eq_dotT {K N C : ℕ} (W : Mat K N) (W' : Mat N C) (o : ℕ) (ho : o + K ≤ C)
    (h : ∀ (k : Fin K) (n : Fin N), W (ix2 k n) = W' (ix2 n (⟨o + k.val, by have := k.isLt; omega⟩ : Fin C))) (x : Row K) :
    dotK W x = dotT W' o ho x :=
  funext fun n => Finset.sum_congr rfl fun k _ => by rw [h]

/-- The two steps agree when each weight is the other's read the other way round and the padded first layer's sum is
    the three pieces' sums. -/
theorem kstep_eq_step (P : Params) (x0 : Row 128) (x : Row 1) (mel : Row 80) (a1 a2 a3 a4 : Row 32) (h1 h2 : Row 512)
    (hI : ∀ n, dotK Q.IwT x0 n
      = (dotT P.Iw 0 (by norm_num) x n + dotT P.Iw 1 (by norm_num) mel n) + dotT P.Iw 81 (by norm_num) a1 n)
    (hIb : Q.Ib = P.Ib)
    (h1i : ∀ (k : Fin 512) (n : Fin 1536), Q.W1i (ix2 k n) = P.W1i (ix2 n (⟨0 + k.val, by have := k.isLt; omega⟩ : Fin 512)))
    (h1h : ∀ (k : Fin 512) (n : Fin 1536), Q.W1h (ix2 k n) = P.W1h (ix2 n (⟨0 + k.val, by have := k.isLt; omega⟩ : Fin 512)))
    (hb1i : Q.b1i = P.b1i) (hb1h : Q.b1h = P.b1h)
    (h2m : ∀ (k : Fin 512) (n : Fin 1536), Q.W2m (ix2 k n) = P.W2i (ix2 n (⟨0 + k.val, by have := k.isLt; omega⟩ : Fin 544)))
    (h2a : ∀ (k : Fin 32) (n : Fin 1536), Q.W2a (ix2 k n) = P.W2i (ix2 n (⟨512 + k.val, by have := k.isLt; omega⟩ : Fin 544)))
    (h2h : ∀ (k : Fin 512) (n : Fin 1536), Q.W2h (ix2 k n) = P.W2h (ix2 n (⟨0 + k.val, by have := k.isLt; omega⟩ : Fin 512)))
    (hb2i : Q.b2i = P.b2i) (hb2h : Q.b2h = P.b2h)
    (hf1m : ∀ (k : Fin 512) (n : Fin 512), Q.F1m (ix2 k n) = P.F1 (ix2 n (⟨0 + k.val, by have := k.isLt; omega⟩ : Fin 544)))
    (hf1a : ∀ (k : Fin 32) (n : Fin 512), Q.F1a (ix2 k n) = P.F1 (ix2 n (⟨512 + k.val, by have := k.isLt; omega⟩ : Fin 544)))
    (hc1 : Q.c1 = P.c1)
    (hf2m : ∀ (k : Fin 512) (n : Fin 512), Q.F2m (ix2 k n) = P.F2 (ix2 n (⟨0 + k.val, by have := k.isLt; omega⟩ : Fin 544)))
    (hf2a : ∀ (k : Fin 32) (n : Fin 512), Q.F2a (ix2 k n) = P.F2 (ix2 n (⟨512 + k.val, by have := k.isLt; omega⟩ : Fin 544)))
    (hc2 : Q.c2 = P.c2)
    (hf3 : ∀ (k : Fin 512) (n : Fin 512), Q.F3 (ix2 k n) = P.F3 (ix2 n (⟨0 + k.val, by have := k.isLt; omega⟩ : Fin 512)))
    (hc3 : Q.c3 = P.c3) :
    kstep Q x0 a2 a3 a4 h1 h2 = step P x mel a1 a2 a3 a4 h1 h2 := by
  have eI : klin Q.IwT Q.Ib x0 = inLayer P x mel a1 := funext fun n => by
    show dotK Q.IwT x0 n + Q.Ib (ix1 n) = _
    rw [hI n, hIb]; rfl
  have e1 : ∀ xI h, khid1 Q xI h = hid1 P xI h := fun xI h => by
    unfold khid1 hid1 klin
    rw [dotK_eq_dotT Q.W1i P.W1i 0 (by norm_num) h1i, dotK_eq_dotT Q.W1h P.W1h 0 (by norm_num) h1h, hb1i, hb1h]
  have e2 : ∀ x1 a h, khid2 Q x1 a h = hid2 P x1 a h := fun x1 a h => by
    unfold khid2 hid2 klin klin2
    rw [dotK_eq_dotT Q.W2m P.W2i 0 (by norm_num) h2m, dotK_eq_dotT Q.W2a P.W2i 512 (by norm_num) h2a,
      dotK_eq_dotT Q.W2h P.W2h 0 (by norm_num) h2h, hb2i, hb2h]
  have ed1 : ∀ y a, kdense Q.F1m Q.F1a Q.c1 y a = dense P.F1 P.c1 y a := fun y a => by
    unfold kdense dense klin2
    rw [dotK_eq_dotT Q.F1m P.F1 0 (by norm_num) hf1m, dotK_eq_dotT Q.F1a P.F1 512 (by norm_num) hf1a, hc1]
  have ed2 : ∀ y a, kdense Q.F2m Q.F2a Q.c2 y a = dense P.F2 P.c2 y a := fun y a => by
    unfold kdense dense klin2
    rw [dotK_eq_dotT Q.F2m P.F2 0 (by norm_num) hf2m, dotK_eq_dotT Q.F2a P.F2 512 (by norm_num) hf2a, hc2]
  have eo : ∀ y, klin Q.F3 Q.c3 y = outLayer P y := fun y => by
    unfold klin outLayer
    rw [dotK_eq_dotT Q.F3 P.F3 0 (by norm_num) hf3, hc3]
  unfold kstep step kres1
  simp only [eI, e1, e2, ed1, ed2, eo]

end Cert.Tile

end
-- ==== Proof.KernelBlocks.lean ====
/-
  What the kernel's body computes on one block of 512 batch rows, row by row.

  Every value the body forms is a function of the rows of its input blocks: a layer (a product into a zero accumulator
  plus a bias row) acts on each row by the row product with the weight; the two recurrent cells combine, column by
  column, three 512-column blocks cut out of their 1536-wide pre-activations; the two dense layers take the maximum with
  zero. So the three blocks the body stores are, on row p, the three results of the step applied to row p of the input
  blocks, with the weights as the body holds them ([inputs, outputs], the joined first row padded to 128 entries).
-/
import proofs.«135078_j14224931684623_2_alg».proof.Proof.Gen.KernelIdeal.Skeleton
import proofs.«135078_j14224931684623_2_alg».proof.Proof.TileRows
import proofs.«135078_j14224931684623_2_alg».proof.Proof.StepLayouts

noncomputable section

namespace Cert.KernelIdeal.Blocks

open Idealize.ShloMosaic Idealize.ShloMosaic.ValueIdx Cert.Net Cert.Tile Cert.KernelIdeal Cert.KernelIdeal.Gen

/-- The maximum of a row-by-row tile with the zero word spread over the tile is the rows' maximum with zero. -/
theorem ramp_rows {M N : ℕ} (f : Fin M → Row N) :
    maximumf (F := Ideal) (φ := .f32) (byRows f) (broadcast ⟨2, ![M, N]⟩ (Scalar.ofBits (F := Ideal) .f32 0x00000000#32))
      = byRows fun p => ramp (f p) := by
  funext i
  obtain ⟨p, q, rfl⟩ : ∃ (p : Fin M) (q : Fin N), i = ix2 p q := ⟨i 0, i 1, eq_ix2 i⟩
  rw [maximumf_apply, broadcast_apply]
  rfl

/-- The input layer on a block. -/
theorem inProj_rows (v0 : Vec Ideal S512x128 .f32) (v3 : Vec Ideal S128x512 .bf16) (v6 : Vec Ideal S512 .f32) :
    k0_pay2 (F := Ideal) v0 v3 v6 = byRows fun p => klin v3 v6 (rowOf v0 p) := by
  unfold k0_pay2
  dsimp only
  rw [shapeCast_self v0]
  exact tile_layer _ rfl _ _ _ _ v0 v3 v6

/-- The first cell's input pre-activation on a block. -/
theorem pre1i_rows (v0 : Vec Ideal S512x128 .f32) (v3 : Vec Ideal S128x512 .bf16) (v6 : Vec Ideal S512 .f32)
    (v11 : Vec Ideal S512x1536 .bf16) (v15 : Vec Ideal S1536 .f32) :
    k0_pay3 (F := Ideal) v0 v3 v6 v11 v15 = byRows fun p => klin v11 v15 (klin v3 v6 (rowOf v0 p)) := by
  unfold k0_pay3
  dsimp only
  refine (tile_layer dot_S512x512_S512x1536_S512x1536_1_0_0_1_n_n rfl _ _ _ _ (k0_pay2 v0 v3 v6) v11 v15).trans ?_
  rw [inProj_rows]
  rfl

/-- The first cell's state pre-activation on a block. -/
theorem pre1h_rows (v10 : Vec Ideal S512x512 .f32) (v13 : Vec Ideal S512x1536 .bf16) (v16 : Vec Ideal S1536 .f32) :
    k0_pay4 (F := Ideal) v10 v13 v16 = byRows fun p => klin v13 v16 (rowOf v10 p) := by
  unfold k0_pay4
  dsimp only
  exact tile_layer _ rfl _ _ _ _ v10 v13 v16

/-- The first cell's new state on a block. -/
theorem hid1_rows (v0 : Vec Ideal S512x128 .f32) (v3 : Vec Ideal S128x512 .bf16) (v6 : Vec Ideal S512 .f32)
    (v10 : Vec Ideal S512x512 .f32) (v11 v13 : Vec Ideal S512x1536 .bf16) (v15 v16 : Vec Ideal S1536 .f32) :
    k0_pay8 (F := Ideal) v10 (k0_pay5 v0 v3 v6 v10 v11 v13 v15 v16) (k0_pay6 v0 v3 v6 v10 v11 v13 v15 v16)
        (k0_pay7 v0 v3 v6 v10 v11 v13 v15 v16)
      = byRows fun p => cell (klin v11 v15 (klin v3 v6 (rowOf v0 p))) (klin v13 v16 (rowOf v10 p)) (rowOf v10 p) := by
  funext i
  obtain ⟨p, q, rfl⟩ : ∃ (p : Fin 512) (q : Fin 512), i = ix2 p q := ⟨i 0, i 1, eq_ix2 i⟩
  unfold k0_pay8 k0_pay7 k0_pay5 k0_pay6
  dsimp only
  simp only [addf_apply, mulf_apply, subf_apply, broadcast_apply, logistic, tanh, pre1i_rows, pre1h_rows,
    slice0_apply, slice1_apply, slice2_apply, byRows_apply]
  rfl

/-- The input layer's block plus the first new state. -/
theorem res1_rows (v0 : Vec Ideal S512x128 .f32) (v3 : Vec Ideal S128x512 .bf16) (v6 : Vec Ideal S512 .f32)
    (v10 : Vec Ideal S512x512 .f32) (v11 v13 : Vec Ideal S512x1536 .bf16) (v15 v16 : Vec Ideal S1536 .f32) :
    k0_pay9 (F := Ideal) (k0_pay2 v0 v3 v6) v10 (k0_pay5 v0 v3 v6 v10 v11 v13 v15 v16)
        (k0_pay6 v0 v3 v6 v10 v11 v13 v15 v16) (k0_pay7 v0 v3 v6 v10 v11 v13 v15 v16)
      = byRows fun p => radd (klin v3 v6 (rowOf v0 p))
          (cell (klin v11 v15 (klin v3 v6 (rowOf v0 p))) (klin v13 v16 (rowOf v10 p)) (rowOf v10 p)) := by
  unfold k0_pay9
  dsimp only
  rw [hid1_rows, inProj_rows]
  rfl

/-- The second cell's input pre-activation on a block: two products, one per part of the joined row. -/
theorem pre2i_rows (v9 : FVec Ideal S512x512 .f32) (v10 : Vec Ideal S512x512 .f32) (v36 v39 v41 : FVec Ideal S512x512 .f32)
    (v47 : Vec Ideal S512x32 .f32) (v49 : Vec Ideal S512x1536 .bf16) (v52 : Vec Ideal S32x1536 .bf16) (v56 : Vec Ideal S1536 .f32) :
    k0_pay10 (F := Ideal) v9 v10 v36 v39 v41 v47 v49 v52 v56
      = byRows fun p => klin2 v49 v52 v56 (rowOf (k0_pay9 v9 v10 v36 v39 v41) p) (rowOf v47 p) := by
  unfold k0_pay10
  dsimp only
  exact tile_layer2 _ rfl _ rfl _ _ _ _ _ (k0_pay9 v9 v10 v36 v39 v41) v47 v49 v52 v56

/-- The second cell's state pre-activation on a block. -/
theorem pre2h_rows (v60 : Vec Ideal S512x512 .f32) (v62 : Vec Ideal S512x1536 .bf16) (v65 : Vec Ideal S1536 .f32) :
    k0_pay11 (F := Ideal) v60 v62 v65 = byRows fun p => klin v62 v65 (rowOf v60 p) := by
  unfold k0_pay11
  dsimp only
  exact tile_layer _ rfl _ _ _ _ v60 v62 v65

/-- The second cell's new state on a block. -/
theorem hid2_rows (v9 : FVec Ideal S512x512 .f32) (v10 : Vec Ideal S512x512 .f32) (v36 v39 v41 : FVec Ideal S512x512 .f32)
    (v47 : Vec Ideal S512x32 .f32) (v49 : Vec Ideal S512x1536 .bf16) (v52 : Vec Ideal S32x1536 .bf16) (v56 : Vec Ideal S1536 .f32)
    (v60 : Vec Ideal S512x512 .f32) (v62 : Vec Ideal S512x1536 .bf16) (v65 : Vec Ideal S1536 .f32) :
    k0_pay15 (F := Ideal) (k0_pay13 v9 v10 v36 v39 v41 v47 v49 v52 v56 v60 v62 v65)
        (k0_pay14 v9 v10 v36 v39 v41 v47 v49 v52 v56 v60 v62 v65)
      = byRows fun p => cell (klin2 v49 v52 v56 (rowOf (k0_pay9 v9 v10 v36 v39 v41) p) (rowOf v47 p))
          (klin v62 v65 (rowOf v60 p)) (rowOf v60 p) := by
  funext i
  obtain ⟨p, q, rfl⟩ : ∃ (p : Fin 512) (q : Fin 512), i = ix2 p q := ⟨i 0, i 1, eq_ix2 i⟩
  unfold k0_pay15 k0_pay13 k0_pay14 k0_pay12
  dsimp only
  simp only [addf_apply, mulf_apply, subf_apply, broadcast_apply, logistic, tanh, pre2i_rows, pre2h_rows,
    slice0_apply, slice1_apply, slice2_apply, byRows_apply]
  rfl

/-- The two dense layers on a block, each over two row parts and followed by the maximum with zero. -/
theorem feat_rows (v45 v84 v85 : FVec Ideal S512x512 .f32) (v89 : Vec Ideal S512x32 .f32) (v91 : Vec Ideal S512x512 .bf16)
    (v94 : Vec Ideal S32x512 .bf16) (v98 : Vec Ideal S512 .f32) (v105 : Vec Ideal S512x32 .f32) (v107 : Vec Ideal S512x512 .bf16)
    (v110 : Vec Ideal S32x512 .bf16) (v114 : Vec Ideal S512 .f32) :
    k0_pay16 (F := Ideal) v45 v84 v85 v89 v91 v94 v98 v105 v107 v110 v114
      = byRows fun p => kdense v107 v110 v114
          (kdense v91 v94 v98 (rowOf (addf v45 (k0_pay15 v84 v85)) p) (rowOf v89 p)) (rowOf v105 p) := by
  unfold k0_pay16
  dsimp only
  rw [tile_layer2 dot_S512x512_S512x512_S512x512_1_0_0_1_n_n rfl dot_S512x32_S32x512_S512x512_1_0_0_1_n_n rfl _ _ _ _ _ (addf v45 (k0_pay15 v84 v85)) v89 v91 v94 v98, ramp_rows,
    tile_layer2 dot_S512x512_S512x512_S512x512_1_0_0_1_n_n rfl dot_S512x32_S32x512_S512x512_1_0_0_1_n_n rfl, ramp_rows]
  rfl

/-- The output layer on a block. -/
theorem out_rows (v120 : FVec Ideal S512x512 .bf16) (v121 : Vec Ideal S512x512 .bf16) (v124 : Vec Ideal S512 .f32) :
    k0_pay1 (F := Ideal) v120 (k0_pay17 v121) (constant S512x512 .f32 0x00000000#32) v124
      = byRows fun p => klin v121 v124 (rowOf v120 p) := by
  funext i
  obtain ⟨p, q, rfl⟩ : ∃ (p : Fin 512) (q : Fin 512), i = ix2 p q := ⟨i 0, i 1, eq_ix2 i⟩
  unfold k0_pay1 k0_pay17
  dsimp only
  rw [byRows_apply, addf_apply, matmul_rows_apply dot_S512x512_S512x512_S512x512_1_0_0_1_n_n rfl, bias_row_apply, shapeCast_self]
  rfl

/-! ## The three stored blocks as the step on each row -/

/-- The weights and biases as the body holds them, in the order of its windows 6 … 24. -/
def held (x6 : Vec Ideal S128x512 .bf16) (x7 : Vec Ideal S512 .f32) (x8 x9 : Vec Ideal S512x1536 .bf16)
    (x10 x11 : Vec Ideal S1536 .f32) (x12 : Vec Ideal S512x1536 .bf16) (x13 : Vec Ideal S32x1536 .bf16)
    (x14 : Vec Ideal S512x1536 .bf16) (x15 x16 : Vec Ideal S1536 .f32) (x17 : Vec Ideal S512x512 .bf16)
    (x18 : Vec Ideal S32x512 .bf16) (x19 : Vec Ideal S512 .f32) (x20 : Vec Ideal S512x512 .bf16) (x21 : Vec Ideal S32x512 .bf16)
    (x22 : Vec Ideal S512 .f32) (x23 : Vec Ideal S512x512 .bf16) (x24 : Vec Ideal S512 .f32) : KParams :=
  ⟨x6, x7, x8, x9, x10, x11, x12, x13, x14, x15, x16, x17, x18, x19, x20, x21, x22, x23, x24⟩

end Cert.KernelIdeal.Blocks

end
-- ==== Proof.KernelValue.lean ====
/-
  From blocks to arrays: what the kernel's three result arrays hold after the run.

  The grid has 16 points; at point t every batch window (the padded joined row, a2, a3, a4, h1, h2 and the three outputs)
  holds rows 512·t … 512·t + 511 of its array, and every weight or bias window holds its whole array. The body leaves in
  each output block, on row p, one component of the step applied to row p of the input blocks; so point t writes back
  block t of the array whose row r is that component of the step applied to row r of the arrays. The sixteen blocks tile
  the 8192 rows (row r lies in block r / 512), so after the run each result array is that array, and the argument arrays
  are as they were.
-/
import proofs.«135078_j14224931684623_2_alg».proof.Proof.KernelIdealFrame
import proofs.«135078_j14224931684623_2_alg».proof.Proof.KernelBlocks
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Cert.Net Cert.Tile Cert.KernelIdeal Cert.KernelIdeal.Gen Cert.KernelIdeal.Frm Cert.KernelIdeal.Blocks
open Idealize.ShloMosaic.Pipeline (Dat)

variable (m : (ℓ : Loc nD τ sig) → Buf (Elt Ideal) ℓ) (ρ : Dev nD → PrngReg)

/-! ## The stored blocks, row by row -/

/-- The block the body leaves in output window 26 (the first new state), row by row. -/
theorem block26_rows (x0 : Vec Ideal S512x128 .f32) (x1 : Vec Ideal S512x32 .f32) (x2 : Vec Ideal S512x32 .f32) (x3 : Vec Ideal S512x32 .f32) (x4 : Vec Ideal S512x512 .f32) (x5 : Vec Ideal S512x512 .f32) (x6 : Vec Ideal S128x512 .bf16) (x7 : Vec Ideal S512 .f32) (x8 : Vec Ideal S512x1536 .bf16) (x9 : Vec Ideal S512x1536 .bf16) (x10 : Vec Ideal S1536 .f32) (x11 : Vec Ideal S1536 .f32) (x12 : Vec Ideal S512x1536 .bf16) (x13 : Vec Ideal S32x1536 .bf16) (x14 : Vec Ideal S512x1536 .bf16) (x15 : Vec Ideal S1536 .f32) (x16 : Vec Ideal S1536 .f32) (x17 : Vec Ideal S512x512 .bf16) (x18 : Vec Ideal S32x512 .bf16) (x19 : Vec Ideal S512 .f32) (x20 : Vec Ideal S512x512 .bf16) (x21 : Vec Ideal S32x512 .bf16) (x22 : Vec Ideal S512 .f32) (x23 : Vec Ideal S512x512 .bf16) (x24 : Vec Ideal S512 .f32) :
    out0_26 (F := Ideal) x0 x1 x2 x3 x4 x5 x6 x7 x8 x9 x10 x11 x12 x13 x14 x15 x16 x17 x18 x19 x20 x21 x22 x23 x24 = byRows fun p => (kstep (held x6 x7 x8 x9 x10 x11 x12 x13 x14 x15 x16 x17 x18 x19 x20 x21 x22 x23 x24) (rowOf x0 p) (rowOf x1 p) (rowOf x2 p) (rowOf x3 p) (rowOf x4 p) (rowOf x5 p)).2.1 := by
  unfold out0_26 Frm.hid1 gate1 cand1 keep1
  rw [View.canon_unit_zero zero2]
  simp only [View.ld_unit_zero (S := S512x128) zero2, View.ld_unit_zero (S := S512x512) zero2, View.ld_unit_zero (S := S128x512) zero2,
    View.ld_unit_zero (S := S512x1536) zero2, View.ld_unit_zero (S := S512) zero1, View.ld_unit_zero (S := S1536) zero1]
  rw [hid1_rows]
  rfl

/-- The block the body leaves in output window 27 (the second new state), row by row. -/
theorem block27_rows (x0 : Vec Ideal S512x128 .f32) (x1 : Vec Ideal S512x32 .f32) (x2 : Vec Ideal S512x32 .f32) (x3 : Vec Ideal S512x32 .f32) (x4 : Vec Ideal S512x512 .f32) (x5 : Vec Ideal S512x512 .f32) (x6 : Vec Ideal S128x512 .bf16) (x7 : Vec Ideal S512 .f32) (x8 : Vec Ideal S512x1536 .bf16) (x9 : Vec Ideal S512x1536 .bf16) (x10 : Vec Ideal S1536 .f32) (x11 : Vec Ideal S1536 .f32) (x12 : Vec Ideal S512x1536 .bf16) (x13 : Vec Ideal S32x1536 .bf16) (x14 : Vec Ideal S512x1536 .bf16) (x15 : Vec Ideal S1536 .f32) (x16 : Vec Ideal S1536 .f32) (x17 : Vec Ideal S512x512 .bf16) (x18 : Vec Ideal S32x512 .bf16) (x19 : Vec Ideal S512 .f32) (x20 : Vec Ideal S512x512 .bf16) (x21 : Vec Ideal S32x512 .bf16) (x22 : Vec Ideal S512 .f32) (x23 : Vec Ideal S512x512 .bf16) (x24 : Vec Ideal S512 .f32) :
    out0_27 (F := Ideal) x0 x1 x2 x3 x4 x5 x6 x7 x8 x9 x10 x11 x12 x13 x14 x15 x16 x17 x18 x19 x20 x21 x22 x23 x24 = byRows fun p => (kstep (held x6 x7 x8 x9 x10 x11 x12 x13 x14 x15 x16 x17 x18 x19 x20 x21 x22 x23 x24) (rowOf x0 p) (rowOf x1 p) (rowOf x2 p) (rowOf x3 p) (rowOf x4 p) (rowOf x5 p)).2.2 := by
  unfold out0_27 Frm.hid2 new2 old2 inProj gate1 cand1 keep1
  rw [View.canon_unit_zero zero2]
  simp only [View.ld_unit_zero (S := S512x128) zero2, View.ld_unit_zero (S := S512x32) zero2, View.ld_unit_zero (S := S512x512) zero2,
    View.ld_unit_zero (S := S128x512) zero2, View.ld_unit_zero (S := S512x1536) zero2, View.ld_unit_zero (S := S32x1536) zero2,
    View.ld_unit_zero (S := S512) zero1, View.ld_unit_zero (S := S1536) zero1]
  rw [hid2_rows, res1_rows]
  rfl

/-- The block the body leaves in output window 25 (the output layer), row by row. -/
theorem block25_rows (x0 : Vec Ideal S512x128 .f32) (x1 : Vec Ideal S512x32 .f32) (x2 : Vec Ideal S512x32 .f32) (x3 : Vec Ideal S512x32 .f32) (x4 : Vec Ideal S512x512 .f32) (x5 : Vec Ideal S512x512 .f32) (x6 : Vec Ideal S128x512 .bf16) (x7 : Vec Ideal S512 .f32) (x8 : Vec Ideal S512x1536 .bf16) (x9 : Vec Ideal S512x1536 .bf16) (x10 : Vec Ideal S1536 .f32) (x11 : Vec Ideal S1536 .f32) (x12 : Vec Ideal S512x1536 .bf16) (x13 : Vec Ideal S32x1536 .bf16) (x14 : Vec Ideal S512x1536 .bf16) (x15 : Vec Ideal S1536 .f32) (x16 : Vec Ideal S1536 .f32) (x17 : Vec Ideal S512x512 .bf16) (x18 : Vec Ideal S32x512 .bf16) (x19 : Vec Ideal S512 .f32) (x20 : Vec Ideal S512x512 .bf16) (x21 : Vec Ideal S32x512 .bf16) (x22 : Vec Ideal S512 .f32) (x23 : Vec Ideal S512x512 .bf16) (x24 : Vec Ideal S512 .f32) :
    out0_25 (F := Ideal) x0 x1 x2 x3 x4 x5 x6 x7 x8 x9 x10 x11 x12 x13 x14 x15 x16 x17 x18 x19 x20 x21 x22 x23 x24 = byRows fun p => (kstep (held x6 x7 x8 x9 x10 x11 x12 x13 x14 x15 x16 x17 x18 x19 x20 x21 x22 x23 x24) (rowOf x0 p) (rowOf x1 p) (rowOf x2 p) (rowOf x3 p) (rowOf x4 p) (rowOf x5 p)).1 := by
  unfold out0_25 feat res1 new2 old2 inProj gate1 cand1 keep1
  rw [View.canon_unit_zero zero2]
  simp only [View.ld_unit_zero (S := S512x128) zero2, View.ld_unit_zero (S := S512x32) zero2, View.ld_unit_zero (S := S512x512) zero2,
    View.ld_unit_zero (S := S128x512) zero2, View.ld_unit_zero (S := S512x1536) zero2, View.ld_unit_zero (S := S32x1536) zero2,
    View.ld_unit_zero (S := S32x512) zero2, View.ld_unit_zero (S := S512) zero1, View.ld_unit_zero (S := S1536) zero1]
  rw [out_rows, feat_rows, hid2_rows, res1_rows]
  rfl

/-! ## The windows' index maps, decided over the sixteen points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 1) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 1) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 1) = 0 :=
  (by decide +kernel : ∀ t : Fin grid0.N, _)
theorem idx23 : ∀ t : Fin cfg0.N, win0_23.index t (0 : Fin 2) = 0 ∧ win0_23.index t (1 : Fin 2) = 0 :=
  (by decide +kernel : ∀ t : Fin grid0.N, _)
theorem idx24 : ∀ t : Fin cfg0.N, win0_24.index t (0 : Fin 1) = 0 :=
  (by decide +kernel : ∀ t : Fin grid0.N, _)
theorem idx25 : ∀ t : Fin cfg0.N, win0_25.index t (0 : Fin 2) = t.val ∧ win0_25.index t (1 : Fin 2) = 0 :=
  (by decide +kernel : ∀ t : Fin grid0.N, _)
theorem idx26 : ∀ t : Fin cfg0.N, win0_26.index t (0 : Fin 2) = t.val ∧ win0_26.index t (1 : Fin 2) = 0 :=
  (by decide +kernel : ∀ t : Fin grid0.N, _)
theorem idx27 : ∀ t : Fin cfg0.N, win0_27.index t (0 : Fin 2) = t.val ∧ win0_27.index t (1 : Fin 2) = 0 :=
  (by decide +kernel : ∀ t : Fin grid0.N, _)

/-! ## Blocks of the arrays -/

/-- Row p of the block at point t is row 512·t + p of the array. -/
def rowAt (t : Fin cfg0.N) (p : Fin 512) : Fin 8192 :=
  ⟨512 * t.val + p.val, by have h : t.val < 16 := lt_of_lt_of_eq t.isLt N_0; have := p.isLt; omega⟩

/-- Row p of window 0's block at point t is row 512·t + p of its array. -/
theorem row0 (c : Dev nD) (t : Fin cfg0.N) (p : Fin 512) :
    rowOf (iblk m c 0 t : S512x128.Idx → EReal) p = rowOf (V m c main_v1 : S8192x128.Idx → EReal) (rowAt t p) := by
  funext k
  show V m c main_v1 (((cfg0.win 0).blk t).view.emb (ix2 p k)) = V m c main_v1 (ix2 (rowAt t p) k)
  refine congrArg _ (funext fun a => Fin.ext ?_)
  have h := idx0 t
  match a with
  | ⟨0, _⟩ => show win0_0.index t (0 : Fin 2) * 512 + 1 * p.val = 512 * t.val + p.val; rw [h.1]; omega
  | ⟨1, _⟩ => show win0_0.index t (1 : Fin 2) * 128 + 1 * k.val = k.val; rw [h.2]; omega

/-- Row p of window 1's block at point t is row 512·t + p of its array. -/
theorem row1 (c : Dev nD) (t : Fin cfg0.N) (p : Fin 512) :
    rowOf (iblk m c 1 t : S512x32.Idx → EReal) p = rowOf (V m c main_arg2 : S8192x32.Idx → EReal) (rowAt t p) := by
  funext k
  show V m c main_arg2 (((cfg0.win 1).blk t).view.emb (ix2 p k)) = V m c main_arg2 (ix2 (rowAt t p) k)
  refine congrArg _ (funext fun a => Fin.ext ?_)
  have h := idx1 t
  match a with
  | ⟨0, _⟩ => show win0_1.index t (0 : Fin 2) * 512 + 1 * p.val = 512 * t.val + p.val; rw [h.1]; omega
  | ⟨1, _⟩ => show win0_1.index t (1 : Fin 2) * 32 + 1 * k.val = k.val; rw [h.2]; omega

/-- Row p of window 2's block at point t is row 512·t + p of its array. -/
theorem row2 (c : Dev nD) (t : Fin cfg0.N) (p : Fin 512) :
    rowOf (iblk m c 2 t : S512x32.Idx → EReal) p = rowOf (V m c main_arg3 : S8192x32.Idx → EReal) (rowAt t p) := by
  funext k
  show V m c main_arg3 (((cfg0.win 2).blk t).view.emb (ix2 p k)) = V m c main_arg3 (ix2 (rowAt t p) k)
  refine congrArg _ (funext fun a => Fin.ext ?_)
  have h := idx2 t
  match a with
  | ⟨0, _⟩ => show win0_2.index t (0 : Fin 2) * 512 + 1 * p.val = 512 * t.val + p.val; rw [h.1]; omega
  | ⟨1, _⟩ => show win0_2.index t (1 : Fin 2) * 32 + 1 * k.val = k.val; rw [h.2]; omega

/-- Row p of window 3's block at point t is row 512·t + p of its array. -/
theorem row3 (c : Dev nD) (t : Fin cfg0.N) (p : Fin 512) :
    rowOf (iblk m c 3 t : S512x32.Idx → EReal) p = rowOf (V m c main_arg4 : S8192x32.Idx → EReal) (rowAt t p) := by
  funext k
  show V m c main_arg4 (((cfg0.win 3).blk t).view.emb (ix2 p k)) = V m c main_arg4 (ix2 (rowAt t p) k)
  refine congrArg _ (funext fun a => Fin.ext ?_)
  have h := idx3 t
  match a with
  | ⟨0, _⟩ => show win0_3.index t (0 : Fin 2) * 512 + 1 * p.val = 512 * t.val + p.val; rw [h.1]; omega
  | ⟨1, _⟩ => show win0_3.index t (1 : Fin 2) * 32 + 1 * k.val = k.val; rw [h.2]; omega

/-- Row p of window 4's block at point t is row 512·t + p of its array. -/
theorem row4 (c : Dev nD) (t : Fin cfg0.N) (p : Fin 512) :
    rowOf (iblk m c 4 t : S512x512.Idx → EReal) p = rowOf (V m c main_arg5 : S8192x512.Idx → EReal) (rowAt t p) := by
  funext k
  show V m c main_arg5 (((cfg0.win 4).blk t).view.emb (ix2 p k)) = V m c main_arg5 (ix2 (rowAt t p) k)
  refine congrArg _ (funext fun a => Fin.ext ?_)
  have h := idx4 t
  match a with
  | ⟨0, _⟩ => show win0_4.index t (0 : Fin 2) * 512 + 1 * p.val = 512 * t.val + p.val; rw [h.1]; omega
  | ⟨1, _⟩ => show win0_4.index t (1 : Fin 2) * 512 + 1 * k.val = k.val; rw [h.2]; omega

/-- Row p of window 5's block at point t is row 512·t + p of its array. -/
theorem row5 (c : Dev nD) (t : Fin cfg0.N) (p : Fin 512) :
    rowOf (iblk m c 5 t : S512x512.Idx → EReal) p = rowOf (V m c main_arg6 : S8192x512.Idx → EReal) (rowAt t p) := by
  funext k
  show V m c main_arg6 (((cfg0.win 5).blk t).view.emb (ix2 p k)) = V m c main_arg6 (ix2 (rowAt t p) k)
  refine congrArg _ (funext fun a => Fin.ext ?_)
  have h := idx5 t
  match a with
  | ⟨0, _⟩ => show win0_5.index t (0 : Fin 2) * 512 + 1 * p.val = 512 * t.val + p.val; rw [h.1]; omega
  | ⟨1, _⟩ => show win0_5.index t (1 : Fin 2) * 512 + 1 * k.val = k.val; rw [h.2]; omega

/-- Window 6 stages its whole array at every point. -/
theorem blk6 (c : Dev nD) (t : Fin cfg0.N) : (iblk m c 6 t : S128x512.Idx → EReal) = (V m c main_v4 : S128x512.Idx → EReal) := by
  funext y
  show V m c main_v4 (((cfg0.win 6).blk t).view.emb y) = V m c main_v4 y
  refine congrArg _ (funext fun a => Fin.ext ?_)
  have h := idx6 t
  match a with
  | ⟨0, _⟩ => show win0_6.index t (0 : Fin 2) * 128 + 1 * (y 0).val = (y 0).val; rw [h.1]; omega
  | ⟨1, _⟩ => show win0_6.index t (1 : Fin 2) * 512 + 1 * (y 1).val = (y 1).val; rw [h.2]; omega

/-- Window 7 stages its whole array at every point. -/
theorem blk7 (c : Dev nD) (t : Fin cfg0.N) : (iblk m c 7 t : S512.Idx → EReal) = (V m c main_arg9 : S512.Idx → EReal) := by
  funext y
  show V m c main_arg9 (((cfg0.win 7).blk t).view.emb y) = V m c main_arg9 y
  refine congrArg _ (funext fun a => Fin.ext ?_)
  have h := idx7 t
  match a with
  | ⟨0, _⟩ => show win0_7.index t (0 : Fin 1) * 512 + 1 * (y 0).val = (y 0).val; rw [h]; omega

/-- Window 8 stages its whole array at every point. -/
theorem blk8 (c : Dev nD) (t : Fin cfg0.N) : (iblk m c 8 t : S512x1536.Idx → EReal) = (V m c main_v6 : S512x1536.Idx → EReal) := by
  funext y
  show V m c main_v6 (((cfg0.win 8).blk t).view.emb y) = V m c main_v6 y
  refine congrArg _ (funext fun a => Fin.ext ?_)
  have h := idx8 t
  match a with
  | ⟨0, _⟩ => show win0_8.index t (0 : Fin 2) * 512 + 1 * (y 0).val = (y 0).val; rw [h.1]; omega
  | ⟨1, _⟩ => show win0_8.index t (1 : Fin 2) * 1536 + 1 * (y 1).val = (y 1).val; rw [h.2]; omega

/-- Window 9 stages its whole array at every point. -/
theorem blk9 (c : Dev nD) (t : Fin cfg0.N) : (iblk m c 9 t : S512x1536.Idx → EReal) = (V m c main_v8 : S512x1536.Idx → EReal) := by
  funext y
  show V m c main_v8 (((cfg0.win 9).blk t).view.emb y) = V m c main_v8 y
  refine congrArg _ (funext fun a => Fin.ext ?_)
  have h := idx9 t
  match a with
  | ⟨0, _⟩ => show win0_9.index t (0 : Fin 2) * 512 + 1 * (y 0).val = (y 0).val; rw [h.1]; omega
  | ⟨1, _⟩ => show win0_9.index t (1 : Fin 2) * 1536 + 1 * (y 1).val = (y 1).val; rw [h.2]; omega

/-- Window 10 stages its whole array at every point. -/
theorem blk10 (c : Dev nD) (t : Fin cfg0.N) : (iblk m c 10 t : S1536.Idx → EReal) = (V m c main_arg12 : S1536.Idx → EReal) := by
  funext y
  show V m c main_arg12 (((cfg0.win 10).blk t).view.emb y) = V m c main_arg12 y
  refine congrArg _ (funext fun a => Fin.ext ?_)
  have h := idx10 t
  match a with
  | ⟨0, _⟩ => show win0_10.index t (0 : Fin 1) * 1536 + 1 * (y 0).val = (y 0).val; rw [h]; omega

/-- Window 11 stages its whole array at every point. -/
theorem blk11 (c : Dev nD) (t : Fin cfg0.N) : (iblk m c 11 t : S1536.Idx → EReal) = (V m c main_arg13 : S1536.Idx → EReal) := by
  funext y
  show V m c main_arg13 (((cfg0.win 11).blk t).view.emb y) = V m c main_arg13 y
  refine congrArg _ (funext fun a => Fin.ext ?_)
  have h := idx11 t
  match a with
  | ⟨0, _⟩ => show win0_11.index t (0 : Fin 1) * 1536 + 1 * (y 0).val = (y 0).val; rw [h]; omega

/-- Window 12 stages its whole array at every point. -/
theorem blk12 (c : Dev nD) (t : Fin cfg0.N) : (iblk m c 12 t : S512x1536.Idx → EReal) = (V m c main_v11 : S512x1536.Idx → EReal) := by
  funext y
  show V m c main_v11 (((cfg0.win 12).blk t).view.emb y) = V m c main_v11 y
  refine congrArg _ (funext fun a => Fin.ext ?_)
  have h := idx12 t
  match a with
  | ⟨0, _⟩ => show win0_12.index t (0 : Fin 2) * 512 + 1 * (y 0).val = (y 0).val; rw [h.1]; omega
  | ⟨1, _⟩ => show win0_12.index t (1 : Fin 2) * 1536 + 1 * (y 1).val = (y 1).val; rw [h.2]; omega

/-- Window 13 stages its whole array at every point. -/
theorem blk13 (c : Dev nD) (t : Fin cfg0.N) : (iblk m c 13 t : S32x1536.Idx → EReal) = (V m c main_v12 : S32x1536.Idx → EReal) := by
  funext y
  show V m c main_v12 (((cfg0.win 13).blk t).view.emb y) = V m c main_v12 y
  refine congrArg _ (funext fun a => Fin.ext ?_)
  have h := idx13 t
  match a with
  | ⟨0, _⟩ => show win0_13.index t (0 : Fin 2) * 32 + 1 * (y 0).val = (y 0).val; rw [h.1]; omega
  | ⟨1, _⟩ => show win0_13.index t (1 : Fin 2) * 1536 + 1 * (y 1).val = (y 1).val; rw [h.2]; omega

/-- Window 14 stages its whole array at every point. -/
theorem blk14 (c : Dev nD) (t : Fin cfg0.N) : (iblk m c 14 t : S512x1536.Idx → EReal) = (V m c main_v14 : S512x1536.Idx → EReal) := by
  funext y
  show V m c main_v14 (((cfg0.win 14).blk t).view.emb y) = V m c main_v14 y
  refine congrArg _ (funext fun a => Fin.ext ?_)
  have h := idx14 t
  match a with
  | ⟨0, _⟩ => show win0_14.index t (0 : Fin 2) * 512 + 1 * (y 0).val = (y 0).val; rw [h.1]; omega
  | ⟨1, _⟩ => show win0_14.index t (1 : Fin 2) * 1536 + 1 * (y 1).val = (y 1).val; rw [h.2]; omega

/-- Window 15 stages its whole array at every point. -/
theorem blk15 (c : Dev nD) (t : Fin cfg0.N) : (iblk m c 15 t : S1536.Idx → EReal) = (V m c main_arg16 : S1536.Idx → EReal) := by
  funext y
  show V m c main_arg16 (((cfg0.win 15).blk t).view.emb y) = V m c main_arg16 y
  refine congrArg _ (funext fun a => Fin.ext ?_)
  have h := idx15 t
  match a with
  | ⟨0, _⟩ => show win0_15.index t (0 : Fin 1) * 1536 + 1 * (y 0).val = (y 0).val; rw [h]; omega

/-- Window 16 stages its whole array at every point. -/
theorem blk16 (c : Dev nD) (t : Fin cfg0.N) : (iblk m c 16 t : S1536.Idx → EReal) = (V m c main_arg17 : S1536.Idx → EReal) := by
  funext y
  show V m c main_arg17 (((cfg0.win 16).blk t).view.emb y) = V m c main_arg17 y
  refine congrArg _ (funext fun a => Fin.ext ?_)
  have h := idx16 t
  match a with
  | ⟨0, _⟩ => show win0_16.index t (0 : Fin 1) * 1536 + 1 * (y 0).val = (y 0).val; rw [h]; omega

/-- Window 17 stages its whole array at every point. -/
theorem blk17 (c : Dev nD) (t : Fin cfg0.N) : (iblk m c 17 t : S512x512.Idx → EReal) = (V m c main_v17 : S512x512.Idx → EReal) := by
  funext y
  show V m c main_v17 (((cfg0.win 17).blk t).view.emb y) = V m c main_v17 y
  refine congrArg _ (funext fun a => Fin.ext ?_)
  have h := idx17 t
  match a with
  | ⟨0, _⟩ => show win0_17.index t (0 : Fin 2) * 512 + 1 * (y 0).val = (y 0).val; rw [h.1]; omega
  | ⟨1, _⟩ => show win0_17.index t (1 : Fin 2) * 512 + 1 * (y 1).val = (y 1).val; rw [h.2]; omega

/-- Window 18 stages its whole array at every point. -/
theorem blk18 (c : Dev nD) (t : Fin cfg0.N) : (iblk m c 18 t : S32x512.Idx → EReal) = (V m c main_v18 : S32x512.Idx → EReal) := by
  funext y
  show V m c main_v18 (((cfg0.win 18).blk t).view.emb y) = V m c main_v18 y
  refine congrArg _ (funext fun a => Fin.ext ?_)
  have h := idx18 t
  match a with
  | ⟨0, _⟩ => show win0_18.index t (0 : Fin 2) * 32 + 1 * (y 0).val = (y 0).val; rw [h.1]; omega
  | ⟨1, _⟩ => show win0_18.index t (1 : Fin 2) * 512 + 1 * (y 1).val = (y 1).val; rw [h.2]; omega

/-- Window 19 stages its whole array at every point. -/
theorem blk19 (c : Dev nD) (t : Fin cfg0.N) : (iblk m c 19 t : S512.Idx → EReal) = (V m c main_arg19 : S512.Idx → EReal) := by
  funext y
  show V m c main_arg19 (((cfg0.win 19).blk t).view.emb y) = V m c main_arg19 y
  refine congrArg _ (funext fun a => Fin.ext ?_)
  have h := idx19 t
  match a with
  | ⟨0, _⟩ => show win0_19.index t (0 : Fin 1) * 512 + 1 * (y 0).val = (y 0).val; rw [h]; omega

/-- Window 20 stages its whole array at every point. -/
theorem blk20 (c : Dev nD) (t : Fin cfg0.N) : (iblk m c 20 t : S512x512.Idx → EReal) = (V m c main_v21 : S512x512.Idx → EReal) := by
  funext y
  show V m c main_v21 (((cfg0.win 20).blk t).view.emb y) = V m c main_v21 y
  refine congrArg _ (funext fun a => Fin.ext ?_)
  have h := idx20 t
  match a with
  | ⟨0, _⟩ => show win0_20.index t (0 : Fin 2) * 512 + 1 * (y 0).val = (y 0).val; rw [h.1]; omega
  | ⟨1, _⟩ => show win0_20.index t (1 : Fin 2) * 512 + 1 * (y 1).val = (y 1).val; rw [h.2]; omega

/-- Window 21 stages its whole array at every point. -/
theorem blk21 (c : Dev nD) (t : Fin cfg0.N) : (iblk m c 21 t : S32x512.Idx → EReal) = (V m c main_v22 : S32x512.Idx → EReal) := by
  funext y
  show V m c main_v22 (((cfg0.win 21).blk t).view.emb y) = V m c main_v22 y
  refine congrArg _ (funext fun a => Fin.ext ?_)
  have h := idx21 t
  match a with
  | ⟨0, _⟩ => show win0_21.index t (0 : Fin 2) * 32 + 1 * (y 0).val = (y 0).val; rw [h.1]; omega
  | ⟨1, _⟩ => show win0_21.index t (1 : Fin 2) * 512 + 1 * (y 1).val = (y 1).val; rw [h.2]; omega

/-- Window 22 stages its whole array at every point. -/
theorem blk22 (c : Dev nD) (t : Fin cfg0.N) : (iblk m c 22 t : S512.Idx → EReal) = (V m c main_arg21 : S512.Idx → EReal) := by
  funext y
  show V m c main_arg21 (((cfg0.win 22).blk t).view.emb y) = V m c main_arg21 y
  refine congrArg _ (funext fun a => Fin.ext ?_)
  have h := idx22 t
  match a with
  | ⟨0, _⟩ => show win0_22.index t (0 : Fin 1) * 512 + 1 * (y 0).val = (y 0).val; rw [h]; omega

/-- Window 23 stages its whole array at every point. -/
theorem blk23 (c : Dev nD) (t : Fin cfg0.N) : (iblk m c 23 t : S512x512.Idx → EReal) = (V m c main_v24 : S512x512.Idx → EReal) := by
  funext y
  show V m c main_v24 (((cfg0.win 23).blk t).view.emb y) = V m c main_v24 y
  refine congrArg _ (funext fun a => Fin.ext ?_)
  have h := idx23 t
  match a with
  | ⟨0, _⟩ => show win0_23.index t (0 : Fin 2) * 512 + 1 * (y 0).val = (y 0).val; rw [h.1]; omega
  | ⟨1, _⟩ => show win0_23.index t (1 : Fin 2) * 512 + 1 * (y 1).val = (y 1).val; rw [h.2]; omega

/-- Window 24 stages its whole array at every point. -/
theorem blk24 (c : Dev nD) (t : Fin cfg0.N) : (iblk m c 24 t : S512.Idx → EReal) = (V m c main_arg23 : S512.Idx → EReal) := by
  funext y
  show V m c main_arg23 (((cfg0.win 24).blk t).view.emb y) = V m c main_arg23 y
  refine congrArg _ (funext fun a => Fin.ext ?_)
  have h := idx24 t
  match a with
  | ⟨0, _⟩ => show win0_24.index t (0 : Fin 1) * 512 + 1 * (y 0).val = (y 0).val; rw [h]; omega

/-! ## The three result arrays -/

/-- The step on row r of the arrays as the region finds them, with the weights as the body holds them. -/
def rowStep (c : Dev nD) (r : Fin 8192) : Row 512 × Row 512 × Row 512 :=
  kstep (held (V m c main_v4) (V m c main_arg9) (V m c main_v6) (V m c main_v8) (V m c main_arg12) (V m c main_arg13) (V m c main_v11) (V m c main_v12) (V m c main_v14) (V m c main_arg16) (V m c main_arg17) (V m c main_v17) (V m c main_v18) (V m c main_arg19) (V m c main_v21) (V m c main_v22) (V m c main_arg21) (V m c main_v24) (V m c main_arg23)) (rowOf (V m c main_v1 : S8192x128.Idx → EReal) r) (rowOf (V m c main_arg2 : S8192x32.Idx → EReal) r)
    (rowOf (V m c main_arg3 : S8192x32.Idx → EReal) r) (rowOf (V m c main_arg4 : S8192x32.Idx → EReal) r)
    (rowOf (V m c main_arg5 : S8192x512.Idx → EReal) r) (rowOf (V m c main_arg6 : S8192x512.Idx → EReal) r)

/-- Entry (p, q) of output window 25's block at point t is entry (512·t + p, q) of its array. -/
theorem emb_out25 (t : Fin cfg0.N) (p q : Fin 512) :
    ((cfg0.win 25).blk t).view.emb (ix2 p q) = (ix2 (rowAt t p) q : S8192x512.Idx) := by
  funext a
  apply Fin.ext
  have h := idx25 t
  match a with
  | ⟨0, _⟩ => show win0_25.index t (0 : Fin 2) * 512 + 1 * p.val = 512 * t.val + p.val; rw [h.1]; omega
  | ⟨1, _⟩ => show win0_25.index t (1 : Fin 2) * 512 + 1 * q.val = q.val; rw [h.2]; omega

/-- An index of the array is in point t's block iff each coordinate is in the block's range on its axis. -/
theorem mem_blk25 (t : Fin cfg0.N) (i : S8192x512.Idx) :
    i ∈ ((cfg0.win 25).blk t).view.set ↔ ∀ a : Fin 2, win0_25.index t a * S512x512.size a ≤ (i a).val ∧ (i a).val < win0_25.index t a * S512x512.size a + S512x512.size a := by
  show i ∈ ((View.whole main_v25_0).slice (win0_25.rect t)).set ↔ _
  rw [View.set_slice_whole, Rect.mem_set_unit]
  exact Iff.rfl

/-- Every index of the array lies in the block of the point its row falls in: row r is in block r / 512. -/
theorem cover25 (i : S8192x512.Idx) : ∃ t : Fin cfg0.N, (cfg0.win 25).flush t = true ∧ i ∈ ((cfg0.win 25).blk t).view.set := by
  have hi0 : (i 0).val < 8192 := (i 0).isLt
  have hi1 : (i 1).val < 512 := (i 1).isLt
  have hN : cfg0.N = 16 := N_0
  refine ⟨⟨(i 0).val / 512, by rw [hN]; omega⟩, flush0_25 _, ?_⟩
  rw [mem_blk25]
  intro a
  have h := idx25 ⟨(i 0).val / 512, by rw [hN]; omega⟩
  match a with
  | ⟨0, _⟩ =>
    show win0_25.index _ (0 : Fin 2) * 512 ≤ (i 0).val ∧ (i 0).val < win0_25.index _ (0 : Fin 2) * 512 + 512
    rw [h.1]; show (i 0).val / 512 * 512 ≤ (i 0).val ∧ (i 0).val < (i 0).val / 512 * 512 + 512; omega
  | ⟨1, _⟩ =>
    show win0_25.index _ (1 : Fin 2) * 512 ≤ (i 1).val ∧ (i 1).val < win0_25.index _ (1 : Fin 2) * 512 + 512
    rw [h.2]; omega

/-- Entry (p, q) of output window 26's block at point t is entry (512·t + p, q) of its array. -/
theorem emb_out26 (t : Fin cfg0.N) (p q : Fin 512) :
    ((cfg0.win 26).blk t).view.emb (ix2 p q) = (ix2 (rowAt t p) q : S8192x512.Idx) := by
  funext a
  apply Fin.ext
  have h := idx26 t
  match a with
  | ⟨0, _⟩ => show win0_26.index t (0 : Fin 2) * 512 + 1 * p.val = 512 * t.val + p.val; rw [h.1]; omega
  | ⟨1, _⟩ => show win0_26.index t (1 : Fin 2) * 512 + 1 * q.val = q.val; rw [h.2]; omega

/-- An index of the array is in point t's block iff each coordinate is in the block's range on its axis. -/
theorem mem_blk26 (t : Fin cfg0.N) (i : S8192x512.Idx) :
    i ∈ ((cfg0.win 26).blk t).view.set ↔ ∀ a : Fin 2, win0_26.index t a * S512x512.size a ≤ (i a).val ∧ (i a).val < win0_26.index t a * S512x512.size a + S512x512.size a := by
  show i ∈ ((View.whole main_v25_1).slice (win0_26.rect t)).set ↔ _
  rw [View.set_slice_whole, Rect.mem_set_unit]
  exact Iff.rfl

/-- Every index of the array lies in the block of the point its row falls in: row r is in block r / 512. -/
theorem cover26 (i : S8192x512.Idx) : ∃ t : Fin cfg0.N, (cfg0.win 26).flush t = true ∧ i ∈ ((cfg0.win 26).blk t).view.set := by
  have hi0 : (i 0).val < 8192 := (i 0).isLt
  have hi1 : (i 1).val < 512 := (i 1).isLt
  have hN : cfg0.N = 16 := N_0
  refine ⟨⟨(i 0).val / 512, by rw [hN]; omega⟩, flush0_26 _, ?_⟩
  rw [mem_blk26]
  intro a
  have h := idx26 ⟨(i 0).val / 512, by rw [hN]; omega⟩
  match a with
  | ⟨0, _⟩ =>
    show win0_26.index _ (0 : Fin 2) * 512 ≤ (i 0).val ∧ (i 0).val < win0_26.index _ (0 : Fin 2) * 512 + 512
    rw [h.1]; show (i 0).val / 512 * 512 ≤ (i 0).val ∧ (i 0).val < (i 0).val / 512 * 512 + 512; omega
  | ⟨1, _⟩ =>
    show win0_26.index _ (1 : Fin 2) * 512 ≤ (i 1).val ∧ (i 1).val < win0_26.index _ (1 : Fin 2) * 512 + 512
    rw [h.2]; omega

/-- Entry (p, q) of output window 27's block at point t is entry (512·t + p, q) of its array. -/
theorem emb_out27 (t : Fin cfg0.N) (p q : Fin 512) :
    ((cfg0.win 27).blk t).view.emb (ix2 p q) = (ix2 (rowAt t p) q : S8192x512.Idx) := by
  funext a
  apply Fin.ext
  have h := idx27 t
  match a with
  | ⟨0, _⟩ => show win0_27.index t (0 : Fin 2) * 512 + 1 * p.val = 512 * t.val + p.val; rw [h.1]; omega
  | ⟨1, _⟩ => show win0_27.index t (1 : Fin 2) * 512 + 1 * q.val = q.val; rw [h.2]; omega

/-- An index of the array is in point t's block iff each coordinate is in the block's range on its axis. -/
theorem mem_blk27 (t : Fin cfg0.N) (i : S8192x512.Idx) :
    i ∈ ((cfg0.win 27).blk t).view.set ↔ ∀ a : Fin 2, win0_27.index t a * S512x512.size a ≤ (i a).val ∧ (i a).val < win0_27.index t a * S512x512.size a + S512x512.size a := by
  show i ∈ ((View.whole main_v25_2).slice (win0_27.rect t)).set ↔ _
  rw [View.set_slice_whole, Rect.mem_set_unit]
  exact Iff.rfl

/-- Every index of the array lies in the block of the point its row falls in: row r is in block r / 512. -/
theorem cover27 (i : S8192x512.Idx) : ∃ t : Fin cfg0.N, (cfg0.win 27).flush t = true ∧ i ∈ ((cfg0.win 27).blk t).view.set := by
  have hi0 : (i 0).val < 8192 := (i 0).isLt
  have hi1 : (i 1).val < 512 := (i 1).isLt
  have hN : cfg0.N = 16 := N_0
  refine ⟨⟨(i 0).val / 512, by rw [hN]; omega⟩, flush0_27 _, ?_⟩
  rw [mem_blk27]
  intro a
  have h := idx27 ⟨(i 0).val / 512, by rw [hN]; omega⟩
  match a with
  | ⟨0, _⟩ =>
    show win0_27.index _ (0 : Fin 2) * 512 ≤ (i 0).val ∧ (i 0).val < win0_27.index _ (0 : Fin 2) * 512 + 512
    rw [h.1]; show (i 0).val / 512 * 512 ≤ (i 0).val ∧ (i 0).val < (i 0).val / 512 * 512 + 512; omega
  | ⟨1, _⟩ =>
    show win0_27.index _ (1 : Fin 2) * 512 ≤ (i 1).val ∧ (i 1).val < win0_27.index _ (1 : Fin 2) * 512 + 512
    rw [h.2]; omega

/-- What output window 25's array holds after the run: on row r, component 1 of the step on row r. -/
def G25 (c : Dev nD) : S8192x512.Idx → EReal := byRows fun r => (rowStep m c r).1

/-- Point t writes back block t of that array. -/
theorem flushed25_eq (c : Dev nD) (t : Fin cfg0.N) :
    (dats m 0 c).flushed 25 t = ((cfg0.win 25).blk t).view.read (Elt Ideal) (G25 m c) := by
  show (cfg0.win 25).cut (grid0.coords t) ((dats m 0 c).after 25 t) = _
  rw [after0_25, block25_rows]
  funext j
  obtain ⟨p, q, rfl⟩ : ∃ (p : Fin 512) (q : Fin 512), j = ix2 p q := ⟨j 0, j 1, eq_ix2 j⟩
  show (kstep (held (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (rowOf (iblk m c 0 t) p) (rowOf (iblk m c 1 t) p) (rowOf (iblk m c 2 t) p) (rowOf (iblk m c 3 t) p) (rowOf (iblk m c 4 t) p) (rowOf (iblk m c 5 t) p)).1 q
    = G25 m c (((cfg0.win 25).blk t).view.emb (ix2 p q))
  rw [emb_out25 t p q, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, row0 m c t p, row1 m c t p, row2 m c t p, row3 m c t p, row4 m c t p, row5 m c t p]
  rfl

/-- The array after the run. -/
theorem final25 (c : Dev nD) : (dats m 0 c).arrAt 25 cfg0.N = G25 m c :=
  (dats m 0 c).arrAt_eq_of_cover 25 (G25 m c) (fun t _ => flushed25_eq m c t) (cover25)

/-- What output window 26's array holds after the run: on row r, component 2.1 of the step on row r. -/
def G26 (c : Dev nD) : S8192x512.Idx → EReal := byRows fun r => (rowStep m c r).2.1

/-- Point t writes back block t of that array. -/
theorem flushed26_eq (c : Dev nD) (t : Fin cfg0.N) :
    (dats m 0 c).flushed 26 t = ((cfg0.win 26).blk t).view.read (Elt Ideal) (G26 m c) := by
  show (cfg0.win 26).cut (grid0.coords t) ((dats m 0 c).after 26 t) = _
  rw [after0_26, block26_rows]
  funext j
  obtain ⟨p, q, rfl⟩ : ∃ (p : Fin 512) (q : Fin 512), j = ix2 p q := ⟨j 0, j 1, eq_ix2 j⟩
  show (kstep (held (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (rowOf (iblk m c 0 t) p) (rowOf (iblk m c 1 t) p) (rowOf (iblk m c 2 t) p) (rowOf (iblk m c 3 t) p) (rowOf (iblk m c 4 t) p) (rowOf (iblk m c 5 t) p)).2.1 q
    = G26 m c (((cfg0.win 26).blk t).view.emb (ix2 p q))
  rw [emb_out26 t p q, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, row0 m c t p, row1 m c t p, row2 m c t p, row3 m c t p, row4 m c t p, row5 m c t p]
  rfl

/-- The array after the run. -/
theorem final26 (c : Dev nD) : (dats m 0 c).arrAt 26 cfg0.N = G26 m c :=
  (dats m 0 c).arrAt_eq_of_cover 26 (G26 m c) (fun t _ => flushed26_eq m c t) (cover26)

/-- What output window 27's array holds after the run: on row r, component 2.2 of the step on row r. -/
def G27 (c : Dev nD) : S8192x512.Idx → EReal := byRows fun r => (rowStep m c r).2.2

/-- Point t writes back block t of that array. -/
theorem flushed27_eq (c : Dev nD) (t : Fin cfg0.N) :
    (dats m 0 c).flushed 27 t = ((cfg0.win 27).blk t).view.read (Elt Ideal) (G27 m c) := by
  show (cfg0.win 27).cut (grid0.coords t) ((dats m 0 c).after 27 t) = _
  rw [after0_27, block27_rows]
  funext j
  obtain ⟨p, q, rfl⟩ : ∃ (p : Fin 512) (q : Fin 512), j = ix2 p q := ⟨j 0, j 1, eq_ix2 j⟩
  show (kstep (held (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) (rowOf (iblk m c 0 t) p) (rowOf (iblk m c 1 t) p) (rowOf (iblk m c 2 t) p) (rowOf (iblk m c 3 t) p) (rowOf (iblk m c 4 t) p) (rowOf (iblk m c 5 t) p)).2.2 q
    = G27 m c (((cfg0.win 27).blk t).view.emb (ix2 p q))
  rw [emb_out27 t p q, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, row0 m c t p, row1 m c t p, row2 m c t p, row3 m c t p, row4 m c t p, row5 m c t p]
  rfl

/-- The array after the run. -/
theorem final27 (c : Dev nD) : (dats m 0 c).arrAt 27 cfg0.N = G27 m c :=
  (dats m 0 c).arrAt_eq_of_cover 27 (G27 m c) (fun t _ => flushed27_eq m c t) (cover27)

/-! ## The run, read -/

/-- The kernel program runs to the end with its three result arrays at the step of every row and its argument arrays
    unchanged. -/
theorem run : θ_run defs (onTc (τ := τ) (main (F := Ideal))) ⟨m, fun _ => 0, ρ⟩ fun r => ∀ c : Dev nD,
      r.2.mem ((c.tc : Thread nD τ).loc main_v25_0) = G25 m c
      ∧ r.2.mem ((c.tc : Thread nD τ).loc main_v25_1) = G26 m c
      ∧ r.2.mem ((c.tc : Thread nD τ).loc main_v25_2) = G27 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨((h c).1 25).trans (final25 m c), ((h c).1 26).trans (final26 m c),
      ((h c).1 27).trans (final27 m c), kept_args m (dats m) (A_eq m) r h c⟩) (run_main m ρ)

end Cert.KernelIdeal.Val

end
-- ==== Proof.KernelFrame.lean ====
/-
  The frame of the kernel program as printed, at any float instance.

  @main is five stretches of host operations (the three per-row inputs concatenated and padded to 128 columns; the
  input layer's weight padded, transposed and narrowed; the weights of the two recurrent cells and the three dense
  layers transposed, narrowed, and split where a layer reads two inputs) and then one region over a grid of sixteen
  points. Each point sees a block of 512 rows of the six row-indexed inputs and the whole of the nineteen weight
  and bias arrays, and leaves three blocks of 512 rows: the logits and the two new hidden states.

  No host operation writes an argument array, so the region finds each argument as launched (`V_main_argK`).
  The body loads each of its twenty-five input buffers whole, once, and stores each of its three output buffers
  whole, once: what it leaves in an output buffer is therefore a closed function of the twenty-five input blocks
  at the point (`out0_25`, `out0_26`, `out0_27`), written through the payload names of the body's skeleton.
  With that function as the proof data of the pipeline (`dats`) the library's launch theorem gives the run
  (`run_main`), and its post read at the argument arrays is the frame (`frame`).
-/
import proofs.«135078_j14224931684623_2_alg».proof.Proof.Gen.Kernel.Launch
import proofs.«135078_j14224931684623_2_alg».proof.Proof.Gen.Kernel.Skeleton
import proofs.«135078_j14224931684623_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- deciding a fact over the twenty-eight windows, and membership in a rectangle of 512 rows, recurse once per
-- window and once per coordinate
set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory folded through the five stretches
    of host operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates: each only computes its result buffer from its operands. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches and then the region: the shape the launch theorem asks of it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- Closes "none of the twenty-nine host operations writes this reference": each operation writes its one result
    buffer, and the reference differs from every one of them. -/
local macro "host_keeps" : tactic => `(tactic| (
  simp only [hostOps0, hostOps0_1, hostOps0_2, hostOps0_3, hostOps0_4, List.flatten_cons, List.flatten_nil,
    List.append_nil, List.cons_append, List.nil_append, List.Forall, StableHlo.nullary_writes, StableHlo.unary_writes,
    StableHlo.binary_writes, StableHlo.nary_writes, Finset.mem_singleton]
  repeat' apply And.intro
  all_goals exact StableHlo.devRef_ne_of_ne (by decide)))

/-- The host operations write only their own results, never an argument: the region finds each argument array as
    launched. -/
theorem V_main_arg0 (c : Dev nD) : V m c main_arg0 = m ((c : Thread nD τ).loc main_arg0) :=
  StableHlo.after_of_forall_not_mem (b := Proc.devRef .tc main_arg0) _ _ (List.forall_iff_forall_mem.mp (by host_keeps))
theorem V_main_arg1 (c : Dev nD) : V m c main_arg1 = m ((c : Thread nD τ).loc main_arg1) :=
  StableHlo.after_of_forall_not_mem (b := Proc.devRef .tc main_arg1) _ _ (List.forall_iff_forall_mem.mp (by host_keeps))
theorem V_main_arg2 (c : Dev nD) : V m c main_arg2 = m ((c : Thread nD τ).loc main_arg2) :=
  StableHlo.after_of_forall_not_mem (b := Proc.devRef .tc main_arg2) _ _ (List.forall_iff_forall_mem.mp (by host_keeps))
theorem V_main_arg3 (c : Dev nD) : V m c main_arg3 = m ((c : Thread nD τ).loc main_arg3) :=
  StableHlo.after_of_forall_not_mem (b := Proc.devRef .tc main_arg3) _ _ (List.forall_iff_forall_mem.mp (by host_keeps))
theorem V_main_arg4 (c : Dev nD) : V m c main_arg4 = m ((c : Thread nD τ).loc main_arg4) :=
  StableHlo.after_of_forall_not_mem (b := Proc.devRef .tc main_arg4) _ _ (List.forall_iff_forall_mem.mp (by host_keeps))
theorem V_main_arg5 (c : Dev nD) : V m c main_arg5 = m ((c : Thread nD τ).loc main_arg5) :=
  StableHlo.after_of_forall_not_mem (b := Proc.devRef .tc main_arg5) _ _ (List.forall_iff_forall_mem.mp (by host_keeps))
theorem V_main_arg6 (c : Dev nD) : V m c main_arg6 = m ((c : Thread nD τ).loc main_arg6) :=
  StableHlo.after_of_forall_not_mem (b := Proc.devRef .tc main_arg6) _ _ (List.forall_iff_forall_mem.mp (by host_keeps))
theorem V_main_arg7 (c : Dev nD) : V m c main_arg7 = m ((c : Thread nD τ).loc main_arg7) :=
  StableHlo.after_of_forall_not_mem (b := Proc.devRef .tc main_arg7) _ _ (List.forall_iff_forall_mem.mp (by host_keeps))
theorem V_main_arg8 (c : Dev nD) : V m c main_arg8 = m ((c : Thread nD τ).loc main_arg8) :=
  StableHlo.after_of_forall_not_mem (b := Proc.devRef .tc main_arg8) _ _ (List.forall_iff_forall_mem.mp (by host_keeps))
theorem V_main_arg9 (c : Dev nD) : V m c main_arg9 = m ((c : Thread nD τ).loc main_arg9) :=
  StableHlo.after_of_forall_not_mem (b := Proc.devRef .tc main_arg9) _ _ (List.forall_iff_forall_mem.mp (by host_keeps))
theorem V_main_arg10 (c : Dev nD) : V m c main_arg10 = m ((c : Thread nD τ).loc main_arg10) :=
  StableHlo.after_of_forall_not_mem (b := Proc.devRef .tc main_arg10) _ _ (List.forall_iff_forall_mem.mp (by host_keeps))
theorem V_main_arg11 (c : Dev nD) : V m c main_arg11 = m ((c : Thread nD τ).loc main_arg11) :=
  StableHlo.after_of_forall_not_mem (b := Proc.devRef .tc main_arg11) _ _ (List.forall_iff_forall_mem.mp (by host_keeps))
theorem V_main_arg12 (c : Dev nD) : V m c main_arg12 = m ((c : Thread nD τ).loc main_arg12) :=
  StableHlo.after_of_forall_not_mem (b := Proc.devRef .tc main_arg12) _ _ (List.forall_iff_forall_mem.mp (by host_keeps))
theorem V_main_arg13 (c : Dev nD) : V m c main_arg13 = m ((c : Thread nD τ).loc main_arg13) :=
  StableHlo.after_of_forall_not_mem (b := Proc.devRef .tc main_arg13) _ _ (List.forall_iff_forall_mem.mp (by host_keeps))
theorem V_main_arg14 (c : Dev nD) : V m c main_arg14 = m ((c : Thread nD τ).loc main_arg14) :=
  StableHlo.after_of_forall_not_mem (b := Proc.devRef .tc main_arg14) _ _ (List.forall_iff_forall_mem.mp (by host_keeps))
theorem V_main_arg15 (c : Dev nD) : V m c main_arg15 = m ((c : Thread nD τ).loc main_arg15) :=
  StableHlo.after_of_forall_not_mem (b := Proc.devRef .tc main_arg15) _ _ (List.forall_iff_forall_mem.mp (by host_keeps))
theorem V_main_arg16 (c : Dev nD) : V m c main_arg16 = m ((c : Thread nD τ).loc main_arg16) :=
  StableHlo.after_of_forall_not_mem (b := Proc.devRef .tc main_arg16) _ _ (List.forall_iff_forall_mem.mp (by host_keeps))
theorem V_main_arg17 (c : Dev nD) : V m c main_arg17 = m ((c : Thread nD τ).loc main_arg17) :=
  StableHlo.after_of_forall_not_mem (b := Proc.devRef .tc main_arg17) _ _ (List.forall_iff_forall_mem.mp (by host_keeps))
theorem V_main_arg18 (c : Dev nD) : V m c main_arg18 = m ((c : Thread nD τ).loc main_arg18) :=
  StableHlo.after_of_forall_not_mem (b := Proc.devRef .tc main_arg18) _ _ (List.forall_iff_forall_mem.mp (by host_keeps))
theorem V_main_arg19 (c : Dev nD) : V m c main_arg19 = m ((c : Thread nD τ).loc main_arg19) :=
  StableHlo.after_of_forall_not_mem (b := Proc.devRef .tc main_arg19) _ _ (List.forall_iff_forall_mem.mp (by host_keeps))
theorem V_main_arg20 (c : Dev nD) : V m c main_arg20 = m ((c : Thread nD τ).loc main_arg20) :=
  StableHlo.after_of_forall_not_mem (b := Proc.devRef .tc main_arg20) _ _ (List.forall_iff_forall_mem.mp (by host_keeps))
theorem V_main_arg21 (c : Dev nD) : V m c main_arg21 = m ((c : Thread nD τ).loc main_arg21) :=
  StableHlo.after_of_forall_not_mem (b := Proc.devRef .tc main_arg21) _ _ (List.forall_iff_forall_mem.mp (by host_keeps))
theorem V_main_arg22 (c : Dev nD) : V m c main_arg22 = m ((c : Thread nD τ).loc main_arg22) :=
  StableHlo.after_of_forall_not_mem (b := Proc.devRef .tc main_arg22) _ _ (List.forall_iff_forall_mem.mp (by host_keeps))
theorem V_main_arg23 (c : Dev nD) : V m c main_arg23 = m ((c : Thread nD τ).loc main_arg23) :=
  StableHlo.after_of_forall_not_mem (b := Proc.devRef .tc main_arg23) _ _ (List.forall_iff_forall_mem.mp (by host_keeps))

/-! ## The windows' blocks -/

/-- Window `w`'s block at point `t`: its array, as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the pipeline fetched
    it there or not (an unfetched window's block index has not moved): for any proof data whose array is the
    region-entry contents and whose body leaves the block where it found it. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The frame from a run of the pipeline -/

-- twenty-four conjuncts, each read through the twenty-eight windows' table
set_option maxHeartbeats 4000000 in
/-- For any proof data whose arrays are the region-entry contents, a final state with every windowed array at what
    the library computes from the data, and every other unscoped buffer as the region found it, has every argument
    array as launched: an argument a window stages is an input array, never written back; an argument no window
    stages is among the other buffers; and the region found both as launched. -/
theorem kept_args (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 7).trans (((dats 0 c).arrAt_in 7 rfl _).trans ((hA c 7).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 10).trans (((dats 0 c).arrAt_in 10 rfl _).trans ((hA c 10).trans (V_main_arg12 m c))),
      ((h c).1 11).trans (((dats 0 c).arrAt_in 11 rfl _).trans ((hA c 11).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 15).trans (((dats 0 c).arrAt_in 15 rfl _).trans ((hA c 15).trans (V_main_arg16 m c))),
      ((h c).1 16).trans (((dats 0 c).arrAt_in 16 rfl _).trans ((hA c 16).trans (V_main_arg17 m c))),
      ((h c).2 main_arg18 (Pipeline.mem_restRefs_of main_arg18 (by decide) (by decide))).trans (V_main_arg18 m c),
      ((h c).1 19).trans (((dats 0 c).arrAt_in 19 rfl _).trans ((hA c 19).trans (V_main_arg19 m c))),
      ((h c).2 main_arg20 (Pipeline.mem_restRefs_of main_arg20 (by decide) (by decide))).trans (V_main_arg20 m c),
      ((h c).1 22).trans (((dats 0 c).arrAt_in 22 rfl _).trans ((hA c 22).trans (V_main_arg21 m c))),
      ((h c).2 main_arg22 (Pipeline.mem_restRefs_of main_arg22 (by decide) (by decide))).trans (V_main_arg22 m c),
      ((h c).1 24).trans (((dats 0 c).arrAt_in 24 rfl _).trans ((hA c 24).trans (V_main_arg23 m c)))⟩

/-- So a run of the pipeline to that post is a run to the frame's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_args m dats hA r h c) h

/-! ## The body's accesses -/

/-- The whole of each staging buffer's shape as a rectangle: every load and every store of the body goes through
    one of these. -/
abbrev qS512x128 : Rect S512x128 := Rect.unit (s := S512x128) ![0, 0] S512x128.size inb_S512x128_S512x128_0_0
abbrev qS512x32 : Rect S512x32 := Rect.unit (s := S512x32) ![0, 0] S512x32.size inb_S512x32_S512x32_0_0
abbrev qS512x512 : Rect S512x512 := Rect.unit (s := S512x512) ![0, 0] S512x512.size inb_S512x512_S512x512_0_0
abbrev qS128x512 : Rect S128x512 := Rect.unit (s := S128x512) ![0, 0] S128x512.size inb_S128x512_S128x512_0_0
abbrev qS512 : Rect S512 := Rect.unit (s := S512) ![0] S512.size inb_S512_S512_0
abbrev qS512x1536 : Rect S512x1536 := Rect.unit (s := S512x1536) ![0, 0] S512x1536.size inb_S512x1536_S512x1536_0_0
abbrev qS1536 : Rect S1536 := Rect.unit (s := S1536) ![0] S1536.size inb_S1536_S1536_0
abbrev qS32x1536 : Rect S32x1536 := Rect.unit (s := S32x1536) ![0, 0] S32x1536.size inb_S32x1536_S32x1536_0_0
abbrev qS32x512 : Rect S32x512 := Rect.unit (s := S32x512) ![0, 0] S32x512.size inb_S32x512_S32x512_0_0

/-! ## What the body computes

The body is three runs of loads, each handing a few values on to the next, and then the three stores. The values
handed on, as functions of the input blocks (`xW` is window `W`'s block; a load through the whole rectangle reads
it): -/

/-- The input features projected into the hidden width, bias added. -/
def inProj (x0 : Vec F S512x128 .f32) (x6 : Vec F S128x512 .bf16) (x7 : Vec F S512 .f32) : FVec F S512x512 .f32 :=
  k0_pay2 (View.ld x0 qS512x128) (View.ld x6 qS128x512) (View.ld x7 qS512)
/-- The first cell's update gate, -/
def gate1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay5 (View.ld x0 qS512x128) (View.ld x6 qS128x512) (View.ld x7 qS512) (View.ld x4 qS512x512) (View.ld x8 qS512x1536) (View.ld x9 qS512x1536) (View.ld x10 qS1536) (View.ld x11 qS1536)
/-- its candidate state, -/
def cand1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay6 (View.ld x0 qS512x128) (View.ld x6 qS128x512) (View.ld x7 qS512) (View.ld x4 qS512x512) (View.ld x8 qS512x1536) (View.ld x9 qS512x1536) (View.ld x10 qS1536) (View.ld x11 qS1536)
/-- and one minus the gate. -/
def keep1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay7 (View.ld x0 qS512x128) (View.ld x6 qS128x512) (View.ld x7 qS512) (View.ld x4 qS512x512) (View.ld x8 qS512x1536) (View.ld x9 qS512x1536) (View.ld x10 qS1536) (View.ld x11 qS1536)
/-- The first cell's new hidden state: the candidate and the old state mixed by the gate. -/
def hid1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay8 (View.ld x4 qS512x512) (gate1 x0 x4 x6 x7 x8 x9 x10 x11) (cand1 x0 x4 x6 x7 x8 x9 x10 x11) (keep1 x0 x4 x6 x7 x8 x9 x10 x11)
/-- The projected input plus that state: what the second cell reads. -/
def res1 (x0 : Vec F S512x128 .f32) (x4 : Vec F S512x512 .f32) (x6 : Vec F S128x512 .bf16) (x7 : Vec F S512 .f32) (x8 : Vec F S512x1536 .bf16) (x9 : Vec F S512x1536 .bf16) (x10 : Vec F S1536 .f32) (x11 : Vec F S1536 .f32) : FVec F S512x512 .f32 :=
  k0_pay9 (inProj x0 x6 x7) (View.ld x4 qS512x512) (gate1 x0 x4 x6 x7 x8 x9 x10 x11) (cand1 x0 x4 x6 x7 x8 x9 x10 x11) (keep1 x0 x4 x6 x7 x8 x9 x10 x11)
/-- The second cell's candidate weighted by one minus its gate, -/
def new2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay13 (inProj x0 x6 x7) (View.ld x4 qS512x512) (gate1 x0 x4 x6 x7 x8 x9 x10 x11) (cand1 x0 x4 x6 x7 x8 x9 x10 x11) (keep1 x0 x4 x6 x7 x8 x9 x10 x11) (View.ld x1 qS512x32) (View.ld x12 qS512x1536) (View.ld x13 qS32x1536) (View.ld x15 qS1536) (View.ld x5 qS512x512) (View.ld x14 qS512x1536) (View.ld x16 qS1536)
/-- and its old state weighted by the gate. -/
def old2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay14 (inProj x0 x6 x7) (View.ld x4 qS512x512) (gate1 x0 x4 x6 x7 x8 x9 x10 x11) (cand1 x0 x4 x6 x7 x8 x9 x10 x11) (keep1 x0 x4 x6 x7 x8 x9 x10 x11) (View.ld x1 qS512x32) (View.ld x12 qS512x1536) (View.ld x13 qS32x1536) (View.ld x15 qS1536) (View.ld x5 qS512x512) (View.ld x14 qS512x1536) (View.ld x16 qS1536)
/-- The second cell's new hidden state: their sum. -/
def hid2 (x0 : Vec F S512x128 .f32) (x1 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) : FVec F S512x512 .f32 :=
  k0_pay15 (new2 x0 x1 x4 x5 x6 x7 x8 x9 x10 x11 x12 x13 x14 x15 x16) (old2 x0 x1 x4 x5 x6 x7 x8 x9 x10 x11 x12 x13 x14 x15 x16)
/-- The two rectified output layers over the residual sum, narrowed for the last product. -/
def feat (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) : FVec F S512x512 .bf16 :=
  k0_pay16 (res1 x0 x4 x6 x7 x8 x9 x10 x11) (new2 x0 x1 x4 x5 x6 x7 x8 x9 x10 x11 x12 x13 x14 x15 x16) (old2 x0 x1 x4 x5 x6 x7 x8 x9 x10 x11 x12 x13 x14 x15 x16) (View.ld x2 qS512x32) (View.ld x17 qS512x512) (View.ld x18 qS32x512) (View.ld x19 qS512) (View.ld x3 qS512x32) (View.ld x20 qS512x512) (View.ld x21 qS32x512) (View.ld x22 qS512)

/-! ## What the body leaves in each output window's buffer

Each output buffer takes one store through its whole rectangle; what it then holds is that store's payload. -/

/-- The logits: the features times the last weight matrix, bias added. -/
def out0_25 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, k0_pay1 (feat x0 x1 x2 x3 x4 x5 x6 x7 x8 x9 x10 x11 x12 x13 x14 x15 x16 x17 x18 x19 x20 x21 x22) (k0_pay17 (View.ld x23 qS512x512)) (constant S512x512 .f32 0x00000000#32) (View.ld x24 qS512)⟩]
/-- The first cell's new hidden state. -/
def out0_26 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, hid1 x0 x4 x6 x7 x8 x9 x10 x11⟩]
/-- The second cell's new hidden state. -/
def out0_27 (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) : Vec F S512x512 .f32 :=
  View.canon [⟨qS512x512, hid2 x0 x1 x4 x5 x6 x7 x8 x9 x10 x11 x12 x13 x14 x15 x16⟩]

/-- The offsets of the whole rectangles are zero. -/
theorem zero2 : (![0, 0] : Fin 2 → Nat) = fun _ => 0 := funext fun a => by fin_cases a <;> rfl
theorem zero1 : (![0] : Fin 1 → Nat) = fun _ => 0 := funext fun a => by fin_cases a <;> rfl

/-- The one store covers the buffer: every index lies in the whole rectangle. -/
theorem cover0 (p0 : Vec F S512x512 .f32) (y : S512x512.Idx) :
    ∃ pc ∈ ([⟨qS512x512, p0⟩] : List (View.Piece (Elt F) S512x512 .f32)), y ∈ pc.1.set :=
  ⟨_, List.mem_singleton_self _, View.mem_set_unit_zero zero2 inb_S512x512_S512x512_0_0 y⟩

/-! ## The body's triple -/

set_option maxHeartbeats 4000000 in
/-- The body, called on whole staging buffers — each input's at contents reading `xW`, each output's at anything —
    runs to its continuation with the inputs' as they were and each output's reading `out0_W` of the inputs': the
    symbolic run goes through the three runs of loads and the three stores, and each output buffer's one store
    covers it. -/
theorem sound_kernel (c : Dev nD) (E : Set ℕ) (i : grid0.Coords) (arg1 : Memref sig .tc .vmem S512x128 .f32) (harg1 : arg1.IsWhole) (arg2 : Memref sig .tc .vmem S512x32 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S128x512 .bf16) (harg7 : arg7.IsWhole) (arg8 : Memref sig .tc .vmem S512 .f32) (harg8 : arg8.IsWhole) (arg9 : Memref sig .tc .vmem S512x1536 .bf16) (harg9 : arg9.IsWhole) (arg10 : Memref sig .tc .vmem S512x1536 .bf16) (harg10 : arg10.IsWhole) (arg11 : Memref sig .tc .vmem S1536 .f32) (harg11 : arg11.IsWhole) (arg12 : Memref sig .tc .vmem S1536 .f32) (harg12 : arg12.IsWhole) (arg13 : Memref sig .tc .vmem S512x1536 .bf16) (harg13 : arg13.IsWhole) (arg14 : Memref sig .tc .vmem S32x1536 .bf16) (harg14 : arg14.IsWhole) (arg15 : Memref sig .tc .vmem S512x1536 .bf16) (harg15 : arg15.IsWhole) (arg16 : Memref sig .tc .vmem S1536 .f32) (harg16 : arg16.IsWhole) (arg17 : Memref sig .tc .vmem S1536 .f32) (harg17 : arg17.IsWhole) (arg18 : Memref sig .tc .vmem S512x512 .bf16) (harg18 : arg18.IsWhole) (arg19 : Memref sig .tc .vmem S32x512 .bf16) (harg19 : arg19.IsWhole) (arg20 : Memref sig .tc .vmem S512 .f32) (harg20 : arg20.IsWhole) (arg21 : Memref sig .tc .vmem S512x512 .bf16) (harg21 : arg21.IsWhole) (arg22 : Memref sig .tc .vmem S32x512 .bf16) (harg22 : arg22.IsWhole) (arg23 : Memref sig .tc .vmem S512 .f32) (harg23 : arg23.IsWhole) (arg24 : Memref sig .tc .vmem S512x512 .bf16) (harg24 : arg24.IsWhole) (arg25 : Memref sig .tc .vmem S512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole)
    (x0 : Vec F S512x128 .f32) (x1 : Vec F S512x32 .f32) (x2 : Vec F S512x32 .f32) (x3 : Vec F S512x32 .f32) (x4 : Vec F S512x512 .f32) (x5 : Vec F S512x512 .f32) (x6 : Vec F S128x512 .bf16) (x7 : Vec F S512 .f32) (x8 : Vec F S512x1536 .bf16) (x9 : Vec F S512x1536 .bf16) (x10 : Vec F S1536 .f32) (x11 : Vec F S1536 .f32) (x12 : Vec F S512x1536 .bf16) (x13 : Vec F S32x1536 .bf16) (x14 : Vec F S512x1536 .bf16) (x15 : Vec F S1536 .f32) (x16 : Vec F S1536 .f32) (x17 : Vec F S512x512 .bf16) (x18 : Vec F S32x512 .bf16) (x19 : Vec F S512 .f32) (x20 : Vec F S512x512 .bf16) (x21 : Vec F S32x512 .bf16) (x22 : Vec F S512 .f32) (x23 : Vec F S512x512 .bf16) (x24 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 x0 x1 x2 x3 x4 x5 x6 x7 x8 x9 x10 x11 x12 x13 x14 x15 x16 x17 x18 x19 x20 x21 x22 x23 x24) ∗ owns (c : Thread nD τ) arg27 fullShare (out0_26 x0 x1 x2 x3 x4 x5 x6 x7 x8 x9 x10 x11 x12 x13 x14 x15 x16 x17 x18 x19 x20 x21 x22 x23 x24) ∗ owns (c : Thread nD τ) arg28 fullShare (out0_27 x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0__wavernn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__wavernn_kernel_eq_skeleton]; unfold cc0__wavernn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    unfold out0_25 feat res1 new2 old2 inProj gate1 cand1 keep1
    exact View.read_writes_eq_canon _ _ _ (cover0 _)
  isplitl [H26]
  · iexists _; isplitr
    swap; · iexact H26
    ipureintro
    unfold out0_26 hid1 gate1 cand1 keep1
    exact View.read_writes_eq_canon _ _ _ (cover0 _)
  iexists _; isplitr
  swap; · iexact H27
  ipureintro
  unfold out0_27 hid2 new2 old2 inProj gate1 cand1 keep1
  exact View.read_writes_eq_canon _ _ _ (cover0 _)

/-! ## The pipeline's proof data -/

/-- The proof data of the pipeline on core `c`: the arrays as the region finds them; after the body at point `t`
    each input's buffer still at its block and each output's at `out0_W` of the twenty-five input blocks there; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 28, h⟩ => absurd h (Nat.not_lt.2 (Nat.le_add_left _ _))
  Φ _ := Pipeline.ΦA spec0 c
  q _ := fullShare
  owed _ := 0

/-- The data's arrays are the region-entry contents (the definition projected; the fold over the host operations
    is never opened). -/
theorem A_eq (c : Dev nD) (w : Fin cfg0.W) : (dats m 0 c).A w = V m c (Pipeline.arrRef spec0 w) := by
  dsimp only [dats]

/-- What the body leaves, window by window (the data's case split reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t`: the invariant, the core's dues, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns: the same, each buffer at what the data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 1000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, every weakly fair execution of @main on the TensorCores terminates, and every
    final state has every windowed array at what the library computes from the proof data and every other unscoped
    buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: every weakly fair execution terminates without a fault and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.Kernel.Frm

end
-- ==== Proof.HostPrefix.lean ====
/-
  What the host operations leave in the arrays the region reads, entry by entry, on the extended reals.

  Before its one region the program joins the three per-row inputs x, mel, a1 along the columns and pads the joined row
  with fifteen zero columns (8192 × 128); pads the first weight with fifteen zero columns and stores it the other way
  round (128 × 512); and stores every other weight the other way round, cutting the three weights that meet a joined row
  [y, a] into rows 0 … 511 and rows 512 … 543. Narrowing to a shorter float format does nothing on the extended reals.

  Each such array is first written once as the operations' term over the launched arguments (`e_vJ`), then read at an
  index: a transposed weight at (k, n) is the argument at (n, k); a cut of it at (k, n) is the argument at (n, o + k);
  the padded row is the joined row inside the first 113 columns and 0 in the last fifteen, and so is the padded weight
  along its rows. The first layer's sum over 128 entries therefore splits at 1, 81 and 113 into the three pieces' sums
  and fifteen products 0 * 0 (`inSum`).
-/
import proofs.«135078_j14224931684623_2_alg».proof.Proof.Gen.KernelIdeal.Launch
import proofs.«135078_j14224931684623_2_alg».proof.Proof.StepLayouts
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

noncomputable section

namespace Cert.KernelIdeal.Pre

open Cert.KernelIdeal.Gen
open Idealize.ShloMosaic Idealize.ShloMosaic.ValueIdx Idealize.ShloMosaic.TcCoe

section Reads

variable {A B : ℕ}

/-- A transposed array read at (k, n) is the array at (n, k). -/
theorem transpose_read (x : (⟨2, ![A, B]⟩ : Shape).Idx → EReal) (h : (⟨2, ![A, B]⟩ : Shape).Transposes [1, 0] ⟨2, ![B, A]⟩)
    (k : Fin B) (n : Fin A) (k' : Fin B) (hk : k'.val = k.val) :
    transpose (⟨2, ![B, A]⟩ : Shape) [1, 0] x h (ix2 k n) = x (ix2 n k') :=
  transpose_apply [1, 0] x h (ix2 k n) (ix2 n k') fun b =>
    match b with
    | ⟨0, _⟩ => hk
    | ⟨1, _⟩ => rfl

/-- Rows o, o + 1, … cut out of an array: row k of the cut is row o + k. -/
theorem slice_read {R : ℕ} (o : ℕ) (x : (⟨2, ![A, B]⟩ : Shape).Idx → EReal)
    (h : (⟨2, ![A, B]⟩ : Shape).Slices ![o, 0] ⟨2, ![R, B]⟩) (k : Fin R) (n : Fin B) (k' : Fin A) (hk : k'.val = o + k.val) :
    extractStridedSlice (⟨2, ![R, B]⟩ : Shape) ![o, 0] x h (ix2 k n) = x (ix2 k' n) :=
  extractStridedSlice_apply ![o, 0] x h (ix2 k n) (ix2 k' n) fun a =>
    match a with
    | ⟨0, _⟩ => hk
    | ⟨1, _⟩ => (Nat.zero_add _).symm

/-- An array padded with columns on the right, read inside the array. -/
theorem pad_read_in {C : ℕ} (hi : ℕ) (x : (⟨2, ![A, B]⟩ : Shape).Idx → EReal) {u : Shape} (v : u.Idx → EReal)
    (h : (⟨2, ![A, B]⟩ : Shape).Pads ![0, 0] ![0, hi] ![0, 0] ⟨2, ![A, C]⟩) (hu : 0 < u.numel) (r : Fin A) (q : Fin C)
    (q' : Fin B) (hq : q.val = q'.val) :
    pad (⟨2, ![A, C]⟩ : Shape) ![0, 0] ![0, hi] ![0, 0] x v h hu (ix2 r q) = x (ix2 r q') :=
  pad_apply_of_inside ![0, 0] ![0, hi] ![0, 0] x v h hu (ix2 r q) (ix2 r q') fun a =>
    match a with
    | ⟨0, _⟩ => by show r.val = 0 + r.val * (0 + 1); omega
    | ⟨1, _⟩ => by show q.val = 0 + q'.val * (0 + 1); omega

/-- An array padded with columns on the right, read in the added columns: the padding value. -/
theorem pad_read_out {C : ℕ} (hi : ℕ) (x : (⟨2, ![A, B]⟩ : Shape).Idx → EReal) {u : Shape} (v : u.Idx → EReal)
    (h : (⟨2, ![A, B]⟩ : Shape).Pads ![0, 0] ![0, hi] ![0, 0] ⟨2, ![A, C]⟩) (hu : 0 < u.numel) (r : Fin A) (q : Fin C)
    (hq : B ≤ q.val) :
    pad (⟨2, ![A, C]⟩ : Shape) ![0, 0] ![0, hi] ![0, 0] x v h hu (ix2 r q) = v (Shape.Idx.first hu) :=
  pad_apply_of_not_inside ![0, 0] ![0, hi] ![0, 0] x v h hu (ix2 r q) (1 : Fin 2) fun hin => by
    have h3 : (q.val - 0) / (0 + 1) < B := hin.2.2
    simp only [Nat.sub_zero, Nat.zero_add, Nat.div_one] at h3
    omega

end Reads

variable (m : (ℓ : Loc nD τ sig) → Buf (Elt Ideal) ℓ) (c : Dev nD)

/-- Core c's buffers when the region is entered. -/
abbrev entry (b : Ref sig .tc) : Buf (Elt Ideal) ((c : Thread nD τ).loc b) :=
  StableHlo.after (List.flatten [hostOps0, hostOps0_1, hostOps0_2, hostOps0_3, hostOps0_4]) (fun b => m (c, b)) b

/-! ## The weights -/

/-- The first cell's input weight as the region finds it: the argument read the other way round. -/
theorem e_v6 : (entry m c main_v6 : S512x1536.Idx → EReal)
    = transpose S512x1536 [1, 0] (m ((c : Thread nD τ).loc main_arg10) : S1536x512.Idx → EReal) transposes_S1536x512_S512x1536_1_0 := by
  dsimp only [entry]
  simp only [hostOps0, hostOps0_1, hostOps0_2, hostOps0_3, hostOps0_4, List.flatten_cons, List.flatten_nil, List.append_nil,
    List.cons_append, List.nil_append]
  after_results
  rfl

theorem w1i (k : Fin 512) (n : Fin 1536) :
    (entry m c main_v6 : S512x1536.Idx → EReal) (ix2 k n)
      = (m ((c : Thread nD τ).loc main_arg10) : S1536x512.Idx → EReal) (ix2 n (⟨0 + k.val, by have := k.isLt; omega⟩ : Fin 512)) :=
  (congrFun (e_v6 m c) (ix2 k n)).trans (transpose_read _ _ k n _ (Nat.zero_add _))

/-- The first cell's state weight as the region finds it: the argument read the other way round. -/
theorem e_v8 : (entry m c main_v8 : S512x1536.Idx → EReal)
    = transpose S512x1536 [1, 0] (m ((c : Thread nD τ).loc main_arg11) : S1536x512.Idx → EReal) transposes_S1536x512_S512x1536_1_0 := by
  dsimp only [entry]
  simp only [hostOps0, hostOps0_1, hostOps0_2, hostOps0_3, hostOps0_4, List.flatten_cons, List.flatten_nil, List.append_nil,
    List.cons_append, List.nil_append]
  after_results
  rfl

theorem w1h (k : Fin 512) (n : Fin 1536) :
    (entry m c main_v8 : S512x1536.Idx → EReal) (ix2 k n)
      = (m ((c : Thread nD τ).loc main_arg11) : S1536x512.Idx → EReal) (ix2 n (⟨0 + k.val, by have := k.isLt; omega⟩ : Fin 512)) :=
  (congrFun (e_v8 m c) (ix2 k n)).trans (transpose_read _ _ k n _ (Nat.zero_add _))

/-- The second cell's state weight as the region finds it: the argument read the other way round. -/
theorem e_v14 : (entry m c main_v14 : S512x1536.Idx → EReal)
    = transpose S512x1536 [1, 0] (m ((c : Thread nD τ).loc main_arg15) : S1536x512.Idx → EReal) transposes_S1536x512_S512x1536_1_0 := by
  dsimp only [entry]
  simp only [hostOps0, hostOps0_1, hostOps0_2, hostOps0_3, hostOps0_4, List.flatten_cons, List.flatten_nil, List.append_nil,
    List.cons_append, List.nil_append]
  after_results
  rfl

theorem w2h (k : Fin 512) (n : Fin 1536) :
    (entry m c main_v14 : S512x1536.Idx → EReal) (ix2 k n)
      = (m ((c : Thread nD τ).loc main_arg15) : S1536x512.Idx → EReal) (ix2 n (⟨0 + k.val, by have := k.isLt; omega⟩ : Fin 512)) :=
  (congrFun (e_v14 m c) (ix2 k n)).trans (transpose_read _ _ k n _ (Nat.zero_add _))

/-- The output layer's weight as the region finds it: the argument read the other way round. -/
theorem e_v24 : (entry m c main_v24 : S512x512.Idx → EReal)
    = transpose S512x512 [1, 0] (m ((c : Thread nD τ).loc main_arg22) : S512x512.Idx → EReal) transposes_S512x512_S512x512_1_0 := by
  dsimp only [entry]
  simp only [hostOps0, hostOps0_1, hostOps0_2, hostOps0_3, hostOps0_4, List.flatten_cons, List.flatten_nil, List.append_nil,
    List.cons_append, List.nil_append]
  after_results
  rfl

theorem f3 (k : Fin 512) (n : Fin 512) :
    (entry m c main_v24 : S512x512.Idx → EReal) (ix2 k n)
      = (m ((c : Thread nD τ).loc main_arg22) : S512x512.Idx → EReal) (ix2 n (⟨0 + k.val, by have := k.isLt; omega⟩ : Fin 512)) :=
  (congrFun (e_v24 m c) (ix2 k n)).trans (transpose_read _ _ k n _ (Nat.zero_add _))

/-- The second cell's input weight, rows 0 … 511 of it read the other way round. -/
theorem e_v11 : (entry m c main_v11 : S512x1536.Idx → EReal)
    = extractStridedSlice S512x1536 ![0, 0] (transpose S544x1536 [1, 0] (m ((c : Thread nD τ).loc main_arg14) : S1536x544.Idx → EReal) transposes_S1536x544_S544x1536_1_0) slices_S544x1536_S512x1536_0_0 := by
  dsimp only [entry]
  simp only [hostOps0, hostOps0_1, hostOps0_2, hostOps0_3, hostOps0_4, List.flatten_cons, List.flatten_nil, List.append_nil,
    List.cons_append, List.nil_append]
  after_results
  rfl

/-- The second cell's input weight, rows 512 … 543 of it read the other way round. -/
theorem e_v12 : (entry m c main_v12 : S32x1536.Idx → EReal)
    = extractStridedSlice S32x1536 ![512, 0] (transpose S544x1536 [1, 0] (m ((c : Thread nD τ).loc main_arg14) : S1536x544.Idx → EReal) transposes_S1536x544_S544x1536_1_0) slices_S544x1536_S32x1536_512_0 := by
  dsimp only [entry]
  simp only [hostOps0, hostOps0_1, hostOps0_2, hostOps0_3, hostOps0_4, List.flatten_cons, List.flatten_nil, List.append_nil,
    List.cons_append, List.nil_append]
  after_results
  rfl

theorem w2m (k : Fin 512) (n : Fin 1536) :
    (entry m c main_v11 : S512x1536.Idx → EReal) (ix2 k n)
      = (m ((c : Thread nD τ).loc main_arg14) : S1536x544.Idx → EReal) (ix2 n (⟨0 + k.val, by have := k.isLt; omega⟩ : Fin 544)) :=
  (congrFun (e_v11 m c) (ix2 k n)).trans
    ((slice_read 0 _ _ k n (⟨0 + k.val, by have := k.isLt; omega⟩ : Fin 544) rfl).trans (transpose_read _ _ _ n _ rfl))

theorem w2a (k : Fin 32) (n : Fin 1536) :
    (entry m c main_v12 : S32x1536.Idx → EReal) (ix2 k n)
      = (m ((c : Thread nD τ).loc main_arg14) : S1536x544.Idx → EReal) (ix2 n (⟨512 + k.val, by have := k.isLt; omega⟩ : Fin 544)) :=
  (congrFun (e_v12 m c) (ix2 k n)).trans
    ((slice_read 512 _ _ k n (⟨512 + k.val, by have := k.isLt; omega⟩ : Fin 544) rfl).trans (transpose_read _ _ _ n _ rfl))

/-- The first dense layer's weight, rows 0 … 511 of it read the other way round. -/
theorem e_v17 : (entry m c main_v17 : S512x512.Idx → EReal)
    = extractStridedSlice S512x512 ![0, 0] (transpose S544x512 [1, 0] (m ((c : Thread nD τ).loc main_arg18) : S512x544.Idx → EReal) transposes_S512x544_S544x512_1_0) slices_S544x512_S512x512_0_0 := by
  dsimp only [entry]
  simp only [hostOps0, hostOps0_1, hostOps0_2, hostOps0_3, hostOps0_4, List.flatten_cons, List.flatten_nil, List.append_nil,
    List.cons_append, List.nil_append]
  after_results
  rfl

/-- The first dense layer's weight, rows 512 … 543 of it read the other way round. -/
theorem e_v18 : (entry m c main_v18 : S32x512.Idx → EReal)
    = extractStridedSlice S32x512 ![512, 0] (transpose S544x512 [1, 0] (m ((c : Thread nD τ).loc main_arg18) : S512x544.Idx → EReal) transposes_S512x544_S544x512_1_0) slices_S544x512_S32x512_512_0 := by
  dsimp only [entry]
  simp only [hostOps0, hostOps0_1, hostOps0_2, hostOps0_3, hostOps0_4, List.flatten_cons, List.flatten_nil, List.append_nil,
    List.cons_append, List.nil_append]
  after_results
  rfl

theorem f1m (k : Fin 512) (n : Fin 512) :
    (entry m c main_v17 : S512x512.Idx → EReal) (ix2 k n)
      = (m ((c : Thread nD τ).loc main_arg18) : S512x544.Idx → EReal) (ix2 n (⟨0 + k.val, by have := k.isLt; omega⟩ : Fin 544)) :=
  (congrFun (e_v17 m c) (ix2 k n)).trans
    ((slice_read 0 _ _ k n (⟨0 + k.val, by have := k.isLt; omega⟩ : Fin 544) rfl).trans (transpose_read _ _ _ n _ rfl))

theorem f1a (k : Fin 32) (n : Fin 512) :
    (entry m c main_v18 : S32x512.Idx → EReal) (ix2 k n)
      = (m ((c : Thread nD τ).loc main_arg18) : S512x544.Idx → EReal) (ix2 n (⟨512 + k.val, by have := k.isLt; omega⟩ : Fin 544)) :=
  (congrFun (e_v18 m c) (ix2 k n)).trans
    ((slice_read 512 _ _ k n (⟨512 + k.val, by have := k.isLt; omega⟩ : Fin 544) rfl).trans (transpose_read _ _ _ n _ rfl))

/-- The second dense layer's weight, rows 0 … 511 of it read the other way round. -/
theorem e_v21 : (entry m c main_v21 : S512x512.Idx → EReal)
    = extractStridedSlice S512x512 ![0, 0] (transpose S544x512 [1, 0] (m ((c : Thread nD τ).loc main_arg20) : S512x544.Idx → EReal) transposes_S512x544_S544x512_1_0) slices_S544x512_S512x512_0_0 := by
  dsimp only [entry]
  simp only [hostOps0, hostOps0_1, hostOps0_2, hostOps0_3, hostOps0_4, List.flatten_cons, List.flatten_nil, List.append_nil,
    List.cons_append, List.nil_append]
  after_results
  rfl

/-- The second dense layer's weight, rows 512 … 543 of it read the other way round. -/
theorem e_v22 : (entry m c main_v22 : S32x512.Idx → EReal)
    = extractStridedSlice S32x512 ![512, 0] (transpose S544x512 [1, 0] (m ((c : Thread nD τ).loc main_arg20) : S512x544.Idx → EReal) transposes_S512x544_S544x512_1_0) slices_S544x512_S32x512_512_0 := by
  dsimp only [entry]
  simp only [hostOps0, hostOps0_1, hostOps0_2, hostOps0_3, hostOps0_4, List.flatten_cons, List.flatten_nil, List.append_nil,
    List.cons_append, List.nil_append]
  after_results
  rfl

theorem f2m (k : Fin 512) (n : Fin 512) :
    (entry m c main_v21 : S512x512.Idx → EReal) (ix2 k n)
      = (m ((c : Thread nD τ).loc main_arg20) : S512x544.Idx → EReal) (ix2 n (⟨0 + k.val, by have := k.isLt; omega⟩ : Fin 544)) :=
  (congrFun (e_v21 m c) (ix2 k n)).trans
    ((slice_read 0 _ _ k n (⟨0 + k.val, by have := k.isLt; omega⟩ : Fin 544) rfl).trans (transpose_read _ _ _ n _ rfl))

theorem f2a (k : Fin 32) (n : Fin 512) :
    (entry m c main_v22 : S32x512.Idx → EReal) (ix2 k n)
      = (m ((c : Thread nD τ).loc main_arg20) : S512x544.Idx → EReal) (ix2 n (⟨512 + k.val, by have := k.isLt; omega⟩ : Fin 544)) :=
  (congrFun (e_v22 m c) (ix2 k n)).trans
    ((slice_read 512 _ _ k n (⟨512 + k.val, by have := k.isLt; omega⟩ : Fin 544) rfl).trans (transpose_read _ _ _ n _ rfl))

/-! ## The joined, padded input row and the padded first weight -/

/-- The value both pads write: the integer zero made a float. -/
abbrev padZero : S_.Idx → EReal := sitofp (F := Ideal) .f32 (constantI S_ 32 0#32)

/-- It is zero. -/
theorem padZero_apply (i : S_.Idx) : padZero i = 0 := by
  show (((0#32 : BitVec 32).toInt : ℝ) : EReal) = 0
  rw [BitVec.toInt_zero, Int.cast_zero, EReal.coe_zero]

/-- The three per-row inputs joined along the columns: [x, mel, a1]. -/
abbrev joined : S8192x113.Idx → EReal :=
  concatenate S8192x113 1
    [⟨S8192x1, (m ((c : Thread nD τ).loc main_arg7) : S8192x1.Idx → EReal)⟩,
     ⟨S8192x80, (m ((c : Thread nD τ).loc main_arg0) : S8192x80.Idx → EReal)⟩,
     ⟨S8192x32, (m ((c : Thread nD τ).loc main_arg1) : S8192x32.Idx → EReal)⟩]
    concatenates_S8192x1_S8192x80_S8192x32_S8192x113_d1

/-- The joined row padded with fifteen zero columns, as the region finds it. -/
theorem e_v1 : (entry m c main_v1 : S8192x128.Idx → EReal)
    = pad S8192x128 ![0, 0] ![0, 15] ![0, 0] (joined m c) padZero pads_S8192x113_S8192x128_000_0150 h_S_ := by
  dsimp only [entry]
  simp only [hostOps0, hostOps0_1, hostOps0_2, hostOps0_3, hostOps0_4, List.flatten_cons, List.flatten_nil, List.append_nil,
    List.cons_append, List.nil_append]
  after_results
  rfl

/-- The first weight padded with fifteen zero columns and read the other way round, as the region finds it. -/
theorem e_v4 : (entry m c main_v4 : S128x512.Idx → EReal)
    = transpose S128x512 [1, 0]
        (pad S512x128 ![0, 0] ![0, 15] ![0, 0] (m ((c : Thread nD τ).loc main_arg8) : S512x113.Idx → EReal) padZero pads_S512x113_S512x128_000_0150 h_S_)
        transposes_S512x128_S128x512_1_0 := by
  dsimp only [entry]
  simp only [hostOps0, hostOps0_1, hostOps0_2, hostOps0_3, hostOps0_4, List.flatten_cons, List.flatten_nil, List.append_nil,
    List.cons_append, List.nil_append]
  after_results
  rfl

/-- Column 0 of the joined row is x. -/
theorem joined_x (r : Fin 8192) (q : Fin 113) (k : Fin 1) (h : q.val = 0 + k.val) :
    joined m c (ix2 r q) = (m ((c : Thread nD τ).loc main_arg7) : S8192x1.Idx → EReal) (ix2 r k) :=
  concatenate_apply_piece (1 : Fin 2) _ _ (ix2 r q) 0 (by show (0 : ℕ) < 3; decide) S8192x1 _ rfl rfl 0 rfl (ix2 r k)
    (fun b hb => match b, hb with
      | ⟨0, _⟩, _ => rfl
      | ⟨1, _⟩, hb => absurd rfl hb)
    (by show 0 + k.val = q.val; omega)

/-- Columns 1 … 80 of the joined row are the mel frame. -/
theorem joined_mel (r : Fin 8192) (q : Fin 113) (k : Fin 80) (h : q.val = 1 + k.val) :
    joined m c (ix2 r q) = (m ((c : Thread nD τ).loc main_arg0) : S8192x80.Idx → EReal) (ix2 r k) :=
  concatenate_apply_piece (1 : Fin 2) _ _ (ix2 r q) 1 (by show (1 : ℕ) < 3; decide) S8192x80 _ rfl rfl 1 rfl (ix2 r k)
    (fun b hb => match b, hb with
      | ⟨0, _⟩, _ => rfl
      | ⟨1, _⟩, hb => absurd rfl hb)
    (by show 1 + k.val = q.val; omega)

/-- Columns 81 … 112 of the joined row are a1. -/
theorem joined_a1 (r : Fin 8192) (q : Fin 113) (k : Fin 32) (h : q.val = 81 + k.val) :
    joined m c (ix2 r q) = (m ((c : Thread nD τ).loc main_arg1) : S8192x32.Idx → EReal) (ix2 r k) :=
  concatenate_apply_piece (1 : Fin 2) _ _ (ix2 r q) 2 (by show (2 : ℕ) < 3; decide) S8192x32 _ rfl rfl 81 rfl (ix2 r k)
    (fun b hb => match b, hb with
      | ⟨0, _⟩, _ => rfl
      | ⟨1, _⟩, hb => absurd rfl hb)
    (by show 81 + k.val = q.val; omega)

/-- The padded row inside the joined row. -/
theorem x0_in (r : Fin 8192) (q : Fin 128) (q' : Fin 113) (h : q.val = q'.val) :
    (entry m c main_v1 : S8192x128.Idx → EReal) (ix2 r q) = joined m c (ix2 r q') :=
  (congrFun (e_v1 m c) (ix2 r q)).trans (pad_read_in 15 _ _ _ _ r q q' h)

/-- The padded row in the added columns. -/
theorem x0_out (r : Fin 8192) (q : Fin 128) (h : 113 ≤ q.val) :
    (entry m c main_v1 : S8192x128.Idx → EReal) (ix2 r q) = (0 : EReal) :=
  (congrFun (e_v1 m c) (ix2 r q)).trans ((pad_read_out 15 _ _ _ _ r q h).trans (padZero_apply _))

/-- The padded first weight inside the weight. -/
theorem iw_in (q : Fin 128) (n : Fin 512) (q' : Fin 113) (h : q.val = q'.val) :
    (entry m c main_v4 : S128x512.Idx → EReal) (ix2 q n) = (m ((c : Thread nD τ).loc main_arg8) : S512x113.Idx → EReal) (ix2 n q') :=
  (congrFun (e_v4 m c) (ix2 q n)).trans ((transpose_read _ _ q n q rfl).trans (pad_read_in 15 _ _ _ _ n q q' h))

/-- The padded first weight in the added rows. -/
theorem iw_out (q : Fin 128) (n : Fin 512) (h : 113 ≤ q.val) :
    (entry m c main_v4 : S128x512.Idx → EReal) (ix2 q n) = (0 : EReal) :=
  (congrFun (e_v4 m c) (ix2 q n)).trans
    ((transpose_read _ _ q n q rfl).trans ((pad_read_out 15 _ _ _ _ n q h).trans (padZero_apply _)))

/-- A sum over a + b + c + d terms is the four stretches' sums. -/
theorem sum_four {M : Type*} [AddCommMonoid M] {N : ℕ} (a b c d : ℕ) (h : a + b + c + d = N) (f : Fin N → M) :
    ∑ i, f i
      = ((∑ i : Fin a, f ⟨i.val, by have := i.isLt; omega⟩ + ∑ i : Fin b, f ⟨a + i.val, by have := i.isLt; omega⟩)
          + ∑ i : Fin c, f ⟨a + b + i.val, by have := i.isLt; omega⟩)
        + ∑ i : Fin d, f ⟨a + b + c + i.val, by have := i.isLt; omega⟩ := by
  subst h
  rw [Fin.sum_univ_add, Fin.sum_univ_add, Fin.sum_univ_add]
  rfl

/-- Four terms of which the last is zero. -/
theorem add4_congr {a b c d a' b' c' : EReal} (h1 : a = a') (h2 : b = b') (h3 : c = c') (h4 : d = 0) :
    ((a + b) + c) + d = (a' + b') + c' := by
  rw [h1, h2, h3, h4, add_zero]

/-- The padded first layer's sum over 128 entries is the three pieces' sums: inside the first 113 columns the padded row
    and the padded weight are the pieces and the weight, and the last fifteen products are 0 * 0. -/
theorem inSum (r : Fin 8192) (n : Fin 512) :
    Cert.Tile.dotK (entry m c main_v4 : S128x512.Idx → EReal) (Cert.Net.rowOf (entry m c main_v1 : S8192x128.Idx → EReal) r) n
      = (Cert.Net.dotT (m ((c : Thread nD τ).loc main_arg8) : S512x113.Idx → EReal) 0 (by norm_num) (Cert.Net.rowOf (m ((c : Thread nD τ).loc main_arg7) : S8192x1.Idx → EReal) r) n
          + Cert.Net.dotT (m ((c : Thread nD τ).loc main_arg8) : S512x113.Idx → EReal) 1 (by norm_num) (Cert.Net.rowOf (m ((c : Thread nD τ).loc main_arg0) : S8192x80.Idx → EReal) r) n)
        + Cert.Net.dotT (m ((c : Thread nD τ).loc main_arg8) : S512x113.Idx → EReal) 81 (by norm_num) (Cert.Net.rowOf (m ((c : Thread nD τ).loc main_arg1) : S8192x32.Idx → EReal) r) n := by
  simp only [Cert.Tile.dotK, Cert.Net.dotT, Cert.Net.rowOf]
  refine (sum_four 1 80 32 15 rfl _).trans (add4_congr ?_ ?_ ?_ ?_)
  · refine Finset.sum_congr rfl fun k _ => ?_
    rw [x0_in m c r _ (⟨k.val, by have := k.isLt; omega⟩ : Fin 113) rfl, joined_x m c r _ k (Nat.zero_add _).symm,
      iw_in m c _ n (⟨0 + k.val, by have := k.isLt; omega⟩ : Fin 113) (Nat.zero_add _).symm]
  · refine Finset.sum_congr rfl fun k _ => ?_
    rw [x0_in m c r _ (⟨1 + k.val, by have := k.isLt; omega⟩ : Fin 113) rfl, joined_mel m c r _ k rfl,
      iw_in m c _ n (⟨1 + k.val, by have := k.isLt; omega⟩ : Fin 113) rfl]
  · refine Finset.sum_congr rfl fun k _ => ?_
    rw [x0_in m c r _ (⟨81 + k.val, by have := k.isLt; omega⟩ : Fin 113) rfl, joined_a1 m c r _ k rfl,
      iw_in m c _ n (⟨81 + k.val, by have := k.isLt; omega⟩ : Fin 113) rfl]
  · refine Finset.sum_eq_zero fun k _ => ?_
    rw [x0_out m c r _ (by show 113 ≤ 1 + 80 + 32 + k.val; omega), zero_mul]

end Cert.KernelIdeal.Pre

end
-- ==== Proof.ReferenceStep.lean ====
/-
  The reference program, read index by index, is the row-by-row step.

  The program is a chain of whole-array operations: three rows joined and multiplied by a transposed weight, a bias
  broadcast down the rows, two recurrent cells each written with slices of a 1536-wide pre-activation, two dense layers
  followed by the maximum with zero, and an output layer. Read at the entry (r, q), every stage depends on row r of the
  batch only, and is the corresponding stage of the step applied to row r:

    a product with a transposed weight, at (r, q), is  Σ_k y (r, k) * W (q, k);
    a row joined from pieces, under such a sum, splits the sum at the joins, one sum per piece, each piece meeting the
      weight's columns from its offset on;
    a slice [512 j, 512 (j + 1)) of a 1536-wide row reads column 512 j + q;
    1 / (1 + e^(−s)) is the logistic function of s by definition, the two ones being the real number 1.

  Each stage is stated as an equation between whole arrays, so that a later stage can use it under its own sum.
-/
import proofs.«135078_j14224931684623_2_alg».proof.Proof.StepSpec
import proofs.«135078_j14224931684623_2_alg».proof.Proof.Gen.ReferenceIdeal.Read
import Idealize.ShloMosaic.Lib.Pipeline.Value
import Idealize.ShloMosaic.Lib.ValueIdx
import Idealize.ShloMosaic.PureOps.Ideal.Laws

noncomputable section

namespace Cert.RefStep

open Cert.ReferenceIdeal Cert.ReferenceIdeal.Read Cert.Net
open Idealize.ShloMosaic Idealize.ShloMosaic.ValueIdx

/-! ## Small facts -/

/-- Two rank-2 indices with the same two coordinates are equal. -/
local macro "idx2" : tactic =>
  `(tactic| (funext a; apply Fin.ext; match a with | ⟨0, _⟩ => rfl | ⟨1, _⟩ => rfl))
/-- Two rank-1 indices with the same coordinate are equal. -/
local macro "idx1" : tactic =>
  `(tactic| (funext a; apply Fin.ext; match a with | ⟨0, _⟩ => rfl))

/-- The float word 0x3F800000 denotes the real number 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

/-- 1 / (1 + e^(−s)), the two ones written as float words, is the logistic function of s. -/
theorem sigmoid_words (s : EReal) :
    Ideal.div (Ideal.ofBits .f32 0x3F800000#32) (Ideal.ofBits .f32 0x3F800000#32 + Ideal.exp (-s)) = Ideal.logistic s := by
  rw [ofBits_one]; rfl

/-- A sum over 544 = 512 + 32 terms, split at 512. -/
theorem sum_544 (f : Fin 544 → EReal) :
    ∑ k, f k = ∑ k : Fin 512, f ⟨k.val, by have := k.isLt; omega⟩ + ∑ k : Fin 32, f ⟨512 + k.val, by have := k.isLt; omega⟩ :=
  Fin.sum_univ_add (a := 512) (b := 32) f

/-- A sum over 113 = 1 + 80 + 32 terms, split at 1 and at 81. -/
theorem sum_113 (f : Fin 113 → EReal) :
    ∑ k, f k = (∑ k : Fin 1, f ⟨0 + k.val, by have := k.isLt; omega⟩ + ∑ k : Fin 80, f ⟨1 + k.val, by have := k.isLt; omega⟩)
      + ∑ k : Fin 32, f ⟨81 + k.val, by have := k.isLt; omega⟩ := by
  have h1 := Fin.sum_univ_add (a := 81) (b := 32) f
  have h2 := Fin.sum_univ_add (a := 1) (b := 80) (fun k : Fin 81 => f ⟨k.val, by have := k.isLt; omega⟩)
  refine h1.trans (congrArg₂ (· + ·) (h2.trans (congrArg₂ (· + ·) ?_ rfl)) rfl)
  exact Finset.sum_congr rfl fun k _ => congrArg f (Fin.ext (Nat.zero_add _).symm)

/-- x ⋅[0] W over all of W's columns, at n: Σ_k x k * W (n, k). -/
theorem dotT_zero {K N : ℕ} (W : Mat N K) (h : 0 + K ≤ K) (x : Row K) (n : Fin N) :
    dotT W 0 h x n = ∑ k : Fin K, x k * W (ix2 n k) := by
  unfold dotT
  exact Finset.sum_congr rfl fun k _ => by rw [show (⟨0 + k.val, by have := k.isLt; omega⟩ : Fin K) = k from Fin.ext (Nat.zero_add _)]

/-- The three blocks of a 1536-wide row start at columns 0, 512 and 1024. -/
theorem third_zero (q : Fin 512) : third 0 q = ⟨q.val, by have := q.isLt; omega⟩ := Fin.ext (by simp [third])
theorem third_one (q : Fin 512) : third 1 q = ⟨512 + q.val, by have := q.isLt; omega⟩ := Fin.ext (by simp [third])
theorem third_two (q : Fin 512) : third 2 q = ⟨1024 + q.val, by have := q.isLt; omega⟩ := Fin.ext (by simp [third])

section Stages

variable (P : Params)
  (x0 : Mat 8192 80) (x1 x2 x3 x4 : Mat 8192 32) (x5 x6 : Mat 8192 512) (x7 : Mat 8192 1)

/-! ## The joined rows, read piece by piece -/

/-- The row [x, mel, a1] read in each of its three pieces: columns 0, 1 … 80 and 81 … 112. -/
theorem v0_x (r : Fin 8192) (k : Fin 1) :
    val_main_v0 (F := Ideal) x0 x1 x7 (ix2 r (⟨0 + k.val, by have := k.isLt; omega⟩ : Fin 113)) = x7 (ix2 r k) := by
  unfold val_main_v0
  exact concatenate_apply_piece (t := S8192x113) 1 _ _ _ 0 (by show (0 : ℕ) < 3; omega) S8192x1 x7 rfl rfl 0 rfl (ix2 r k)
    (fun b hb => match b, hb with | ⟨0, _⟩, _ => rfl | ⟨1, _⟩, hb => absurd rfl hb) rfl

theorem v0_mel (r : Fin 8192) (k : Fin 80) :
    val_main_v0 (F := Ideal) x0 x1 x7 (ix2 r (⟨1 + k.val, by have := k.isLt; omega⟩ : Fin 113)) = x0 (ix2 r k) := by
  unfold val_main_v0
  exact concatenate_apply_piece (t := S8192x113) 1 _ _ _ 1 (by show (1 : ℕ) < 3; omega) S8192x80 x0 rfl rfl 1 rfl (ix2 r k)
    (fun b hb => match b, hb with | ⟨0, _⟩, _ => rfl | ⟨1, _⟩, hb => absurd rfl hb) rfl

theorem v0_a1 (r : Fin 8192) (k : Fin 32) :
    val_main_v0 (F := Ideal) x0 x1 x7 (ix2 r (⟨81 + k.val, by have := k.isLt; omega⟩ : Fin 113)) = x1 (ix2 r k) := by
  unfold val_main_v0
  exact concatenate_apply_piece (t := S8192x113) 1 _ _ _ 2 (by show (2 : ℕ) < 3; omega) S8192x32 x1 rfl rfl 81 rfl (ix2 r k)
    (fun b hb => match b, hb with | ⟨0, _⟩, _ => rfl | ⟨1, _⟩, hb => absurd rfl hb) rfl

/-! ## The step's stages on row r of the batch -/

/-- The input layer on row r. -/
def rXI (r : Fin 8192) : Row 512 := inLayer P (rowOf x7 r) (rowOf x0 r) (rowOf x1 r)
/-- The first cell's two pre-activations on row r. -/
def rGI1 (r : Fin 8192) : Row 1536 := fun n => dotT P.W1i 0 (by norm_num) (rXI P x0 x1 x7 r) n + P.b1i (ix1 n)
def rGH1 (r : Fin 8192) : Row 1536 := fun n => dotT P.W1h 0 (by norm_num) (rowOf x5 r) n + P.b1h (ix1 n)
/-- The first cell's new state on row r. -/
def rH1 (r : Fin 8192) : Row 512 := cell (rGI1 P x0 x1 x7 r) (rGH1 P x5 r) (rowOf x5 r)
/-- The first residual sum on row r. -/
def rX1 (r : Fin 8192) : Row 512 := radd (rXI P x0 x1 x7 r) (rH1 P x0 x1 x5 x7 r)
/-- The second cell's two pre-activations on row r. -/
def rGI2 (r : Fin 8192) : Row 1536 := fun n =>
  (dotT P.W2i 0 (by norm_num) (rX1 P x0 x1 x5 x7 r) n + dotT P.W2i 512 (by norm_num) (rowOf x2 r) n) + P.b2i (ix1 n)
def rGH2 (r : Fin 8192) : Row 1536 := fun n => dotT P.W2h 0 (by norm_num) (rowOf x6 r) n + P.b2h (ix1 n)
/-- The second cell's new state on row r. -/
def rH2 (r : Fin 8192) : Row 512 := cell (rGI2 P x0 x1 x2 x5 x7 r) (rGH2 P x6 r) (rowOf x6 r)
/-- The second residual sum on row r. -/
def rX2 (r : Fin 8192) : Row 512 := radd (rX1 P x0 x1 x5 x7 r) (rH2 P x0 x1 x2 x5 x6 x7 r)
/-- The two dense layers and the output layer on row r. -/
def rY1 (r : Fin 8192) : Row 512 := dense P.F1 P.c1 (rX2 P x0 x1 x2 x5 x6 x7 r) (rowOf x3 r)
def rY2 (r : Fin 8192) : Row 512 := dense P.F2 P.c2 (rY1 P x0 x1 x2 x3 x5 x6 x7 r) (rowOf x4 r)
def rOut (r : Fin 8192) : Row 512 := outLayer P (rY2 P x0 x1 x2 x3 x4 x5 x6 x7 r)

/-- The stages are the step's: its three results on row r. -/
theorem stepRows_eq (r : Fin 8192) :
    stepRows P x7 x0 x1 x2 x3 x4 x5 x6 r = (rOut P x0 x1 x2 x3 x4 x5 x6 x7 r, rH1 P x0 x1 x5 x7 r, rH2 P x0 x1 x2 x5 x6 x7 r) := rfl

/-- The two dense layers' values before the maximum with zero, on row r. -/
def rD1 (r : Fin 8192) : Row 512 := fun n =>
  (dotT P.F1 0 (by norm_num) (rX2 P x0 x1 x2 x5 x6 x7 r) n + dotT P.F1 512 (by norm_num) (rowOf x3 r) n) + P.c1 (ix1 n)
def rD2 (r : Fin 8192) : Row 512 := fun n =>
  (dotT P.F2 0 (by norm_num) (rY1 P x0 x1 x2 x3 x5 x6 x7 r) n + dotT P.F2 512 (by norm_num) (rowOf x4 r) n) + P.c2 (ix1 n)

/-! ## The stages of the program, as whole arrays -/

/-- The input layer: the joined row's product splits into the three pieces' products. -/
theorem st_v5 : val_main_v5 (F := Ideal) x0 x1 x7 P.Iw P.Ib = byRows (rXI P x0 x1 x7) := by
  funext i
  obtain ⟨r, q, rfl⟩ : ∃ (r : Fin 8192) (q : Fin 512), i = ix2 r q := ⟨i 0, i 1, eq_ix2 i⟩
  rw [val_main_v5_apply, val_main_v2_apply, val_main_v4_apply, val_main_v3_apply, sum_113]
  have el : ∀ k : Fin 113, lidx_main_v2 (ix2 r q) k = ix2 r k := fun k => by idx2
  have er : ∀ k : Fin 113, idx_main_v1 (ridx_main_v2 (ix2 r q) k) = ix2 q k := fun k => by idx2
  have eb : idx_main_v3 (idx_main_v4 (ix2 r q)) = ix1 q := by idx1
  simp only [val_main_v1_apply, el, er, eb, v0_x, v0_mel, v0_a1, Ideal.addf_def, byRows_apply, rXI, inLayer, dotT, rowOf]

/-- The first cell's input pre-activation. -/
theorem st_v10 : val_main_v10 (F := Ideal) x0 x1 x7 P.Iw P.Ib P.W1i P.b1i = byRows (rGI1 P x0 x1 x7) := by
  funext i
  obtain ⟨r, q, rfl⟩ : ∃ (r : Fin 8192) (q : Fin 1536), i = ix2 r q := ⟨i 0, i 1, eq_ix2 i⟩
  rw [val_main_v10_apply, val_main_v7_apply, val_main_v9_apply, val_main_v8_apply, st_v5]
  have el : ∀ k : Fin 512, lidx_main_v7 (ix2 r q) k = ix2 r k := fun k => by idx2
  have er : ∀ k : Fin 512, idx_main_v6 (ridx_main_v7 (ix2 r q) k) = ix2 q k := fun k => by idx2
  have eb : idx_main_v8 (idx_main_v9 (ix2 r q)) = ix1 q := by idx1
  simp only [val_main_v6_apply, el, er, eb, Ideal.addf_def, byRows_apply, rGI1, dotT_zero, rowOf]

/-- The first cell's state pre-activation. -/
theorem st_v15 : val_main_v15 (F := Ideal) x5 P.W1h P.b1h = byRows (rGH1 P x5) := by
  funext i
  obtain ⟨r, q, rfl⟩ : ∃ (r : Fin 8192) (q : Fin 1536), i = ix2 r q := ⟨i 0, i 1, eq_ix2 i⟩
  rw [val_main_v15_apply, val_main_v12_apply, val_main_v14_apply, val_main_v13_apply]
  have el : ∀ k : Fin 512, lidx_main_v12 (ix2 r q) k = ix2 r k := fun k => by idx2
  have er : ∀ k : Fin 512, idx_main_v11 (ridx_main_v12 (ix2 r q) k) = ix2 q k := fun k => by idx2
  have eb : idx_main_v13 (idx_main_v14 (ix2 r q)) = ix1 q := by idx1
  simp only [val_main_v11_apply, el, er, eb, Ideal.addf_def, byRows_apply, rGH1, dotT_zero, rowOf]

/-- The first cell: the three slices of each pre-activation are its three blocks, and each quotient
    1 / (1 + e^(−s)) is the logistic function. -/
theorem st_v43 :
    val_main_v43 (F := Ideal) x0 x1 x5 x7 P.Iw P.Ib P.W1i P.W1h P.b1i P.b1h
      = byRows (rH1 P x0 x1 x5 x7) := by
  funext i
  obtain ⟨r, q, rfl⟩ : ∃ (r : Fin 8192) (q : Fin 512), i = ix2 r q := ⟨i 0, i 1, eq_ix2 i⟩
  have i0 : idx_main_v16 (ix2 r q) = ix2 r (third 0 q) := by rw [third_zero]; idx2
  have i1 : idx_main_v17 (ix2 r q) = ix2 r (third 1 q) := by rw [third_one]; idx2
  have i2 : idx_main_v18 (ix2 r q) = ix2 r (third 2 q) := by rw [third_two]; idx2
  have h0 : idx_main_v19 (ix2 r q) = ix2 r (third 0 q) := by rw [third_zero]; idx2
  have h1 : idx_main_v20 (ix2 r q) = ix2 r (third 1 q) := by rw [third_one]; idx2
  have h2 : idx_main_v21 (ix2 r q) = ix2 r (third 2 q) := by rw [third_two]; idx2
  simp only [val_main_v43_apply, val_main_v41_apply, val_main_v42_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply,
    val_main_cst_apply, val_main_cst_0_apply, val_main_cst_1_apply, val_main_cst_2_apply, val_main_cst_3_apply, st_v10, st_v15, i0, i1, i2, h0, h1, h2, byRows_apply,
    Ideal.addf_def, Ideal.subf_def, Ideal.mulf_def, Ideal.hostDivf_def, Ideal.hostNegf_def, Ideal.negf_def,
    Ideal.hostUnary_exp_def, Ideal.hostUnary_tanh_def, Ideal.ofBits_def, sigmoid_words, rH1, cell, rowOf]

/-- The first residual sum. -/
theorem st_v44 :
    val_main_v44 (F := Ideal) x0 x1 x5 x7 P.Iw P.Ib P.W1i P.W1h P.b1i P.b1h
      = byRows (rX1 P x0 x1 x5 x7) := by
  funext i
  obtain ⟨r, q, rfl⟩ : ∃ (r : Fin 8192) (q : Fin 512), i = ix2 r q := ⟨i 0, i 1, eq_ix2 i⟩
  rw [val_main_v44_apply, st_v5, st_v43]
  simp only [Ideal.addf_def, byRows_apply, rX1, radd]

/-- The row joined from a 512-wide stage and a 32-wide argument, read in its first piece. -/
theorem v45_left (r : Fin 8192) (k : Fin 512) :
    val_main_v45 (F := Ideal) x0 x1 x2 x5 x7 P.Iw P.Ib P.W1i P.W1h P.b1i P.b1h (ix2 r (⟨k.val, by have := k.isLt; omega⟩ : Fin 544))
      = val_main_v44 (F := Ideal) x0 x1 x5 x7 P.Iw P.Ib P.W1i P.W1h P.b1i P.b1h (ix2 r k) := by
  unfold val_main_v45
  exact concatenate_pair_apply_left (t := S8192x544) (s₁ := S8192x512) (s₂ := S8192x32) 1 _ _ _ _ rfl (ix2 r k)
    (fun b => match b with | ⟨0, _⟩ => rfl | ⟨1, _⟩ => rfl)
/-- The same row read in its second piece. -/
theorem v45_right (r : Fin 8192) (k : Fin 32) :
    val_main_v45 (F := Ideal) x0 x1 x2 x5 x7 P.Iw P.Ib P.W1i P.W1h P.b1i P.b1h (ix2 r (⟨512 + k.val, by have := k.isLt; omega⟩ : Fin 544))
      = x2 (ix2 r k) := by
  unfold val_main_v45
  exact concatenate_pair_apply_right (t := S8192x544) (s₁ := S8192x512) (s₂ := S8192x32) 1 _ _ _ _ rfl rfl (ix2 r k)
    (fun b hb => match b, hb with | ⟨0, _⟩, _ => rfl | ⟨1, _⟩, hb => absurd rfl hb) (Nat.add_comm _ _)

/-- The second cell's input pre-activation, over the joined row [x1, a2]. -/
theorem st_v50 :
    val_main_v50 (F := Ideal) x0 x1 x2 x5 x7 P.Iw P.Ib P.W1i P.W1h P.b1i P.b1h P.W2i P.b2i
      = byRows (rGI2 P x0 x1 x2 x5 x7) := by
  funext i
  obtain ⟨r, q, rfl⟩ : ∃ (r : Fin 8192) (q : Fin 1536), i = ix2 r q := ⟨i 0, i 1, eq_ix2 i⟩
  rw [val_main_v50_apply, val_main_v47_apply, val_main_v49_apply, val_main_v48_apply, sum_544]
  have el : ∀ k : Fin 544, lidx_main_v47 (ix2 r q) k = ix2 r k := fun k => by idx2
  have er : ∀ k : Fin 544, idx_main_v46 (ridx_main_v47 (ix2 r q) k) = ix2 q k := fun k => by idx2
  have eb : idx_main_v48 (idx_main_v49 (ix2 r q)) = ix1 q := by idx1
  simp only [val_main_v46_apply, el, er, eb, v45_left, v45_right, st_v44, Ideal.addf_def, byRows_apply, rGI2, dotT,
    rowOf, Nat.zero_add]

/-- The second cell's state pre-activation. -/
theorem st_v55 : val_main_v55 (F := Ideal) x6 P.W2h P.b2h = byRows (rGH2 P x6) := by
  funext i
  obtain ⟨r, q, rfl⟩ : ∃ (r : Fin 8192) (q : Fin 1536), i = ix2 r q := ⟨i 0, i 1, eq_ix2 i⟩
  rw [val_main_v55_apply, val_main_v52_apply, val_main_v54_apply, val_main_v53_apply]
  have el : ∀ k : Fin 512, lidx_main_v52 (ix2 r q) k = ix2 r k := fun k => by idx2
  have er : ∀ k : Fin 512, idx_main_v51 (ridx_main_v52 (ix2 r q) k) = ix2 q k := fun k => by idx2
  have eb : idx_main_v53 (idx_main_v54 (ix2 r q)) = ix1 q := by idx1
  simp only [val_main_v51_apply, el, er, eb, Ideal.addf_def, byRows_apply, rGH2, dotT_zero, rowOf]

/-- The second cell. -/
theorem st_v83 :
    val_main_v83 (F := Ideal) x0 x1 x2 x5 x6 x7 P.Iw P.Ib P.W1i P.W1h P.b1i P.b1h P.W2i P.W2h P.b2i P.b2h
      = byRows (rH2 P x0 x1 x2 x5 x6 x7) := by
  funext i
  obtain ⟨r, q, rfl⟩ : ∃ (r : Fin 8192) (q : Fin 512), i = ix2 r q := ⟨i 0, i 1, eq_ix2 i⟩
  have i0 : idx_main_v56 (ix2 r q) = ix2 r (third 0 q) := by rw [third_zero]; idx2
  have i1 : idx_main_v57 (ix2 r q) = ix2 r (third 1 q) := by rw [third_one]; idx2
  have i2 : idx_main_v58 (ix2 r q) = ix2 r (third 2 q) := by rw [third_two]; idx2
  have h0 : idx_main_v59 (ix2 r q) = ix2 r (third 0 q) := by rw [third_zero]; idx2
  have h1 : idx_main_v60 (ix2 r q) = ix2 r (third 1 q) := by rw [third_one]; idx2
  have h2 : idx_main_v61 (ix2 r q) = ix2 r (third 2 q) := by rw [third_two]; idx2
  simp only [val_main_v83_apply, val_main_v81_apply, val_main_v82_apply, val_main_v80_apply, val_main_v79_apply,
    val_main_v78_apply, val_main_v77_apply, val_main_v76_apply, val_main_v75_apply, val_main_v74_apply,
    val_main_v73_apply, val_main_v72_apply, val_main_v71_apply, val_main_v70_apply, val_main_v69_apply,
    val_main_v68_apply, val_main_v67_apply, val_main_v66_apply, val_main_v65_apply, val_main_v64_apply,
    val_main_v63_apply, val_main_v62_apply, val_main_v61_apply, val_main_v60_apply, val_main_v59_apply,
    val_main_v58_apply, val_main_v57_apply, val_main_v56_apply,
    val_main_cst_4_apply, val_main_cst_5_apply, val_main_cst_6_apply, val_main_cst_7_apply, val_main_cst_8_apply, st_v50, st_v55, i0, i1, i2, h0, h1, h2, byRows_apply,
    Ideal.addf_def, Ideal.subf_def, Ideal.mulf_def, Ideal.hostDivf_def, Ideal.hostNegf_def, Ideal.negf_def,
    Ideal.hostUnary_exp_def, Ideal.hostUnary_tanh_def, Ideal.ofBits_def, sigmoid_words, rH2, cell, rowOf]

/-- The second residual sum. -/
theorem st_v84 :
    val_main_v84 (F := Ideal) x0 x1 x2 x5 x6 x7 P.Iw P.Ib P.W1i P.W1h P.b1i P.b1h P.W2i P.W2h P.b2i P.b2h
      = byRows (rX2 P x0 x1 x2 x5 x6 x7) := by
  funext i
  obtain ⟨r, q, rfl⟩ : ∃ (r : Fin 8192) (q : Fin 512), i = ix2 r q := ⟨i 0, i 1, eq_ix2 i⟩
  rw [val_main_v84_apply, st_v44, st_v83]
  simp only [Ideal.addf_def, byRows_apply, rX2, radd]

/-- The row joined from a 512-wide stage and a 32-wide argument, read in its first piece. -/
theorem v85_left (r : Fin 8192) (k : Fin 512) :
    val_main_v85 (F := Ideal) x0 x1 x2 x3 x5 x6 x7 P.Iw P.Ib P.W1i P.W1h P.b1i P.b1h P.W2i P.W2h P.b2i P.b2h (ix2 r (⟨k.val, by have := k.isLt; omega⟩ : Fin 544))
      = val_main_v84 (F := Ideal) x0 x1 x2 x5 x6 x7 P.Iw P.Ib P.W1i P.W1h P.b1i P.b1h P.W2i P.W2h P.b2i P.b2h (ix2 r k) := by
  unfold val_main_v85
  exact concatenate_pair_apply_left (t := S8192x544) (s₁ := S8192x512) (s₂ := S8192x32) 1 _ _ _ _ rfl (ix2 r k)
    (fun b => match b with | ⟨0, _⟩ => rfl | ⟨1, _⟩ => rfl)
/-- The same row read in its second piece. -/
theorem v85_right (r : Fin 8192) (k : Fin 32) :
    val_main_v85 (F := Ideal) x0 x1 x2 x3 x5 x6 x7 P.Iw P.Ib P.W1i P.W1h P.b1i P.b1h P.W2i P.W2h P.b2i P.b2h (ix2 r (⟨512 + k.val, by have := k.isLt; omega⟩ : Fin 544))
      = x3 (ix2 r k) := by
  unfold val_main_v85
  exact concatenate_pair_apply_right (t := S8192x544) (s₁ := S8192x512) (s₂ := S8192x32) 1 _ _ _ _ rfl rfl (ix2 r k)
    (fun b hb => match b, hb with | ⟨0, _⟩, _ => rfl | ⟨1, _⟩, hb => absurd rfl hb) (Nat.add_comm _ _)

/-- The first dense layer before the maximum, over the joined row [x2, a3]. -/
theorem st_v90 :
    val_main_v90 (F := Ideal) x0 x1 x2 x3 x5 x6 x7 P.Iw P.Ib P.W1i P.W1h P.b1i P.b1h P.W2i P.W2h P.b2i P.b2h P.F1 P.c1
      = byRows (rD1 P x0 x1 x2 x3 x5 x6 x7) := by
  funext i
  obtain ⟨r, q, rfl⟩ : ∃ (r : Fin 8192) (q : Fin 512), i = ix2 r q := ⟨i 0, i 1, eq_ix2 i⟩
  rw [val_main_v90_apply, val_main_v87_apply, val_main_v89_apply, val_main_v88_apply, sum_544]
  have el : ∀ k : Fin 544, lidx_main_v87 (ix2 r q) k = ix2 r k := fun k => by idx2
  have er : ∀ k : Fin 544, idx_main_v86 (ridx_main_v87 (ix2 r q) k) = ix2 q k := fun k => by idx2
  have eb : idx_main_v88 (idx_main_v89 (ix2 r q)) = ix1 q := by idx1
  simp only [val_main_v86_apply, el, er, eb, v85_left, v85_right, st_v84, Ideal.addf_def, byRows_apply, rD1, dotT,
    rowOf, Nat.zero_add]

/-- The first dense layer. -/
theorem st_v91 :
    val_main_v91 (F := Ideal) x0 x1 x2 x3 x5 x6 x7 P.Iw P.Ib P.W1i P.W1h P.b1i P.b1h P.W2i P.W2h P.b2i P.b2h P.F1 P.c1
      = byRows (rY1 P x0 x1 x2 x3 x5 x6 x7) := by
  funext i
  obtain ⟨r, q, rfl⟩ : ∃ (r : Fin 8192) (q : Fin 512), i = ix2 r q := ⟨i 0, i 1, eq_ix2 i⟩
  rw [val_main_v91_apply, val_main_call0_v0_apply, val_main_call0_cst_apply, st_v90]
  simp only [Ideal.maximumf_def, Ideal.ofBits_def, byRows_apply, rY1, rD1, dense, ramp]

/-- The row joined from a 512-wide stage and a 32-wide argument, read in its first piece. -/
theorem v92_left (r : Fin 8192) (k : Fin 512) :
    val_main_v92 (F := Ideal) x0 x1 x2 x3 x4 x5 x6 x7 P.Iw P.Ib P.W1i P.W1h P.b1i P.b1h P.W2i P.W2h P.b2i P.b2h P.F1 P.c1 (ix2 r (⟨k.val, by have := k.isLt; omega⟩ : Fin 544))
      = val_main_v91 (F := Ideal) x0 x1 x2 x3 x5 x6 x7 P.Iw P.Ib P.W1i P.W1h P.b1i P.b1h P.W2i P.W2h P.b2i P.b2h P.F1 P.c1 (ix2 r k) := by
  unfold val_main_v92
  exact concatenate_pair_apply_left (t := S8192x544) (s₁ := S8192x512) (s₂ := S8192x32) 1 _ _ _ _ rfl (ix2 r k)
    (fun b => match b with | ⟨0, _⟩ => rfl | ⟨1, _⟩ => rfl)
/-- The same row read in its second piece. -/
theorem v92_right (r : Fin 8192) (k : Fin 32) :
    val_main_v92 (F := Ideal) x0 x1 x2 x3 x4 x5 x6 x7 P.Iw P.Ib P.W1i P.W1h P.b1i P.b1h P.W2i P.W2h P.b2i P.b2h P.F1 P.c1 (ix2 r (⟨512 + k.val, by have := k.isLt; omega⟩ : Fin 544))
      = x4 (ix2 r k) := by
  unfold val_main_v92
  exact concatenate_pair_apply_right (t := S8192x544) (s₁ := S8192x512) (s₂ := S8192x32) 1 _ _ _ _ rfl rfl (ix2 r k)
    (fun b hb => match b, hb with | ⟨0, _⟩, _ => rfl | ⟨1, _⟩, hb => absurd rfl hb) (Nat.add_comm _ _)

/-- The second dense layer before the maximum, over the joined row [y1, a4]. -/
theorem st_v97 :
    val_main_v97 (F := Ideal) x0 x1 x2 x3 x4 x5 x6 x7 P.Iw P.Ib P.W1i P.W1h P.b1i P.b1h P.W2i P.W2h P.b2i P.b2h P.F1 P.c1 P.F2 P.c2
      = byRows (rD2 P x0 x1 x2 x3 x4 x5 x6 x7) := by
  funext i
  obtain ⟨r, q, rfl⟩ : ∃ (r : Fin 8192) (q : Fin 512), i = ix2 r q := ⟨i 0, i 1, eq_ix2 i⟩
  rw [val_main_v97_apply, val_main_v94_apply, val_main_v96_apply, val_main_v95_apply, sum_544]
  have el : ∀ k : Fin 544, lidx_main_v94 (ix2 r q) k = ix2 r k := fun k => by idx2
  have er : ∀ k : Fin 544, idx_main_v93 (ridx_main_v94 (ix2 r q) k) = ix2 q k := fun k => by idx2
  have eb : idx_main_v95 (idx_main_v96 (ix2 r q)) = ix1 q := by idx1
  simp only [val_main_v93_apply, el, er, eb, v92_left, v92_right, st_v91, Ideal.addf_def, byRows_apply, rD2, dotT,
    rowOf, Nat.zero_add]

/-- The second dense layer. -/
theorem st_v98 :
    val_main_v98 (F := Ideal) x0 x1 x2 x3 x4 x5 x6 x7 P.Iw P.Ib P.W1i P.W1h P.b1i P.b1h P.W2i P.W2h P.b2i P.b2h P.F1 P.c1 P.F2 P.c2
      = byRows (rY2 P x0 x1 x2 x3 x4 x5 x6 x7) := by
  funext i
  obtain ⟨r, q, rfl⟩ : ∃ (r : Fin 8192) (q : Fin 512), i = ix2 r q := ⟨i 0, i 1, eq_ix2 i⟩
  rw [val_main_v98_apply, val_main_call1_v0_apply, val_main_call1_cst_apply, st_v97]
  simp only [Ideal.maximumf_def, Ideal.ofBits_def, byRows_apply, rY2, rD2, dense, ramp]

/-- The output layer. -/
theorem st_v103 :
    val_main_v103 (F := Ideal) x0 x1 x2 x3 x4 x5 x6 x7 P.Iw P.Ib P.W1i P.W1h P.b1i P.b1h P.W2i P.W2h P.b2i P.b2h P.F1 P.c1 P.F2 P.c2 P.F3 P.c3
      = byRows (rOut P x0 x1 x2 x3 x4 x5 x6 x7) := by
  funext i
  obtain ⟨r, q, rfl⟩ : ∃ (r : Fin 8192) (q : Fin 512), i = ix2 r q := ⟨i 0, i 1, eq_ix2 i⟩
  rw [val_main_v103_apply, val_main_v100_apply, val_main_v102_apply, val_main_v101_apply, st_v98]
  have el : ∀ k : Fin 512, lidx_main_v100 (ix2 r q) k = ix2 r k := fun k => by idx2
  have er : ∀ k : Fin 512, idx_main_v99 (ridx_main_v100 (ix2 r q) k) = ix2 q k := fun k => by idx2
  have eb : idx_main_v101 (idx_main_v102 (ix2 r q)) = ix1 q := by idx1
  simp only [val_main_v99_apply, el, er, eb, Ideal.addf_def, byRows_apply, rOut, outLayer, dotT_zero, rowOf]

end Stages

/-! ## The three results -/

/-- The network's parameters from the program's sixteen weight and bias arguments, in their order. -/
def params (x8 : Cert.Net.Mat 512 113) (x9 : Cert.Net.Vec1 512) (x10 x11 : Cert.Net.Mat 1536 512) (x12 x13 : Cert.Net.Vec1 1536)
    (x14 : Cert.Net.Mat 1536 544) (x15 : Cert.Net.Mat 1536 512) (x16 x17 : Cert.Net.Vec1 1536) (x18 : Cert.Net.Mat 512 544)
    (x19 : Cert.Net.Vec1 512) (x20 : Cert.Net.Mat 512 544) (x21 : Cert.Net.Vec1 512) (x22 : Cert.Net.Mat 512 512)
    (x23 : Cert.Net.Vec1 512) : Cert.Net.Params :=
  ⟨x8, x9, x10, x11, x12, x13, x14, x15, x16, x17, x18, x19, x20, x21, x22, x23⟩

/-- The program's first result is the step's output on every row. -/
theorem ref_out
    (x0 : (⟨S8192x80, .f32⟩ : BufTy).Contents (Elt Ideal)) (x1 : (⟨S8192x32, .f32⟩ : BufTy).Contents (Elt Ideal))
    (x2 : (⟨S8192x32, .f32⟩ : BufTy).Contents (Elt Ideal)) (x3 : (⟨S8192x32, .f32⟩ : BufTy).Contents (Elt Ideal))
    (x4 : (⟨S8192x32, .f32⟩ : BufTy).Contents (Elt Ideal)) (x5 : (⟨S8192x512, .f32⟩ : BufTy).Contents (Elt Ideal))
    (x6 : (⟨S8192x512, .f32⟩ : BufTy).Contents (Elt Ideal)) (x7 : (⟨S8192x1, .f32⟩ : BufTy).Contents (Elt Ideal))
    (x8 : (⟨S512x113, .f32⟩ : BufTy).Contents (Elt Ideal)) (x9 : (⟨S512, .f32⟩ : BufTy).Contents (Elt Ideal))
    (x10 : (⟨S1536x512, .f32⟩ : BufTy).Contents (Elt Ideal))
    (x11 : (⟨S1536x512, .f32⟩ : BufTy).Contents (Elt Ideal)) (x12 : (⟨S1536, .f32⟩ : BufTy).Contents (Elt Ideal))
    (x13 : (⟨S1536, .f32⟩ : BufTy).Contents (Elt Ideal)) (x14 : (⟨S1536x544, .f32⟩ : BufTy).Contents (Elt Ideal))
    (x15 : (⟨S1536x512, .f32⟩ : BufTy).Contents (Elt Ideal)) (x16 : (⟨S1536, .f32⟩ : BufTy).Contents (Elt Ideal))
    (x17 : (⟨S1536, .f32⟩ : BufTy).Contents (Elt Ideal)) (x18 : (⟨S512x544, .f32⟩ : BufTy).Contents (Elt Ideal))
    (x19 : (⟨S512, .f32⟩ : BufTy).Contents (Elt Ideal)) (x20 : (⟨S512x544, .f32⟩ : BufTy).Contents (Elt Ideal))
    (x21 : (⟨S512, .f32⟩ : BufTy).Contents (Elt Ideal)) (x22 : (⟨S512x512, .f32⟩ : BufTy).Contents (Elt Ideal))
    (x23 : (⟨S512, .f32⟩ : BufTy).Contents (Elt Ideal)) :
    Cert.ReferenceIdeal.Read.val_main_v103 (F := Ideal) x0 x1 x2 x3 x4 x5 x6 x7 x8 x9 x10 x11 x12 x13 x14 x15 x16 x17 x18 x19 x20 x21 x22 x23
      = Cert.Net.byRows fun r => (Cert.Net.stepRows (params x8 x9 x10 x11 x12 x13 x14 x15 x16 x17 x18 x19 x20 x21 x22 x23) x7 x0 x1 x2 x3 x4 x5 x6 r).1 :=
  st_v103 (params x8 x9 x10 x11 x12 x13 x14 x15 x16 x17 x18 x19 x20 x21 x22 x23) x0 x1 x2 x3 x4 x5 x6 x7

/-- The program's second result is the first cell's new state on every row. -/
theorem ref_hid1
    (x0 : (⟨S8192x80, .f32⟩ : BufTy).Contents (Elt Ideal)) (x1 : (⟨S8192x32, .f32⟩ : BufTy).Contents (Elt Ideal))
    (x2 : (⟨S8192x32, .f32⟩ : BufTy).Contents (Elt Ideal)) (x3 : (⟨S8192x32, .f32⟩ : BufTy).Contents (Elt Ideal))
    (x4 : (⟨S8192x32, .f32⟩ : BufTy).Contents (Elt Ideal)) (x5 : (⟨S8192x512, .f32⟩ : BufTy).Contents (Elt Ideal))
    (x6 : (⟨S8192x512, .f32⟩ : BufTy).Contents (Elt Ideal)) (x7 : (⟨S8192x1, .f32⟩ : BufTy).Contents (Elt Ideal))
    (x8 : (⟨S512x113, .f32⟩ : BufTy).Contents (Elt Ideal)) (x9 : (⟨S512, .f32⟩ : BufTy).Contents (Elt Ideal))
    (x10 : (⟨S1536x512, .f32⟩ : BufTy).Contents (Elt Ideal))
    (x11 : (⟨S1536x512, .f32⟩ : BufTy).Contents (Elt Ideal)) (x12 : (⟨S1536, .f32⟩ : BufTy).Contents (Elt Ideal))
    (x13 : (⟨S1536, .f32⟩ : BufTy).Contents (Elt Ideal)) (x14 : (⟨S1536x544, .f32⟩ : BufTy).Contents (Elt Ideal))
    (x15 : (⟨S1536x512, .f32⟩ : BufTy).Contents (Elt Ideal)) (x16 : (⟨S1536, .f32⟩ : BufTy).Contents (Elt Ideal))
    (x17 : (⟨S1536, .f32⟩ : BufTy).Contents (Elt Ideal)) (x18 : (⟨S512x544, .f32⟩ : BufTy).Contents (Elt Ideal))
    (x19 : (⟨S512, .f32⟩ : BufTy).Contents (Elt Ideal)) (x20 : (⟨S512x544, .f32⟩ : BufTy).Contents (Elt Ideal))
    (x21 : (⟨S512, .f32⟩ : BufTy).Contents (Elt Ideal)) (x22 : (⟨S512x512, .f32⟩ : BufTy).Contents (Elt Ideal))
    (x23 : (⟨S512, .f32⟩ : BufTy).Contents (Elt Ideal)) :
    Cert.ReferenceIdeal.Read.val_main_v43 (F := Ideal) x0 x1 x5 x7 x8 x9 x10 x11 x12 x13
      = Cert.Net.byRows fun r => (Cert.Net.stepRows (params x8 x9 x10 x11 x12 x13 x14 x15 x16 x17 x18 x19 x20 x21 x22 x23) x7 x0 x1 x2 x3 x4 x5 x6 r).2.1 :=
  st_v43 (params x8 x9 x10 x11 x12 x13 x14 x15 x16 x17 x18 x19 x20 x21 x22 x23) x0 x1 x5 x7

/-- The program's third result is the second cell's new state on every row. -/
theorem ref_hid2
    (x0 : (⟨S8192x80, .f32⟩ : BufTy).Contents (Elt Ideal)) (x1 : (⟨S8192x32, .f32⟩ : BufTy).Contents (Elt Ideal))
    (x2 : (⟨S8192x32, .f32⟩ : BufTy).Contents (Elt Ideal)) (x3 : (⟨S8192x32, .f32⟩ : BufTy).Contents (Elt Ideal))
    (x4 : (⟨S8192x32, .f32⟩ : BufTy).Contents (Elt Ideal)) (x5 : (⟨S8192x512, .f32⟩ : BufTy).Contents (Elt Ideal))
    (x6 : (⟨S8192x512, .f32⟩ : BufTy).Contents (Elt Ideal)) (x7 : (⟨S8192x1, .f32⟩ : BufTy).Contents (Elt Ideal))
    (x8 : (⟨S512x113, .f32⟩ : BufTy).Contents (Elt Ideal)) (x9 : (⟨S512, .f32⟩ : BufTy).Contents (Elt Ideal))
    (x10 : (⟨S1536x512, .f32⟩ : BufTy).Contents (Elt Ideal))
    (x11 : (⟨S1536x512, .f32⟩ : BufTy).Contents (Elt Ideal)) (x12 : (⟨S1536, .f32⟩ : BufTy).Contents (Elt Ideal))
    (x13 : (⟨S1536, .f32⟩ : BufTy).Contents (Elt Ideal)) (x14 : (⟨S1536x544, .f32⟩ : BufTy).Contents (Elt Ideal))
    (x15 : (⟨S1536x512, .f32⟩ : BufTy).Contents (Elt Ideal)) (x16 : (⟨S1536, .f32⟩ : BufTy).Contents (Elt Ideal))
    (x17 : (⟨S1536, .f32⟩ : BufTy).Contents (Elt Ideal)) (x18 : (⟨S512x544, .f32⟩ : BufTy).Contents (Elt Ideal))
    (x19 : (⟨S512, .f32⟩ : BufTy).Contents (Elt Ideal)) (x20 : (⟨S512x544, .f32⟩ : BufTy).Contents (Elt Ideal))
    (x21 : (⟨S512, .f32⟩ : BufTy).Contents (Elt Ideal)) (x22 : (⟨S512x512, .f32⟩ : BufTy).Contents (Elt Ideal))
    (x23 : (⟨S512, .f32⟩ : BufTy).Contents (Elt Ideal)) :
    Cert.ReferenceIdeal.Read.val_main_v83 (F := Ideal) x0 x1 x2 x5 x6 x7 x8 x9 x10 x11 x12 x13 x14 x15 x16 x17
      = Cert.Net.byRows fun r => (Cert.Net.stepRows (params x8 x9 x10 x11 x12 x13 x14 x15 x16 x17 x18 x19 x20 x21 x22 x23) x7 x0 x1 x2 x3 x4 x5 x6 r).2.2 :=
  st_v83 (params x8 x9 x10 x11 x12 x13 x14 x15 x16 x17 x18 x19 x20 x21 x22 x23) x0 x1 x2 x5 x6 x7

end Cert.RefStep

end
-- ==== Proof.ReferenceFrame.lean ====
/-
  The reference program is host operations only: its run to completion, with every result at the composed term of
  its operations and every argument array as it was found, is read off the program text. Dropping the three results from
  that run leaves the frame statement: it terminates, faults nowhere, and its argument arrays end unchanged.
-/
import proofs.«135078_j14224931684623_2_alg».proof.Defs
import proofs.«135078_j14224931684623_2_alg».proof.Proof.Gen.ReferenceIdeal
import proofs.«135078_j14224931684623_2_alg».proof.Proof.Gen.Pre_finite_inputs
import proofs.«135078_j14224931684623_2_alg».proof.Proof.Gen.ReferenceIdeal.Run
import proofs.«135078_j14224931684623_2_alg».proof.Proof.Gen.ReferenceIdeal.Read

noncomputable section

open Idealize.ShloMosaic Idealize.ShloMosaic.TcCoe Idealize.SL.Sem

namespace Cert.Proof.Reference

/-- The reference terminates without a fault and leaves its twenty-four argument arrays unchanged. -/
theorem frame : Cert.frame_ReferenceIdeal := fun m ρ _ =>
  (θ_run Cert.ReferenceIdeal.defs _ _).mono (fun _ h c => (h c).2.2.2) (Cert.ReferenceIdeal.Value.run (F := Ideal) m ρ)

end Cert.Proof.Reference

end
-- ==== Proof.Claims.lean ====
/-
  The kernel's step is the specification's step, and the five claims.

  On every batch row the kernel applies the step with its weights held as [inputs, outputs], the joined first row padded
  with fifteen zeros against fifteen zero rows of the first weight, and the weights meeting a joined row [y, a] cut in two.
  Entry by entry those held weights are the arguments' own entries (a transpose, a cut, a change of float format that does
  nothing on the extended reals), the fifteen padded products are 0 · 0, and a sum over a joined row is the sum over its
  pieces: so the kernel's three result arrays are the specification's step on every row of the arguments. The reference's
  three results are that too, read operation by operation. Hence equal results from equal arguments; the three programs'
  frames are their runs with the results dropped; nothing was rewritten by the idealization, so it preserves trivially.
-/
import proofs.«135078_j14224931684623_2_alg».proof.Defs
import proofs.«135078_j14224931684623_2_alg».proof.Proof.KernelValue
import proofs.«135078_j14224931684623_2_alg».proof.Proof.KernelFrame
import proofs.«135078_j14224931684623_2_alg».proof.Proof.HostPrefix
import proofs.«135078_j14224931684623_2_alg».proof.Proof.ReferenceStep
import proofs.«135078_j14224931684623_2_alg».proof.Proof.ReferenceFrame

set_option maxRecDepth 16384

noncomputable section

open Idealize.ShloMosaic Idealize.ShloMosaic.TcCoe Idealize.ShloMosaic.ValueIdx Idealize.SL.Sem

namespace Cert.Proof.Bridge

open Cert.Net Cert.Tile Cert.KernelIdeal Cert.KernelIdeal.Gen Cert.KernelIdeal.Frm Cert.KernelIdeal.Val

variable (m : (ℓ : Loc nD τ sig) → Buf (Elt Ideal) ℓ)

/-- The specification's parameters read off the kernel program's argument arrays as launched. -/
def argParams (c : Dev nD) : Params :=
  Cert.RefStep.params (m ((c.tc : Thread nD τ).loc main_arg8) : S512x113.Idx → EReal)
    (m ((c.tc : Thread nD τ).loc main_arg9) : S512.Idx → EReal)
    (m ((c.tc : Thread nD τ).loc main_arg10) : S1536x512.Idx → EReal)
    (m ((c.tc : Thread nD τ).loc main_arg11) : S1536x512.Idx → EReal)
    (m ((c.tc : Thread nD τ).loc main_arg12) : S1536.Idx → EReal)
    (m ((c.tc : Thread nD τ).loc main_arg13) : S1536.Idx → EReal)
    (m ((c.tc : Thread nD τ).loc main_arg14) : S1536x544.Idx → EReal)
    (m ((c.tc : Thread nD τ).loc main_arg15) : S1536x512.Idx → EReal)
    (m ((c.tc : Thread nD τ).loc main_arg16) : S1536.Idx → EReal)
    (m ((c.tc : Thread nD τ).loc main_arg17) : S1536.Idx → EReal)
    (m ((c.tc : Thread nD τ).loc main_arg18) : S512x544.Idx → EReal)
    (m ((c.tc : Thread nD τ).loc main_arg19) : S512.Idx → EReal)
    (m ((c.tc : Thread nD τ).loc main_arg20) : S512x544.Idx → EReal)
    (m ((c.tc : Thread nD τ).loc main_arg21) : S512.Idx → EReal)
    (m ((c.tc : Thread nD τ).loc main_arg22) : S512x512.Idx → EReal)
    (m ((c.tc : Thread nD τ).loc main_arg23) : S512.Idx → EReal)

set_option maxHeartbeats 4000000 in
/-- On every row the kernel's step, over the arrays as the region finds them, is the specification's step over the
    arguments as launched. -/
theorem rowStep_eq (c : Dev nD) (r : Fin 8192) :
    rowStep m c r = stepRows (argParams m c) (m ((c.tc : Thread nD τ).loc main_arg7) : S8192x1.Idx → EReal) (m ((c.tc : Thread nD τ).loc main_arg0) : S8192x80.Idx → EReal)
      (m ((c.tc : Thread nD τ).loc main_arg1) : S8192x32.Idx → EReal) (m ((c.tc : Thread nD τ).loc main_arg2) : S8192x32.Idx → EReal) (m ((c.tc : Thread nD τ).loc main_arg3) : S8192x32.Idx → EReal)
      (m ((c.tc : Thread nD τ).loc main_arg4) : S8192x32.Idx → EReal) (m ((c.tc : Thread nD τ).loc main_arg5) : S8192x512.Idx → EReal) (m ((c.tc : Thread nD τ).loc main_arg6) : S8192x512.Idx → EReal) r := by
  unfold rowStep stepRows
  rw [V_main_arg2 m c, V_main_arg3 m c, V_main_arg4 m c, V_main_arg5 m c, V_main_arg6 m c]
  exact kstep_eq_step _ (argParams m c) _ _ _ _ _ _ _ _ _
    (Cert.KernelIdeal.Pre.inSum m c r) (V_main_arg9 m c)
    (Cert.KernelIdeal.Pre.w1i m c) (Cert.KernelIdeal.Pre.w1h m c) (V_main_arg12 m c) (V_main_arg13 m c)
    (Cert.KernelIdeal.Pre.w2m m c) (Cert.KernelIdeal.Pre.w2a m c) (Cert.KernelIdeal.Pre.w2h m c) (V_main_arg16 m c) (V_main_arg17 m c)
    (Cert.KernelIdeal.Pre.f1m m c) (Cert.KernelIdeal.Pre.f1a m c) (V_main_arg19 m c)
    (Cert.KernelIdeal.Pre.f2m m c) (Cert.KernelIdeal.Pre.f2a m c) (V_main_arg21 m c)
    (Cert.KernelIdeal.Pre.f3 m c) (V_main_arg23 m c)

/-- The kernel's first result array is the output layer of the step on every row of the arguments. -/
theorem out_eq (c : Dev nD) : G25 m c = byRows fun r => (stepRows (argParams m c) (m ((c.tc : Thread nD τ).loc main_arg7) : S8192x1.Idx → EReal) (m ((c.tc : Thread nD τ).loc main_arg0) : S8192x80.Idx → EReal)
      (m ((c.tc : Thread nD τ).loc main_arg1) : S8192x32.Idx → EReal) (m ((c.tc : Thread nD τ).loc main_arg2) : S8192x32.Idx → EReal) (m ((c.tc : Thread nD τ).loc main_arg3) : S8192x32.Idx → EReal)
      (m ((c.tc : Thread nD τ).loc main_arg4) : S8192x32.Idx → EReal) (m ((c.tc : Thread nD τ).loc main_arg5) : S8192x512.Idx → EReal) (m ((c.tc : Thread nD τ).loc main_arg6) : S8192x512.Idx → EReal) r).1 :=
  congrArg byRows (funext fun r => congrArg (fun s => s.1) (rowStep_eq m c r))

/-- The second is the first cell's new state on every row. -/
theorem hid1_eq (c : Dev nD) : G26 m c = byRows fun r => (stepRows (argParams m c) (m ((c.tc : Thread nD τ).loc main_arg7) : S8192x1.Idx → EReal) (m ((c.tc : Thread nD τ).loc main_arg0) : S8192x80.Idx → EReal)
      (m ((c.tc : Thread nD τ).loc main_arg1) : S8192x32.Idx → EReal) (m ((c.tc : Thread nD τ).loc main_arg2) : S8192x32.Idx → EReal) (m ((c.tc : Thread nD τ).loc main_arg3) : S8192x32.Idx → EReal)
      (m ((c.tc : Thread nD τ).loc main_arg4) : S8192x32.Idx → EReal) (m ((c.tc : Thread nD τ).loc main_arg5) : S8192x512.Idx → EReal) (m ((c.tc : Thread nD τ).loc main_arg6) : S8192x512.Idx → EReal) r).2.1 :=
  congrArg byRows (funext fun r => congrArg (fun s => s.2.1) (rowStep_eq m c r))

/-- The third is the second cell's new state on every row. -/
theorem hid2_eq (c : Dev nD) : G27 m c = byRows fun r => (stepRows (argParams m c) (m ((c.tc : Thread nD τ).loc main_arg7) : S8192x1.Idx → EReal) (m ((c.tc : Thread nD τ).loc main_arg0) : S8192x80.Idx → EReal)
      (m ((c.tc : Thread nD τ).loc main_arg1) : S8192x32.Idx → EReal) (m ((c.tc : Thread nD τ).loc main_arg2) : S8192x32.Idx → EReal) (m ((c.tc : Thread nD τ).loc main_arg3) : S8192x32.Idx → EReal)
      (m ((c.tc : Thread nD τ).loc main_arg4) : S8192x32.Idx → EReal) (m ((c.tc : Thread nD τ).loc main_arg5) : S8192x512.Idx → EReal) (m ((c.tc : Thread nD τ).loc main_arg6) : S8192x512.Idx → EReal) r).2.2 :=
  congrArg byRows (funext fun r => congrArg (fun s => s.2.2) (rowStep_eq m c r))

end Cert.Proof.Bridge

namespace Cert.Proof

open Cert.KernelIdeal.Val Cert.Proof.Bridge

/-- The kernel program as printed terminates without a fault and leaves its argument arrays unchanged. -/
theorem frame_kernel : Cert.frame_Kernel := fun m ρ _ => Cert.Kernel.Frm.frame (F := Bits) m ρ

/-- So does its idealization. -/
theorem frame_kernelIdeal : Cert.frame_KernelIdeal := fun m ρ _ => Cert.KernelIdeal.Frm.frame (F := Ideal) m ρ

/-- From memories agreeing on the arguments, the idealized kernel and the idealized reference end with the same three
    result arrays: both are the step on every row of the arguments. -/
theorem algebraic : Cert.algebraic_KernelIdeal_ReferenceIdeal := by
  intro m ρ m' ρ' _ hagree
  refine ⟨fun c => G25 m c, fun c => G26 m c, fun c => G27 m c, Cert.KernelIdeal.Val.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9, h10, h11, h12, h13, h14, h15, h16, h17, h18, h19, h20, h21, h22, h23⟩ := hagree c
    rw [Cert.ReferenceIdeal.Read.val_main_v103_eq, Cert.RefStep.ref_out, h0, h1, h2, h3, h4, h5, h6, h7, h8, h9, h10, h11, h12, h13, h14, h15, h16, h17, h18, h19, h20, h21, h22, h23]
    exact (out_eq m c).symm
  · obtain ⟨h0, h1, h2, h3, h4, h5, h6, h7, h8, h9, h10, h11, h12, h13, h14, h15, h16, h17, h18, h19, h20, h21, h22, h23⟩ := hagree c
    rw [Cert.ReferenceIdeal.Read.val_main_v43_eq,
      Cert.RefStep.ref_hid1 _ _ (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) _ (m' ((c.tc : Thread Cert.ReferenceIdeal.nD Cert.ReferenceIdeal.τ).loc Cert.ReferenceIdeal.main_arg6)) _ _ _ _ _ _ _ (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
      h0, h1, h2, h3, h4, h5, h6, h7, h8, h9, h10, h11, h12, h13, h14, h15, h16, h17, h18, h19, h20, h21, h22, h23]
    exact (hid1_eq m c).symm
  · obtain ⟨h0, h1, h2, h3, h4, h5, h6, h7, h8, h9, h10, h11, h12, h13, h14, h15, h16, h17, h18, h19, h20, h21, h22, h23⟩ := hagree c
    rw [Cert.ReferenceIdeal.Read.val_main_v83_eq,
      Cert.RefStep.ref_hid2 _ _ _ (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) _ _ _ _ _ _ _ _ _ _ _ _ _ (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)),
      h0, h1, h2, h3, h4, h5, h6, h7, h8, h9, h10, h11, h12, h13, h14, h15, h16, h17, h18, h19, h20, h21, h22, h23]
    exact (hid2_eq m c).symm

end Cert.Proof

end
-- ==== Proof.lean ====
/-
  The certificate: a one-step decode of a two-cell recurrent network, tiled over sixteen blocks of 512 batch rows with the
  weights transposed, narrowed and split beforehand, against the same step written with whole-array operations.

  The three frames are the three programs' runs with the results dropped (Proof/KernelFrame.lean, Proof/KernelIdealFrame.lean,
  Proof/ReferenceFrame.lean). The idealization rewrote no operation, so it preserves trivially. The two idealized programs end
  with equal results because each result array is, on every batch row, the same step of that row of the arguments
  (Proof/StepSpec.lean): the reference read operation by operation (Proof/ReferenceStep.lean); the kernel through what its
  body leaves on a block (Proof/KernelBlocks.lean over Proof/TileRows.lean), the blocks tiling the arrays (Proof/KernelValue.lean),
  its weights read back through the host operations before the region (Proof/HostPrefix.lean), and the regrouping of the sums over
  joined and padded rows (Proof/StepLayouts.lean); assembled in Proof/Claims.lean. No finiteness is used: only the extended
  reals' commutative, associative addition and 0 · x = 0.
-/
import proofs.«135078_j14224931684623_2_alg».proof.Defs
import proofs.«135078_j14224931684623_2_alg».proof.Proof.Claims
import proofs.«135078_j14224931684623_2_alg».proof.Proof.Gen.Kernel
import proofs.«135078_j14224931684623_2_alg».proof.Proof.Gen.KernelIdeal
import proofs.«135078_j14224931684623_2_alg».proof.Proof.Gen.ReferenceIdeal
import proofs.«135078_j14224931684623_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.Reference.frame, trivial, algebraic⟩

end Cert.Proof

end
